-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x512 : Shape := ⟨2, ![1024, 512]⟩
abbrev S1024x1024 : Shape := ⟨2, ![1024, 1024]⟩
abbrev S1x8192 : Shape := ⟨2, ![1, 8192]⟩
abbrev S8192x8192x1 : Shape := ⟨3, ![8192, 8192, 1]⟩
abbrev S1 : Shape := ⟨1, ![1]⟩
abbrev S1x1x1 : Shape := ⟨3, ![1, 1, 1]⟩
abbrev S4095x8192 : Shape := ⟨2, ![4095, 8192]⟩
abbrev S8190x8192 : Shape := ⟨2, ![8190, 8192]⟩
abbrev S8192x8190 : Shape := ⟨2, ![8192, 8190]⟩

abbrev nBuf : Space → Nat
  | .hbm => 84
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8192x8192, .f32⟩
  | .hbm, ⟨15, _⟩ => ⟨S8192, .i32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S8192x8192x1, .i32⟩
  | .hbm, ⟨32, _⟩ => ⟨S1, .i32⟩
  | .hbm, ⟨33, _⟩ => ⟨S_, .i32⟩
  | .hbm, ⟨34, _⟩ => ⟨S8192x8192x1, .i32⟩
  | .hbm, ⟨35, _⟩ => ⟨S8192x8192x1, .i1⟩
  | .hbm, ⟨36, _⟩ => ⟨S1x1x1, .i32⟩
  | .hbm, ⟨37, _⟩ => ⟨S8192x8192x1, .i32⟩
  | .hbm, ⟨38, _⟩ => ⟨S8192x8192x1, .i1⟩
  | .hbm, ⟨39, _⟩ => ⟨S8192x8192x1, .i1⟩
  | .hbm, ⟨40, _⟩ => ⟨S_, .i1⟩
  | .hbm, ⟨41, _⟩ => ⟨S8192x8192, .i1⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S1x8192, .f32⟩
  | .hbm, ⟨48, _⟩ => ⟨S8192, .f32⟩
  | .hbm, ⟨49, _⟩ => ⟨S4095x8192, .f32⟩
  | .hbm, ⟨50, _⟩ => ⟨S4095x8192, .f32⟩
  | .hbm, ⟨51, _⟩ => ⟨S8190x8192, .f32⟩
  | .hbm, ⟨52, _⟩ => ⟨S8192x8190, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192x8190, .f32⟩
  | .hbm, ⟨58, _⟩ => ⟨S8192x8190, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x8190, .f32⟩
  | .hbm, ⟨63, _⟩ => ⟨S8192x8190, .f32⟩
  | .hbm, ⟨64, _⟩ => ⟨S8192x8190, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S8192, .i1⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_0 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_v26 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  shapeCasts_S8192x8192_S8192x8192x1 : S8192x8192.ShapeCasts S8192x8192x1
  bcast_S_S8192x8192x1 : S_.BroadcastsInDim S8192x8192x1 (![] : Fin 0 → Fin S8192x8192x1.rank)
  bcast_S1_S1x1x1_2 : S1.BroadcastsInDim S1x1x1 (![2] : Fin 1 → Fin S1x1x1.rank)
  bcast_S1x1x1_S8192x8192x1_0_1_2 : S1x1x1.BroadcastsInDim S8192x8192x1 (![0, 1, 2] : Fin 3 → Fin S8192x8192x1.rank)
  reducesTo_S8192x8192x1_S8192x8192_d2 : S8192x8192x1.ReducesTo [2] S8192x8192
  transposes_S8192x8192_S8192x8192_1_0 : S8192x8192.Transposes [1, 0] S8192x8192
  slices_S8192x8192_S1x8192_4096_0 : S8192x8192.Slices ![4096, 0] S1x8192
  shapeCasts_S1x8192_S8192 : S1x8192.ShapeCasts S8192
  slices_S8192x8192_S4095x8192_1_0 : S8192x8192.Slices ![1, 0] S4095x8192
  slices_S8192x8192_S4095x8192_4097_0 : S8192x8192.Slices ![4097, 0] S4095x8192
  concatenates_S4095x8192_S4095x8192_S8190x8192_d0 : Shape.Concatenates [S4095x8192, S4095x8192] S8190x8192 0
  shapeCasts_S8190x8192_S8192x8190 : S8190x8192.ShapeCasts S8192x8190
  bcast_S_S8192 : S_.BroadcastsInDim S8192 (![] : Fin 0 → Fin S8192.rank)
  bcast_S_S8192x8190 : S_.BroadcastsInDim S8192x8190 (![] : Fin 0 → Fin S8192x8190.rank)
  reducesTo_S8192x8190_S8192_d1 : S8192x8190.ReducesTo [1] S8192
  bcast_S8192x1_S8192x8190_0_1 : S8192x1.BroadcastsInDim S8192x8190 (![0, 1] : Fin 2 → Fin S8192x8190.rank)
  reducesTo_S8192_S_d0 : S8192.ReducesTo [0] S_
  dot_S1024x512_S1024x512_S1024x1024_1_1_0_0_n_n_wf : DotDims.WF S1024x512 S1024x512 S1024x1024 [1] [1] [0] [0] [] []
  gather_S8192x8192_S8192x8192x1_S8192x8192_n_1_0_0_1_2_11_wf : GatherDims.WF S8192x8192 S8192x8192x1 S8192x8192 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def gather_S8192x8192_S8192x8192x1_S8192x8192_n_1_0_0_1_2_11 : GatherDims S8192x8192 S8192x8192x1 S8192x8192 where
  offsetDims := []
  collapsedSliceDims := [1]
  operandBatchingDims := [0]
  startIndicesBatchingDims := [0]
  startIndexMap := [1]
  indexVectorDim := 2
  sliceSizes := ![1, 1]
  wf := gather_S8192x8192_S8192x8192x1_S8192x8192_n_1_0_0_1_2_11_wf

abbrev win0_0 : Pipeline.Window sig grid0 :=
  Pipeline.Window.ofSpec (Memref.whole main_v6) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩
abbrev S8192x8192x1 : Shape := ⟨3, ![8192, 8192, 1]⟩
abbrev S8192x8192x2 : Shape := ⟨3, ![8192, 8192, 2]⟩
abbrev S4095x8192 : Shape := ⟨2, ![4095, 8192]⟩
abbrev S8190x8192 : Shape := ⟨2, ![8190, 8192]⟩
abbrev S8192x8190 : Shape := ⟨2, ![8192, 8190]⟩
abbrev S8192x8191 : Shape := ⟨2, ![8192, 8191]⟩

abbrev nBuf : Space → Nat
  | .hbm => 96
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S8192, .i32⟩
  | .hbm, ⟨16, _⟩ => ⟨S1x8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i1⟩
  | .hbm, ⟨33, _⟩ => ⟨S_, .i32⟩
  | .hbm, ⟨34, _⟩ => ⟨S8192x8192, .i32⟩
  | .hbm, ⟨35, _⟩ => ⟨S8192x8192, .i1⟩
  | .hbm, ⟨36, _⟩ => ⟨S_, .i32⟩
  | .hbm, ⟨37, _⟩ => ⟨S_, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S8192x8192, .i32⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S1x8192, .i32⟩
  | .hbm, ⟨46, _⟩ => ⟨S1x8192, .i1⟩
  | .hbm, ⟨47, _⟩ => ⟨S_, .i32⟩
  | .hbm, ⟨48, _⟩ => ⟨S1x8192, .i32⟩
  | .hbm, ⟨49, _⟩ => ⟨S1x8192, .i32⟩
  | .hbm, ⟨50, _⟩ => ⟨S1x8192, .i32⟩
  | .hbm, ⟨51, _⟩ => ⟨S_, .i32⟩
  | .hbm, ⟨52, _⟩ => ⟨S8192x8192, .i32⟩
  | .hbm, ⟨53, _⟩ => ⟨S8192x8192, .i1⟩
  | .hbm, ⟨54, _⟩ => ⟨S_, .i32⟩
  | .hbm, ⟨55, _⟩ => ⟨S8192x8192, .i32⟩
  | .hbm, ⟨56, _⟩ => ⟨S8192x8192, .i32⟩
  | .hbm, ⟨57, _⟩ => ⟨S8192x8192, .i32⟩
  | .hbm, ⟨58, _⟩ => ⟨S8192x8192, .i32⟩
  | .hbm, ⟨59, _⟩ => ⟨S8192x8192x1, .i32⟩
  | .hbm, ⟨60, _⟩ => ⟨S8192x8192x1, .i32⟩
  | .hbm, ⟨61, _⟩ => ⟨S8192x8192x2, .i32⟩
  | .hbm, ⟨62, _⟩ => ⟨S8192x8192, .f32⟩
  | .hbm, ⟨63, _⟩ => ⟨S1x8192, .f32⟩
  | .hbm, ⟨64, _⟩ => ⟨S8192, .f32⟩
  | .hbm, ⟨65, _⟩ => ⟨S4095x8192, .f32⟩
  | .hbm, ⟨66, _⟩ => ⟨S4095x8192, .f32⟩
  | .hbm, ⟨67, _⟩ => ⟨S8190x8192, .f32⟩
  | .hbm, ⟨68, _⟩ => ⟨S8192x8190, .f32⟩
  | .hbm, ⟨69, _⟩ => ⟨S8192x1, .f32⟩
  | .hbm, ⟨70, _⟩ => ⟨S8192x8191, .f32⟩
  | .hbm, ⟨71, _⟩ => ⟨S_, .f32⟩
  | .hbm, ⟨72, _⟩ => ⟨S8192x8191, .f32⟩
  | .hbm, ⟨73, _⟩ => ⟨S8192x8191, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x1, .f32⟩
  | .hbm, ⟨80, _⟩ => ⟨S8192x8191, .f32⟩
  | .hbm, ⟨81, _⟩ => ⟨S8192x8191, .f32⟩
  | .hbm, ⟨82, _⟩ => ⟨S8192x8191, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1, .f32⟩
  | .hbm, ⟨87, _⟩ => ⟨S8192x8191, .f32⟩
  | .hbm, ⟨88, _⟩ => ⟨S8192x8191, .f32⟩
  | .hbm, ⟨89, _⟩ => ⟨S8192x1, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v15 : Ref sig .tc := ⟨.hbm, 43, rfl⟩
abbrev main_c_0 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_call2_cst : Ref sig .tc := ⟨.hbm, 74, rfl⟩
abbrev main_call2_v0 : Ref sig .tc := ⟨.hbm, 75, rfl⟩
abbrev main_call2_cst_0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_cst_1 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_5 : Ref sig .tc := ⟨.hbm, 92, rfl⟩
abbrev main_v45 : Ref sig .tc := ⟨.hbm, 93, rfl⟩
abbrev main_cst_6 : Ref sig .tc := ⟨.hbm, 94, rfl⟩
abbrev main_v46 : Ref sig .tc := ⟨.hbm, 95, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  bcast_S_S1x8192 : S_.BroadcastsInDim S1x8192 (![] : Fin 0 → Fin S1x8192.rank)
  bcast_S8192x8192_S8192x8192x1_0_1 : S8192x8192.BroadcastsInDim S8192x8192x1 (![0, 1] : Fin 2 → Fin S8192x8192x1.rank)
  concatenates_S8192x8192x1_S8192x8192x1_S8192x8192x2_d2 : Shape.Concatenates [S8192x8192x1, S8192x8192x1] S8192x8192x2 2
  slices_S8192x8192_S1x8192_4096_0 : S8192x8192.Slices ![4096, 0] S1x8192
  shapeCasts_S1x8192_S8192 : S1x8192.ShapeCasts S8192
  slices_S8192x8192_S4095x8192_1_0 : S8192x8192.Slices ![1, 0] S4095x8192
  slices_S8192x8192_S4095x8192_4097_0 : S8192x8192.Slices ![4097, 0] S4095x8192
  concatenates_S4095x8192_S4095x8192_S8190x8192_d0 : Shape.Concatenates [S4095x8192, S4095x8192] S8190x8192 0
  shapeCasts_S8190x8192_S8192x8190 : S8190x8192.ShapeCasts S8192x8190
  concatenates_S8192x1_S8192x8190_S8192x8191_d1 : Shape.Concatenates [S8192x1, S8192x8190] S8192x8191 1
  bcast_S_S8192x8191 : S_.BroadcastsInDim S8192x8191 (![] : Fin 0 → Fin S8192x8191.rank)
  reducesTo_S8192x8191_S8192_d1 : S8192x8191.ReducesTo [1] S8192
  bcast_S_S8192 : S_.BroadcastsInDim S8192 (![] : Fin 0 → Fin S8192.rank)
  bcast_S8192x1_S8192x8191_0_1 : S8192x1.BroadcastsInDim S8192x8191 (![0, 1] : Fin 2 → Fin S8192x8191.rank)
  slices_S8192x8191_S8192x1_0_0 : S8192x8191.Slices ![0, 0] S8192x1
  shapeCasts_S8192x1_S8192 : S8192x1.ShapeCasts S8192
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x8192x2_S8192x8192_n_01_n_n_01_2_11_wf : GatherDims.WF S8192x8192 S8192x8192x2 S8192x8192 [] [0, 1] [] [0, 1] [] 2 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x8192x2_S8192x8192_n_01_n_n_01_2_11 : GatherDims S8192x8192 S8192x8192x2 S8192x8192 where
  offsetDims := []
  collapsedSliceDims := [0, 1]
  operandBatchingDims := []
  startIndicesBatchingDims := []
  startIndexMap := [0, 1]
  indexVectorDim := 2
  sliceSizes := ![1, 1]
  wf := gather_S8192x8192_S8192x8192x2_S8192x8192_n_01_n_n_01_2_11_wf

class Facts : Prop extends Facts₀ where

variable [Facts]
-- ==== Proof.KBBody.lean ====
/-
  The matrix-product kernel's body and its proof data, for the program in namespace `Cert.Kernel`.

  The kernel is launched on an 8 × 8 grid. At grid point (i, j) it is handed row block i of the normalised matrix x
  (window 0: rows 1024·i … 1024·i+1023, all 512 columns), row block j of THE SAME matrix x (window 1), and writes
  the 1024 × 1024 block (i, j) of the Gram matrix x·xᵀ (window 2): one matrix product of the two input blocks,
  contracted along their columns, into a zero accumulator. Both input windows read one array, so the array's
  full share is dealt in two halves, the left to window 0 and the right to window 1; neither window writes it.
  What the output window's buffer holds after the body is the body's one store read back (`blockOut`), a pure
  function of the two input blocks; the body's triple is run by the symbolic executor.
-/
import proofs.«118001_j3702261809487_2_alg».proof.Proof.Gen.Kernel.Launch
import proofs.«118001_j3702261809487_2_alg».proof.Proof.Gen.Kernel.Skeleton
import proofs.«118001_j3702261809487_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the kernel region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched the block index has not moved since the point before. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The rectangles the body loads and stores through: each buffer whole. -/
abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output window's staging buffer after the body, from the two input blocks: its one store read back. -/
def blockOut (x0 x1 : Vec F S1024x512 .bf16) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The kernel body on whole staging memrefs, the inputs' at contents `x0`, `x1` and the output's at anything, runs
    to the continuation holding the inputs' as they were and the output's at `blockOut x0 x1`. -/
theorem sound_kernel (c : Dev nD) (E : Set ℕ) (i : grid0.Coords)
    (a2 : Memref sig .tc .vmem S1024x512 .bf16) (h2 : a2.IsWhole) (a3 : Memref sig .tc .vmem S1024x512 .bf16) (h3 : a3.IsWhole)
    (a4 : Memref sig .tc .vmem S1024x1024 .f32) (h4 : a4.IsWhole)
    (x0 x1 : Vec F S1024x512 .bf16) (K : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1
            ∗ owns (c : Thread nD τ) a4 fullShare (blockOut x0 x1)) -∗ K ⟨⟩))
      ⊢ wp frame (wpE (defs₀ (F := F)) Variants.none c none) E (cc0__xxt_kernel i a2 h2 a3 h3 a4 h4) K := by
  simp only [cc0__xxt_kernel_eq_skeleton]; unfold cc0__xxt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-- The proof data of the kernel's pipeline on core `c`: the arrays as the region finds them; after the body at point
    `t` each input's buffer at its block and the output's at `blockOut` of the two input blocks; the invariant the
    scoped rest and the generator register, untouched; nothing owed; the shared input array dealt in halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => blockOut (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = blockOut (iblk V c 0 t) (iblk V c 1 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.Kernel.Hand

end
-- ==== Proof.KBRun.lean ====
/-
  The run of the kernel program in namespace `Cert.Kernel`: @main is three stretches of host operations (the
  concatenation of the two arguments, the row norms, the normalised rows x), the kernel region (the Gram matrix x·xᵀ
  block by block), and three more stretches (the gather of the shifted diagonals, the slices, the cross-entropy
  rows and their mean). The core's buffer contents at each boundary are a fold from the launch memory: a stretch
  maps them by its operations, and the region leaves every buffer as it found it except the Gram matrix's, which
  ends at what the 64 write-backs leave. The region reads x through two windows at once, so at its entry the full
  share of x's buffer is cut in two halves, one per window, and at its exit — neither window having written it —
  the halves are joined again. The run's conclusion names every unscoped buffer's final contents.
-/
import proofs.«118001_j3702261809487_2_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch; -/
abbrev W0 : Dev nD → Valuation τ sig (Elt F) := fun c b => (s₀ m ρ).mem ((c : Dev nD), b)
/-- after the concatenation; after the row norms; after the normalisation (the region's entry). -/
abbrev Wa : Dev nD → Valuation τ sig (Elt F) := fun c => StableHlo.after hostOps0 (W0 m ρ c)
abbrev Wb : Dev nD → Valuation τ sig (Elt F) := fun c => StableHlo.after hostOps0_1 (Wa m ρ c)
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b

/-- The Gram matrix's buffer at the region's exit: what the write-backs of all 64 points leave. -/
abbrev gramAt (c : Dev nD) : (Proc.devRef .tc main_v7 : DevRef τ sig).ty.Contents (Elt F) := (dat0 (V1 m ρ) c).arrAt 2 cfg0.N

/-- At the region's exit: the Gram matrix's buffer at `gramAt`, every other buffer as entered. -/
def W2 (c : Dev nD) : Valuation τ sig (Elt F) := Function.update (W1 m ρ c) (Proc.devRef .tc main_v7) (gramAt m ρ c)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)

theorem W2_gram (c : Dev nD) : W2 m ρ c (Proc.devRef .tc main_v7) = gramAt m ρ c := Function.update_self ..
theorem W2_of_ne (c : Dev nD) (b : DevRef τ sig) (hb : b ≠ Proc.devRef .tc main_v7) : W2 m ρ c b = W1 m ρ c b :=
  Function.update_of_ne hb ..

/-! ## The region's two arrays among the core's unscoped buffers -/

/-- The buffers behind the region's windows: x's and the Gram matrix's. -/
def arrSet : Finset (DevRef τ sig) := {Proc.devRef .tc main_v6, Proc.devRef .tc main_v7}

theorem arrSet_sub : (arrSet : Finset (DevRef τ sig)) ⊆ Pipeline.ucRefs τ sig := by decide

theorem held_arrSet (c : Dev nD) (W : Valuation τ sig (Elt F)) : (StableHlo.held (c : Thread nD τ) arrSet W : sProp 𝕄)
    = iprop(((((c : Thread nD τ)).1, Proc.devRef .tc main_v6) ↦{fullShare} W (Proc.devRef .tc main_v6))
        ∗ ((((c : Thread nD τ)).1, Proc.devRef .tc main_v7) ↦{fullShare} W (Proc.devRef .tc main_v7))) := by
  unfold StableHlo.held arrSet
  rw [bigSep_eq_bigSepL_of_eq [Proc.devRef .tc main_v6, Proc.devRef .tc main_v7] (by decide) (by decide)]
  rfl

section Arrays
variable (V : (c : Dev nD) → (b : Ref sig .tc) → Buf (Elt F) ((c : Thread nD τ).loc b))

theorem share_0 (c : Dev nD) : (dat0 V c).share 0 = fullShare.left := rfl
theorem share_1 (c : Dev nD) : (dat0 V c).share 1 = fullShare.right := rfl
theorem share_2 (c : Dev nD) : (dat0 V c).share 2 = fullShare := rfl

/-- The pipeline's arrays, window by window: x's buffer at the left half for window 0 and at the right half for
    window 1, the Gram matrix's at the full share. -/
theorem arrays_three (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0) ∗ (((c : Thread nD τ).loc (Pipeline.arrRef spec0 1)) ↦{fullShare.right} G 1)
          ∗ (((c : Thread nD τ).loc (Pipeline.arrRef spec0 2)) ↦{fullShare} G 2)) := by
  have h : ((dat0 V c).arrays G : sProp 𝕄) = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share_0, share_1, share_2]

end Arrays

/-- ENTRY: x's buffer whole is its two halves, one per input window; the Gram matrix's buffer goes to the output
    window whole. -/
theorem entry_split (c : Dev nD) :
    (StableHlo.held (c : Thread nD τ) arrSet (W1 m ρ c) : sProp 𝕄) ⊢ (dat0 (V1 m ρ) c).arrays ((dat0 (V1 m ρ) c).arrAt · 0) := by
  rw [arrays_three, held_arrSet]
  iintro ⟨H6, H7⟩
  ihave H := (pointsTo_share (PosShare.mem_left_op_right fullShare)).1 $$ H6
  icases H with ⟨Hl, Hr⟩
  isplitl [Hl]; · iexact Hl
  isplitl [Hr]; · iexact Hr
  iexact H7

/-- EXIT: the two halves of x's buffer, at the contents the region found, are the buffer whole again; the Gram
    matrix's buffer holds `gramAt`. -/
theorem exit_join (c : Dev nD) :
    ((dat0 (V1 m ρ) c).arrays ((dat0 (V1 m ρ) c).arrAt · cfg0.N) : sProp 𝕄) ⊢ StableHlo.held (c : Thread nD τ) arrSet (W2 m ρ c) := by
  rw [arrays_three, held_arrSet, W2_gram, W2_of_ne m ρ c _ (by decide),
    (dat0 (V1 m ρ) c).arrAt_in 0 rfl, (dat0 (V1 m ρ) c).arrAt_in 1 rfl]
  iintro ⟨Hl, Hr, H7⟩
  isplitl [Hl Hr]
  · iapply (pointsTo_share (PosShare.mem_left_op_right fullShare)).2
    isplitl [Hl]; · iexact Hl
    iexact Hr
  iexact H7

/-- Off the two arrays the exit contents are the entry contents. -/
theorem held_rest (c : Dev nD) : (StableHlo.held (c : Thread nD τ) (Pipeline.ucRefs τ sig \ arrSet) (W2 m ρ c) : sProp 𝕄)
    = StableHlo.held (c : Thread nD τ) (Pipeline.ucRefs τ sig \ arrSet) (W1 m ρ c) := by
  unfold StableHlo.held
  refine bigSep_congr fun b hb => ?_
  rw [W2_of_ne m ρ c b fun e => (Finset.mem_sdiff.mp hb).2 (by rw [e]; decide)]

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := StableHlo.held (c : Thread nD τ) (Pipeline.ucRefs τ sig \ arrSet) (W1 m ρ c)
  hentry c := by
    rw [Pipeline.ownSems0_none, StableHlo.held_sub_split (c : Thread nD τ) arrSet_sub (W1 m ρ c)]
    iintro ⟨⟨⟨Harr, Hrest⟩, Hp, HO⟩, -, -⟩
    ihave Ha := (entry_split m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrSet_sub (W2 m ρ c), held_rest]
    have hjoin : ((pdats m ρ 0 c).arrays ((pdats m ρ 0 c).arrAt · (Pipeline.pin (pcfgs (F := F)) adm 0).N) : sProp 𝕄)
        ⊢ StableHlo.held (c : Thread nD τ) arrSet (W2 m ρ c) := exit_join m ρ c
    iintro ⟨Ha, HO, HY, Hrest⟩
    ihave Harr := hjoin $$ Ha
    imodintro
    isplitl [Harr Hrest]
    · isplitl [Harr]; · iexact Harr
      iexact Hrest
    isplitl [HY]; · iexact HY
    unfold Pipeline.Dat.owesAt Pipeline.owesWithin
    icases HO with ⟨%W, -, HO⟩; iexists W; iexact HO

/-- @main's 7 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KBFrame.lean ====
/-
  The frame of the program in namespace `Cert.Kernel`: no host operation writes an argument's buffer, and the kernel
  region's windows are on other buffers, so the fold of the buffer contents from the launch to the return is the
  identity at each argument; with the run, the arguments end as launched.
-/
import proofs.«118001_j3702261809487_2_alg».proof.Proof.KBRun

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An argument's buffer holds at the return what it held at launch. -/
theorem W5_arg (c : Dev nD) (a : Ref sig .tc) (ha : a = main_arg0 ∨ a = main_arg1) :
    W5 m ρ c (Proc.devRef .tc a) = m ((c : Thread nD τ).loc a) :=
  calc W5 m ρ c (Proc.devRef .tc a)
    _ = W4 m ρ c (Proc.devRef .tc a) := StableHlo.after_of_forall_not_mem (b := Proc.devRef .tc a) _ _ (List.forall_iff_forall_mem.mp (by
          simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W3 m ρ c (Proc.devRef .tc a) := StableHlo.after_of_forall_not_mem (b := Proc.devRef .tc a) _ _ (List.forall_iff_forall_mem.mp (by
          simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W2 m ρ c (Proc.devRef .tc a) := StableHlo.after_of_forall_not_mem (b := Proc.devRef .tc a) _ _ (List.forall_iff_forall_mem.mp (by
          simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W1 m ρ c (Proc.devRef .tc a) := W2_of_ne m ρ c _ (StableHlo.devRef_ne_of_ne (by rcases ha with rfl | rfl <;> decide))
    _ = Wb m ρ c (Proc.devRef .tc a) := StableHlo.after_of_forall_not_mem (b := Proc.devRef .tc a) _ _ (List.forall_iff_forall_mem.mp (by
          simp only [hostOps0_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = Wa m ρ c (Proc.devRef .tc a) := StableHlo.after_of_forall_not_mem (b := Proc.devRef .tc a) _ _ (List.forall_iff_forall_mem.mp (by
          simp only [hostOps0_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W0 m ρ c (Proc.devRef .tc a) := StableHlo.after_of_forall_not_mem (b := Proc.devRef .tc a) _ _ (List.forall_iff_forall_mem.mp (by
          simp only [hostOps0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = m ((c : Thread nD τ).loc a) := rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, nothing faulting, and the two argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W5_arg m ρ c main_arg0 (Or.inl rfl)),
       (h c _ (mem_uc main_arg1 (by decide))).trans (W5_arg m ρ c main_arg1 (Or.inr rfl))⟩)
    (run_main m ρ)

end Cert.Kernel.Hand

end
-- ==== Proof.KIBody.lean ====
/-
  The matrix-product kernel's body and its proof data, for the program in namespace `Cert.KernelIdeal`.

  The kernel is launched on an 8 × 8 grid. At grid point (i, j) it is handed row block i of the normalised matrix x
  (window 0: rows 1024·i … 1024·i+1023, all 512 columns), row block j of THE SAME matrix x (window 1), and writes
  the 1024 × 1024 block (i, j) of the Gram matrix x·xᵀ (window 2): one matrix product of the two input blocks,
  contracted along their columns, into a zero accumulator. Both input windows read one array, so the array's
  full share is dealt in two halves, the left to window 0 and the right to window 1; neither window writes it.
  What the output window's buffer holds after the body is the body's one store read back (`blockOut`), a pure
  function of the two input blocks; the body's triple is run by the symbolic executor.
-/
import proofs.«118001_j3702261809487_2_alg».proof.Proof.Gen.KernelIdeal.Launch
import proofs.«118001_j3702261809487_2_alg».proof.Proof.Gen.KernelIdeal.Skeleton
import proofs.«118001_j3702261809487_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the kernel region is entered
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched the block index has not moved since the point before. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The rectangles the body loads and stores through: each buffer whole. -/
abbrev rIn : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output window's staging buffer after the body, from the two input blocks: its one store read back. -/
def blockOut (x0 x1 : Vec F S1024x512 .bf16) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The kernel body on whole staging memrefs, the inputs' at contents `x0`, `x1` and the output's at anything, runs
    to the continuation holding the inputs' as they were and the output's at `blockOut x0 x1`. -/
theorem sound_kernel (c : Dev nD) (E : Set ℕ) (i : grid0.Coords)
    (a2 : Memref sig .tc .vmem S1024x512 .bf16) (h2 : a2.IsWhole) (a3 : Memref sig .tc .vmem S1024x512 .bf16) (h3 : a3.IsWhole)
    (a4 : Memref sig .tc .vmem S1024x1024 .f32) (h4 : a4.IsWhole)
    (x0 x1 : Vec F S1024x512 .bf16) (K : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1
            ∗ owns (c : Thread nD τ) a4 fullShare (blockOut x0 x1)) -∗ K ⟨⟩))
      ⊢ wp frame (wpE (defs₀ (F := F)) Variants.none c none) E (cc0__xxt_kernel i a2 h2 a3 h3 a4 h4) K := by
  simp only [cc0__xxt_kernel_eq_skeleton]; unfold cc0__xxt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-- The proof data of the kernel's pipeline on core `c`: the arrays as the region finds them; after the body at point
    `t` each input's buffer at its block and the output's at `blockOut` of the two input blocks; the invariant the
    scoped rest and the generator register, untouched; nothing owed; the shared input array dealt in halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => blockOut (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = blockOut (iblk V c 0 t) (iblk V c 1 t) := by dsimp only [dat0]

theorem before_0 (c : Dev nD) (t : Fin cfg0.N) (d) : (dat0 V c).before 0 t d = iblk V c 0 t :=
  before0_of V (dat0 V c) (A_eq V c 0) (after_0 V c) t d
theorem before_1 (c : Dev nD) (t : Fin cfg0.N) (d) : (dat0 V c).before 1 t d = iblk V c 1 t :=
  before1_of V (dat0 V c) (A_eq V c 1) (after_1 V c) t d

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.KernelIdeal.Hand

end
-- ==== Proof.KIRun.lean ====
/-
  The run of the kernel program in namespace `Cert.KernelIdeal`: @main is three stretches of host operations (the
  concatenation of the two arguments, the row norms, the normalised rows x), the kernel region (the Gram matrix x·xᵀ
  block by block), and three more stretches (the gather of the shifted diagonals, the slices, the cross-entropy
  rows and their mean). The core's buffer contents at each boundary are a fold from the launch memory: a stretch
  maps them by its operations, and the region leaves every buffer as it found it except the Gram matrix's, which
  ends at what the 64 write-backs leave. The region reads x through two windows at once, so at its entry the full
  share of x's buffer is cut in two halves, one per window, and at its exit — neither window having written it —
  the halves are joined again. The run's conclusion names every unscoped buffer's final contents.
-/
import proofs.«118001_j3702261809487_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch; -/
abbrev W0 : Dev nD → Valuation τ sig (Elt F) := fun c b => (s₀ m ρ).mem ((c : Dev nD), b)
/-- after the concatenation; after the row norms; after the normalisation (the region's entry). -/
abbrev Wa : Dev nD → Valuation τ sig (Elt F) := fun c => StableHlo.after hostOps0 (W0 m ρ c)
abbrev Wb : Dev nD → Valuation τ sig (Elt F) := fun c => StableHlo.after hostOps0_1 (Wa m ρ c)
abbrev W1 : Dev nD → Valuation τ sig (Elt F) := fun c => StableHlo.after hostOps0_2 (Wb m ρ c)
abbrev V1 : (c : Dev nD) → (b : Ref sig .tc) → Buf (Elt F) ((c : Thread nD τ).loc b) := fun c b => W1 m ρ c b

/-- The Gram matrix's buffer at the region's exit: what the write-backs of all 64 points leave. -/
abbrev gramAt (c : Dev nD) : (Proc.devRef .tc main_v7 : DevRef τ sig).ty.Contents (Elt F) := (dat0 (V1 m ρ) c).arrAt 2 cfg0.N

/-- At the region's exit: the Gram matrix's buffer at `gramAt`, every other buffer as entered. -/
def W2 (c : Dev nD) : Valuation τ sig (Elt F) := Function.update (W1 m ρ c) (Proc.devRef .tc main_v7) (gramAt m ρ c)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)

theorem W2_gram (c : Dev nD) : W2 m ρ c (Proc.devRef .tc main_v7) = gramAt m ρ c := Function.update_self ..
theorem W2_of_ne (c : Dev nD) (b : DevRef τ sig) (hb : b ≠ Proc.devRef .tc main_v7) : W2 m ρ c b = W1 m ρ c b :=
  Function.update_of_ne hb ..

/-! ## The region's two arrays among the core's unscoped buffers -/

/-- The buffers behind the region's windows: x's and the Gram matrix's. -/
def arrSet : Finset (DevRef τ sig) := {Proc.devRef .tc main_v6, Proc.devRef .tc main_v7}

theorem arrSet_sub : (arrSet : Finset (DevRef τ sig)) ⊆ Pipeline.ucRefs τ sig := by decide

theorem held_arrSet (c : Dev nD) (W : Valuation τ sig (Elt F)) : (StableHlo.held (c : Thread nD τ) arrSet W : sProp 𝕄)
    = iprop(((((c : Thread nD τ)).1, Proc.devRef .tc main_v6) ↦{fullShare} W (Proc.devRef .tc main_v6))
        ∗ ((((c : Thread nD τ)).1, Proc.devRef .tc main_v7) ↦{fullShare} W (Proc.devRef .tc main_v7))) := by
  unfold StableHlo.held arrSet
  rw [bigSep_eq_bigSepL_of_eq [Proc.devRef .tc main_v6, Proc.devRef .tc main_v7] (by decide) (by decide)]
  rfl

section Arrays
variable (V : (c : Dev nD) → (b : Ref sig .tc) → Buf (Elt F) ((c : Thread nD τ).loc b))

theorem share_0 (c : Dev nD) : (dat0 V c).share 0 = fullShare.left := rfl
theorem share_1 (c : Dev nD) : (dat0 V c).share 1 = fullShare.right := rfl
theorem share_2 (c : Dev nD) : (dat0 V c).share 2 = fullShare := rfl

/-- The pipeline's arrays, window by window: x's buffer at the left half for window 0 and at the right half for
    window 1, the Gram matrix's at the full share. -/
theorem arrays_three (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0) ∗ (((c : Thread nD τ).loc (Pipeline.arrRef spec0 1)) ↦{fullShare.right} G 1)
          ∗ (((c : Thread nD τ).loc (Pipeline.arrRef spec0 2)) ↦{fullShare} G 2)) := by
  have h : ((dat0 V c).arrays G : sProp 𝕄) = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share_0, share_1, share_2]

end Arrays

/-- ENTRY: x's buffer whole is its two halves, one per input window; the Gram matrix's buffer goes to the output
    window whole. -/
theorem entry_split (c : Dev nD) :
    (StableHlo.held (c : Thread nD τ) arrSet (W1 m ρ c) : sProp 𝕄) ⊢ (dat0 (V1 m ρ) c).arrays ((dat0 (V1 m ρ) c).arrAt · 0) := by
  rw [arrays_three, held_arrSet]
  iintro ⟨H6, H7⟩
  ihave H := (pointsTo_share (PosShare.mem_left_op_right fullShare)).1 $$ H6
  icases H with ⟨Hl, Hr⟩
  isplitl [Hl]; · iexact Hl
  isplitl [Hr]; · iexact Hr
  iexact H7

/-- EXIT: the two halves of x's buffer, at the contents the region found, are the buffer whole again; the Gram
    matrix's buffer holds `gramAt`. -/
theorem exit_join (c : Dev nD) :
    ((dat0 (V1 m ρ) c).arrays ((dat0 (V1 m ρ) c).arrAt · cfg0.N) : sProp 𝕄) ⊢ StableHlo.held (c : Thread nD τ) arrSet (W2 m ρ c) := by
  rw [arrays_three, held_arrSet, W2_gram, W2_of_ne m ρ c _ (by decide),
    (dat0 (V1 m ρ) c).arrAt_in 0 rfl, (dat0 (V1 m ρ) c).arrAt_in 1 rfl]
  iintro ⟨Hl, Hr, H7⟩
  isplitl [Hl Hr]
  · iapply (pointsTo_share (PosShare.mem_left_op_right fullShare)).2
    isplitl [Hl]; · iexact Hl
    iexact Hr
  iexact H7

/-- Off the two arrays the exit contents are the entry contents. -/
theorem held_rest (c : Dev nD) : (StableHlo.held (c : Thread nD τ) (Pipeline.ucRefs τ sig \ arrSet) (W2 m ρ c) : sProp 𝕄)
    = StableHlo.held (c : Thread nD τ) (Pipeline.ucRefs τ sig \ arrSet) (W1 m ρ c) := by
  unfold StableHlo.held
  refine bigSep_congr fun b hb => ?_
  rw [W2_of_ne m ρ c b fun e => (Finset.mem_sdiff.mp hb).2 (by rw [e]; decide)]

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := StableHlo.held (c : Thread nD τ) (Pipeline.ucRefs τ sig \ arrSet) (W1 m ρ c)
  hentry c := by
    rw [Pipeline.ownSems0_none, StableHlo.held_sub_split (c : Thread nD τ) arrSet_sub (W1 m ρ c)]
    iintro ⟨⟨⟨Harr, Hrest⟩, Hp, HO⟩, -, -⟩
    ihave Ha := (entry_split m ρ c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrSet_sub (W2 m ρ c), held_rest]
    have hjoin : ((pdats m ρ 0 c).arrays ((pdats m ρ 0 c).arrAt · (Pipeline.pin (pcfgs (F := F)) adm 0).N) : sProp 𝕄)
        ⊢ StableHlo.held (c : Thread nD τ) arrSet (W2 m ρ c) := exit_join m ρ c
    iintro ⟨Ha, HO, HY, Hrest⟩
    ihave Harr := hjoin $$ Ha
    imodintro
    isplitl [Harr Hrest]
    · isplitl [Harr]; · iexact Harr
      iexact Hrest
    isplitl [HY]; · iexact HY
    unfold Pipeline.Dat.owesAt Pipeline.owesWithin
    icases HO with ⟨%W, -, HO⟩; iexists W; iexact HO

/-- @main's 7 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KIFrame.lean ====
/-
  The frame of the program in namespace `Cert.KernelIdeal`: no host operation writes an argument's buffer, and the kernel
  region's windows are on other buffers, so the fold of the buffer contents from the launch to the return is the
  identity at each argument; with the run, the arguments end as launched.
-/
import proofs.«118001_j3702261809487_2_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- An argument's buffer holds at the return what it held at launch. -/
theorem W5_arg (c : Dev nD) (a : Ref sig .tc) (ha : a = main_arg0 ∨ a = main_arg1) :
    W5 m ρ c (Proc.devRef .tc a) = m ((c : Thread nD τ).loc a) :=
  calc W5 m ρ c (Proc.devRef .tc a)
    _ = W4 m ρ c (Proc.devRef .tc a) := StableHlo.after_of_forall_not_mem (b := Proc.devRef .tc a) _ _ (List.forall_iff_forall_mem.mp (by
          simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W3 m ρ c (Proc.devRef .tc a) := StableHlo.after_of_forall_not_mem (b := Proc.devRef .tc a) _ _ (List.forall_iff_forall_mem.mp (by
          simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W2 m ρ c (Proc.devRef .tc a) := StableHlo.after_of_forall_not_mem (b := Proc.devRef .tc a) _ _ (List.forall_iff_forall_mem.mp (by
          simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W1 m ρ c (Proc.devRef .tc a) := W2_of_ne m ρ c _ (StableHlo.devRef_ne_of_ne (by rcases ha with rfl | rfl <;> decide))
    _ = Wb m ρ c (Proc.devRef .tc a) := StableHlo.after_of_forall_not_mem (b := Proc.devRef .tc a) _ _ (List.forall_iff_forall_mem.mp (by
          simp only [hostOps0_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = Wa m ρ c (Proc.devRef .tc a) := StableHlo.after_of_forall_not_mem (b := Proc.devRef .tc a) _ _ (List.forall_iff_forall_mem.mp (by
          simp only [hostOps0_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = W0 m ρ c (Proc.devRef .tc a) := StableHlo.after_of_forall_not_mem (b := Proc.devRef .tc a) _ _ (List.forall_iff_forall_mem.mp (by
          simp only [hostOps0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by rcases ha with rfl | rfl <;> decide)))
    _ = m ((c : Thread nD τ).loc a) := rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, nothing faulting, and the two argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W5_arg m ρ c main_arg0 (Or.inl rfl)),
       (h c _ (mem_uc main_arg1 (by decide))).trans (W5_arg m ρ c main_arg1 (Or.inr rfl))⟩)
    (run_main m ρ)

end Cert.KernelIdeal.Hand

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Gram.lean ====
/-
  The Gram matrix of a matrix's rows, index by index, on the extended reals.

  For x : [n, K] the entry (a, b) of x·xᵀ is the finite sum ∑ k, x (a, k) * x (b, k): row a against row b. A finite
  sum on the extended reals is a sum in a commutative monoid, so neither its order nor its tiling matters, and
  nothing here asks an entry to be finite. The block kernel forms it from two 1024-row blocks with one matrix
  product contracted along the columns of both, into a zero accumulator; the reference transposes x and takes one
  whole row-by-column product. Both are read here as that one sum.
-/
import proofs.«118001_j3702261809487_2_alg».proof.KernelIdeal
import proofs.«118001_j3702261809487_2_alg».proof.ReferenceIdeal
import proofs.«118001_j3702261809487_2_alg».proof.Proof.Gen.KernelIdeal.Skeleton
import proofs.«118001_j3702261809487_2_alg».proof.Proof.LibDotNT
import proofs.«118001_j3702261809487_2_alg».proof.Proof.LibDense
import Idealize.ShloMosaic.PureOps.Ideal
import Idealize.ShloMosaic.PureOps.Ideal.Laws
import Idealize.ShloMosaic.Lib.ValueIdx
import Idealize.ShloMosaic.Lib.Pipeline.Value

noncomputable section

namespace Cert.Gram

open Idealize.ShloMosaic Idealize.ShloMosaic.ValueIdx

section Kernel
variable [Cert.KernelIdeal.Facts]

/-- The kernel's dimension numbers are those of a product whose right operand is contracted along its rows. -/
theorem kdims_eq : Cert.KernelIdeal.dot_S1024x512_S1024x512_S1024x1024_1_1_0_0_n_n = DotDims.transposedRhs 1024 512 1024 := rfl

/-- The kernel body's one value, at entry (p, q): row p of the first block against row q of the second. -/
theorem pay_apply (x0 x1 : FVec Ideal Cert.KernelIdeal.S1024x512 .bf16) (p q : Fin 1024) :
    Cert.KernelIdeal.Gen.k0_pay1 (F := Ideal) x0 x1 (ix2 p q) = ∑ k : Fin 512, x0 (ix2 p k) * x1 (ix2 q k) := by
  unfold Cert.KernelIdeal.Gen.k0_pay1
  rw [shapeCast_self, shapeCast_self, kdims_eq]
  exact (Cert.LibDotNT.matmul_tr x0 x1 (ix2 p q)).trans (Cert.LibDotNT.rowDot_ix2 x0 x1 p q)

end Kernel

section Reference
variable [Cert.ReferenceIdeal.Facts]

/-- The reference's dimension numbers are those of a plain row-by-column product. -/
theorem rdims_eq : Cert.ReferenceIdeal.dot_S8192x512_S512x8192_S8192x8192_1_0_0_1_n_n = DotDims.plain 8192 512 8192 := rfl

/-- The reference's Gram matrix as a function of the normalised rows: the transpose, then one whole product. -/
def gramR (x : FVec Ideal Cert.ReferenceIdeal.S8192x512 .f32) : FVec Ideal Cert.ReferenceIdeal.S8192x8192 .f32 :=
  Host.dotGeneral (F := Ideal) Cert.ReferenceIdeal.dot_S8192x512_S512x8192_S8192x8192_1_0_0_1_n_n none x
    (transpose Cert.ReferenceIdeal.S512x8192 [1, 0] x Cert.ReferenceIdeal.Facts₀.transposes_S8192x512_S512x8192_1_0)

/-- Entry (a, b) of the reference's Gram matrix: row a against row b. -/
theorem gramR_apply (x : FVec Ideal Cert.ReferenceIdeal.S8192x512 .f32) (a b : Fin 8192) :
    gramR x (ix2 a b) = ∑ k : Fin 512, x (ix2 a k) * x (ix2 b k) := by
  unfold gramR
  rw [rdims_eq]
  refine (Cert.LibDense.dotGeneral_plain .single x _ (ix2 a b)).trans ?_
  unfold Cert.LibDense.prod
  refine Finset.sum_congr rfl fun k _ => congrArg (x (ix2 a k) * ·) ?_
  refine transpose_apply [1, 0] x _ (ix2 k b) (ix2 b k) fun d => ?_
  match d with
  | ⟨0, _⟩ => rfl
  | ⟨1, _⟩ => rfl

end Reference

end Cert.Gram

end
-- ==== Proof.KIValue.lean ====
/-
  What the kernel region leaves in the Gram matrix's buffer, at the exact instance: grid point (i, j) writes back the
  product of row block i of x with the transpose of row block j, and the 64 blocks tile the 8192 × 8192 array, so
  entry (a, b) of the array ends at the sum over the 512 columns k of x(a, k) · x(b, k).
-/
import proofs.«118001_j3702261809487_2_alg».proof.Proof.KIRun
import proofs.«118001_j3702261809487_2_alg».proof.Proof.Gram
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The Gram matrix of the rows of `x`. -/
def gramOf (x : S8192x512.Idx → EReal) : S8192x8192.Idx → EReal :=
  fun i => ∑ k : Fin 512, x (ix2 (i 0) k) * x (ix2 (i 1) k)

/-- The printed index maps, decided over the grid: window 0's row block is the output's row block, window 1's row
    block is the output's column block, both input windows at column block 0. -/
theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block of the output is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is block `t` of the Gram matrix of x as the region finds it. -/
theorem flushed_eq (c : Dev nD) (t : Fin cfg0.N) :
    (dat0 V c).flushed 2 t = ((cfg0.win 2).blk t).view.read (Elt Ideal) (gramOf (V c main_v6)) := by
  show (cfg0.win 2).cut (grid0.coords t) ((dat0 V c).after 2 t) = _
  rw [after_2]
  unfold blockOut
  rw [View.canon_unit_zero hz]
  simp only [View.ld_unit_zero (S := S1024x512) hz]
  obtain ⟨e0, e1, e2, e3, e4, e5⟩ := idx_facts t
  funext j
  obtain ⟨p, q, rfl⟩ : ∃ (p q : Fin 1024), j = ix2 p q := ⟨j 0, j 1, eq_ix2 j⟩
  show k0_pay1 (F := Ideal) (iblk V c 0 t) (iblk V c 1 t) (ix2 p q) = gramOf (V c main_v6) (((cfg0.win 2).blk t).view.emb (ix2 p q))
  rw [Cert.Gram.pay_apply]
  unfold gramOf
  refine Finset.sum_congr rfl fun k _ => ?_
  have h0 : iblk V c 0 t (ix2 p k) = V c main_v6 (ix2 (((cfg0.win 2).blk t).view.emb (ix2 p q) 0) k) := by
    show V c main_v6 (((cfg0.win 0).blk t).view.emb (ix2 p k)) = _
    refine congrArg _ ?_
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have h1 : iblk V c 1 t (ix2 q k) = V c main_v6 (ix2 (((cfg0.win 2).blk t).view.emb (ix2 p q) 1) k) := by
    show V c main_v6 (((cfg0.win 1).blk t).view.emb (ix2 q k)) = _
    refine congrArg _ ?_
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 512 + 1 * k.val = k.val; omega
  rw [h0, h1]

/-- An index of the array is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v7).slice (win0_2.rect t)).set ↔ _
  rw [View.set_slice_whole, Rect.mem_set_unit]
  exact Iff.rfl

/-- The 64 blocks cover the array: entry (a, b) is in the block of the point (a / 1024, b / 1024). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the region: the Gram matrix of x. -/
theorem gram_final (c : Dev nD) : (dat0 V c).arrAt 2 cfg0.N = gramOf (V c main_v6) :=
  (dat0 V c).arrAt_eq_of_cover 2 (gramOf (V c main_v6)) (fun t _ => flushed_eq V c t) cover

end Cert.KernelIdeal.Hand

end
-- ==== Proof.LibGatherAt.lean ====
/-
  General facts used to read the two gathers of the similarity matrix at an index: 32-bit words holding small
  naturals (their sum, its low bits, its signed remainder, their signed comparisons with 0 and with a bound),
  and StableHLO's gather at two patterns of dimension numbers, read at a result index.
-/
import Idealize.ShloMosaic.Lib.ValueIdx
import Idealize.ShloMosaic.Lib.ValueLayout
import Idealize.ShloMosaic.Lib.Pipeline.Value
import Idealize.ShloMosaic.Lib.WordArith
import Idealize.ShloMosaic.PureOps.Reduce

noncomputable section

namespace Cert.Sims

open Idealize.ShloMosaic Idealize.ShloMosaic.ValueIdx

/-! ## Words holding small naturals -/

/-- The sum of two words holding naturals below 8192 holds their sum. -/
theorem toNat_add_small (a b : Nat) (ha : a < 8192) (hb : b < 8192) :
    (BitVec.ofNat 32 a + BitVec.ofNat 32 b).toNat = a + b := by
  rw [BitVec.toNat_add, BitVec.toNat_ofNat, BitVec.toNat_ofNat]; omega

/-- Masking that sum with 8191 = 2¹³ − 1 reduces it modulo 8192. -/
theorem andi_mask_small (a b : Nat) (ha : a < 8192) (hb : b < 8192) :
    IntOp.andi (IntOp.addi (BitVec.ofNat 32 a) (BitVec.ofNat 32 b)) 8191#32 = BitVec.ofNat 32 ((a + b) % 8192) := by
  apply BitVec.eq_of_toNat_eq
  show ((BitVec.ofNat 32 a + BitVec.ofNat 32 b) &&& 8191#32).toNat = _
  rw [BitVec.toNat_and, toNat_add_small a b ha hb, BitVec.toNat_ofNat, BitVec.toNat_ofNat]
  have h : (8191 : Nat) % 2 ^ 32 = 2 ^ 13 - 1 := by norm_num
  rw [h, Nat.and_two_pow_sub_one_eq_mod]
  omega

/-- The signed remainder of that sum by 8192 (both nonnegative, the divisor neither 0 nor −1: no corner) is the
    remainder of naturals. -/
theorem remsi_small (u : ArithUnit) (a b : Nat) (ha : a < 8192) (hb : b < 8192) :
    IntOp.remsi u (IntOp.addi (BitVec.ofNat 32 a) (BitVec.ofNat 32 b)) 8192#32 = BitVec.ofNat 32 ((a + b) % 8192) := by
  have hx := toNat_add_small a b ha hb
  have hmsb : (BitVec.ofNat 32 a + BitVec.ofNat 32 b).msb = false := by
    rw [BitVec.msb_eq_false_iff_two_mul_lt, hx]; omega
  have hnc : ¬ IntOp.SDivCorner (BitVec.ofNat 32 a + BitVec.ofNat 32 b) 8192#32 := by
    rintro (h | ⟨-, h⟩) <;> exact absurd h (by decide)
  have hy : (8192#32).msb = false := by decide
  unfold IntOp.remsi IntOp.addi
  rw [if_neg hnc, BitVec.srem_eq, hmsb, hy]
  apply BitVec.eq_of_toNat_eq
  have h8 : (8192 : Nat) % 2 ^ 32 = 8192 := by norm_num
  rw [BitVec.toNat_umod, hx, BitVec.toNat_ofNat, BitVec.toNat_ofNat, h8]
  omega

/-- A word holding a natural below 2³¹ reads, signed, as that natural. -/
theorem toInt_small (m : Nat) (h : m < 2 ^ 31) : (BitVec.ofNat 32 m).toInt = (m : Int) := by
  rw [BitVec.toInt_ofNat']
  exact Int.bmod_eq_of_le (by omega) (by omega)

/-- It is not below 0 … -/
theorem slt_zero_small (m : Nat) (h : m < 2 ^ 31) : IntOp.cmpi .slt (BitVec.ofNat 32 m) 0#32 = 0#1 := by
  show BitVec.ofBool ((BitVec.ofNat 32 m).slt 0#32) = 0#1
  have : (BitVec.ofNat 32 m).slt 0#32 = false := by
    rw [BitVec.slt, toInt_small m h]
    have : (0#32).toInt = 0 := by decide
    rw [this]; simp
  rw [this]; rfl

/-- … it is at least 0 … -/
theorem sge_zero_small (m : Nat) (h : m < 2 ^ 31) : IntOp.cmpi .sge (BitVec.ofNat 32 m) 0#32 = 1#1 := by
  show BitVec.ofBool ((0#32).sle (BitVec.ofNat 32 m)) = 1#1
  have : (0#32).sle (BitVec.ofNat 32 m) = true := by
    rw [BitVec.sle, toInt_small m h]
    have : (0#32).toInt = 0 := by decide
    rw [this]; simp
  rw [this]; rfl

/-- … and, below 8192, at most 8191. -/
theorem sle_8191_small (m : Nat) (h : m < 8192) : IntOp.cmpi .sle (BitVec.ofNat 32 m) 8191#32 = 1#1 := by
  show BitVec.ofBool ((BitVec.ofNat 32 m).sle 8191#32) = 1#1
  have : (BitVec.ofNat 32 m).sle 8191#32 = true := by
    rw [BitVec.sle, toInt_small m (by omega)]
    have : (8191#32).toInt = 8191 := by decide
    rw [this]; simp; omega
  rw [this]; rfl

/-- The clamped start index a gather computes from such a word is the natural itself. -/
theorem clamp_small (m : Nat) (h : m < 8192) : min (BitVec.ofNat 32 m).toInt.toNat (8192 - 1) = m := by
  rw [toInt_small m (by omega), Int.toNat_natCast]; omega

/-! ## StableHLO's gather at two patterns of dimension numbers, read at a result index -/

section Gathers
variable {α : Type}

/-- The dimension numbers of `take_along_axis(x, idx, axis = 1)` for a matrix `x : [R, C]` and indices `[R, C']`
    (carried as `[R, C', 1]`): axis 0 a batching axis of operand and indices, axis 1 collapsed and named by the
    one-component start index. -/
abbrev alongDims (R C C' : Nat)
    (wf : GatherDims.WF ⟨2, ![R, C]⟩ ⟨3, ![R, C', 1]⟩ ⟨2, ![R, C']⟩ [] [1] [0] [1] [0] 2 ![1, 1]) :
    GatherDims ⟨2, ![R, C]⟩ ⟨3, ![R, C', 1]⟩ ⟨2, ![R, C']⟩ where
  offsetDims := []
  collapsedSliceDims := [1]
  operandBatchingDims := [0]
  startIndicesBatchingDims := [0]
  startIndexMap := [1]
  indexVectorDim := 2
  sliceSizes := ![1, 1]
  wf := wf

/-- That gather at `(a, b)`: row `a` of the operand at the column `idx[a, b, 0]`, read signed and clamped. -/
theorem gather_along_apply {R C C' w : Nat} (hC : 0 < C)
    (wf : GatherDims.WF ⟨2, ![R, C]⟩ ⟨3, ![R, C', 1]⟩ ⟨2, ![R, C']⟩ [] [1] [0] [1] [0] 2 ![1, 1])
    (x : (⟨2, ![R, C]⟩ : Shape).Idx → α) (idx : IVec ⟨3, ![R, C', 1]⟩ w) (a : Fin R) (b : Fin C') :
    Host.gather (alongDims R C C' wf) x idx (ix2 a b)
      = x (ix2 a ⟨min (idx (ix3 a b (0 : Fin 1))).toInt.toNat (C - 1), by omega⟩) := by
  unfold Host.gather
  congr 1
  funext c
  refine Fin.ext ?_
  match c with
  | ⟨0, _⟩ =>
    show (alongDims R C C' wf).start (ix2 a b) idx 0 + (alongDims R C C' wf).batchCoord (ix2 a b) 0
      + (alongDims R C C' wf).offCoord (ix2 a b) 0 = a.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R C C' wf).operandBatchingDims from List.mem_singleton.mpr rfl)]
    rfl
  | ⟨1, _⟩ =>
    show (alongDims R C C' wf).start (ix2 a b) idx 1 + (alongDims R C C' wf).batchCoord (ix2 a b) 1
      + (alongDims R C C' wf).offCoord (ix2 a b) 1 = min (idx (ix3 a b (0 : Fin 1))).toInt.toNat (C - 1)
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C C' wf).startIndexMap from List.mem_singleton.mpr rfl)]
    have hsi : (alongDims R C C' wf).siIdx (ix2 a b) ⟨List.idxOf (1 : Fin 2) (alongDims R C C' wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl

/-- The dimension numbers of `x[rows, cols]` for a matrix `x : [R, C]` and two index arrays `[A, B]` stacked as
    `[A, B, 2]`: both operand axes collapsed and named by the two-component start index. -/
abbrev pairDims (R C A B : Nat)
    (wf : GatherDims.WF ⟨2, ![R, C]⟩ ⟨3, ![A, B, 2]⟩ ⟨2, ![A, B]⟩ [] [0, 1] [] [0, 1] [] 2 ![1, 1]) :
    GatherDims ⟨2, ![R, C]⟩ ⟨3, ![A, B, 2]⟩ ⟨2, ![A, B]⟩ where
  offsetDims := []
  collapsedSliceDims := [0, 1]
  operandBatchingDims := []
  startIndicesBatchingDims := []
  startIndexMap := [0, 1]
  indexVectorDim := 2
  sliceSizes := ![1, 1]
  wf := wf

/-- That gather at `(a, b)`: the operand at row `idx[a, b, 0]` and column `idx[a, b, 1]`, each read signed and
    clamped. -/
theorem gather_pair_apply {R C A B w : Nat} (hR : 0 < R) (hC : 0 < C)
    (wf : GatherDims.WF ⟨2, ![R, C]⟩ ⟨3, ![A, B, 2]⟩ ⟨2, ![A, B]⟩ [] [0, 1] [] [0, 1] [] 2 ![1, 1])
    (x : (⟨2, ![R, C]⟩ : Shape).Idx → α) (idx : IVec ⟨3, ![A, B, 2]⟩ w) (a : Fin A) (b : Fin B) :
    Host.gather (pairDims R C A B wf) x idx (ix2 a b)
      = x (ix2 ⟨min (idx (ix3 a b (0 : Fin 2))).toInt.toNat (R - 1), by omega⟩
            ⟨min (idx (ix3 a b (1 : Fin 2))).toInt.toNat (C - 1), by omega⟩) := by
  unfold Host.gather
  congr 1
  funext c
  refine Fin.ext ?_
  match c with
  | ⟨0, _⟩ =>
    show (pairDims R C A B wf).start (ix2 a b) idx 0 + (pairDims R C A B wf).batchCoord (ix2 a b) 0
      + (pairDims R C A B wf).offCoord (ix2 a b) 0 = min (idx (ix3 a b (0 : Fin 2))).toInt.toNat (R - 1)
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (pairDims R C A B wf).startIndexMap from List.mem_cons_self)]
    have hsi : (pairDims R C A B wf).siIdx (ix2 a b) ⟨List.idxOf (0 : Fin 2) (pairDims R C A B wf).startIndexMap,
        List.idxOf_lt_length_iff.2 List.mem_cons_self⟩ = ix3 a b (0 : Fin 2) := by
      funext d; refine Fin.ext ?_
      match d with
      | ⟨0, _⟩ => rfl
      | ⟨1, _⟩ => rfl
      | ⟨2, _⟩ => rfl
    rw [hsi]
    rfl
  | ⟨1, _⟩ =>
    show (pairDims R C A B wf).start (ix2 a b) idx 1 + (pairDims R C A B wf).batchCoord (ix2 a b) 1
      + (pairDims R C A B wf).offCoord (ix2 a b) 1 = min (idx (ix3 a b (1 : Fin 2))).toInt.toNat (C - 1)
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ (pairDims R C A B wf).startIndexMap from List.mem_cons_of_mem _ List.mem_cons_self)]
    have hsi : (pairDims R C A B wf).siIdx (ix2 a b) ⟨List.idxOf (1 : Fin 2) (pairDims R C A B wf).startIndexMap,
        List.idxOf_lt_length_iff.2 (List.mem_cons_of_mem _ List.mem_cons_self)⟩ = ix3 a b (1 : Fin 2) := by
      funext d; refine Fin.ext ?_
      match d with
      | ⟨0, _⟩ => rfl
      | ⟨1, _⟩ => rfl
      | ⟨2, _⟩ => rfl
    rw [hsi]
    rfl

end Gathers

/-! ## Layout operations at an index -/

section Layout
variable {α : Type}

/-- An `[A, B]` array cast to `[A, B, 1]` reads, at `(i, j, u)`, the operand at `(i, j)`. -/
theorem shapeCast_ab_ab1_apply {A B : ℕ} (x : (⟨2, ![A, B]⟩ : Shape).Idx → α)
    (h : (⟨2, ![A, B]⟩ : Shape).ShapeCasts ⟨3, ![A, B, 1]⟩) (i : Fin A) (j : Fin B) (u : Fin 1) :
    shapeCast ⟨3, ![A, B, 1]⟩ x h (ix3 i j u) = x (ix2 i j) :=
  shapeCast_apply x h _ _ (by
    have hu : u.val = 0 := by omega
    rw [Shape.rowMajor_val_three, Shape.rowMajor_val_two]
    show i.val * B + j.val = (i.val * B + j.val) * 1 + u.val
    rw [hu]; omega)

end Layout

/-! ## An and-reduction of an array of ones -/

/-- A `stablehlo.reduce` by `and` from the bit 1 over an array whose every bit is 1 is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (List.filter (fun i => decide (h.drop i = j)) (List.map (⇑s.rowMajor.symm) (List.finRange s.numel))) = l
  induction l with
  | nil => rfl
  | cons a l ih =>
    have h1 : IntOp.andi 1#1 (x a) = 1#1 := by rw [hx a]; rfl
    rw [List.foldl_cons, h1]; exact ih

end Cert.Sims
-- ==== Proof.SimsK.lean ====
/-
  The kernel's gather of the similarity matrix, as a function of the Gram matrix: the index array
  idx[a, b] = (a + b) mod 8192 (a sum of two iotas masked with 8191), the row-wise gather
  take_along_axis(S, idx, axis = 1) with its wrap of negative indices and its in-range mask, and the transpose.
  Read at (i, j) it is S[j, (i + j) mod 8192].
-/
import proofs.«118001_j3702261809487_2_alg».proof.KernelIdeal
import proofs.«118001_j3702261809487_2_alg».proof.Proof.LibGatherAt

noncomputable section

namespace Cert.Sims

open Idealize.ShloMosaic Idealize.ShloMosaic.ValueIdx
open Cert.KernelIdeal Cert.KernelIdeal.Facts₀ Cert.KernelIdeal.Facts

variable [Cert.KernelIdeal.Facts] {F : FTy → Type} [FloatOps F]

/-- The iota 0, 1, …, 8191. -/
def kIota : IVec S8192 32 := iotaInDim S8192 32 0

/-- The index array: idx[a, b] = (a + b) masked with 8191. -/
def kIdx : IVec S8192x8192 32 :=
  andi
    (addi
      (broadcastInDim S8192x8192 ![0, 1] bcast_S8192x1_S8192x8192_0_1 (broadcastInDim S8192x1 ![0] bcast_S8192_S8192x1_0 kIota))
      (broadcastInDim S8192x8192 ![0, 1] bcast_S1x8192_S8192x8192_0_1 (broadcastInDim S1x8192 ![1] bcast_S8192_S1x8192_1 kIota)))
    (broadcastInDim S8192x8192 ![] bcast_S_S8192x8192 (constantI S_ 32 8191#32))

/-- The index array with negative entries wrapped by 8192. -/
def kWrapped : IVec S8192x8192 32 :=
  select (cmpi .slt kIdx (broadcastInDim S8192x8192 ![] bcast_S_S8192x8192 (constantI S_ 32 0#32)))
    (addi kIdx (broadcastInDim S8192x8192 ![] bcast_S_S8192x8192 (constantI S_ 32 8192#32))) kIdx

/-- The start indices of the gather: the wrapped index array with a trailing unit axis. -/
def kStart : IVec S8192x8192x1 32 := shapeCast S8192x8192x1 kWrapped shapeCasts_S8192x8192_S8192x8192x1

/-- The in-range mask: 0 ≤ index ≤ 8191, and-reduced over the unit axis. -/
def kMask : IVec S8192x8192 1 :=
  Host.reduce IntOp.andi
    (andi (cmpi .sge kStart (broadcastInDim S8192x8192x1 ![] bcast_S_S8192x8192x1 (constantI S_ 32 0#32)))
      (cmpi .sle kStart (broadcastInDim S8192x8192x1 ![0, 1, 2] bcast_S1x1x1_S8192x8192x1_0_1_2
        (broadcastInDim S1x1x1 ![2] bcast_S1_S1x1x1_2 (constantI S1 32 8191#32)))))
    (constantI S_ 1 1#1) reducesTo_S8192x8192x1_S8192x8192_d2 h_S_

/-- The kernel's similarity matrix as a function of the Gram matrix `s`: the masked row-wise gather, transposed. -/
def simsK (s : (⟨S8192x8192, .f32⟩ : BufTy).Contents (Elt F)) : (⟨S8192x8192, .f32⟩ : BufTy).Contents (Elt F) :=
  transpose S8192x8192 [1, 0]
    (select kMask (Host.gather gather_S8192x8192_S8192x8192x1_S8192x8192_n_1_0_0_1_2_11 s kStart)
      (broadcastInDim S8192x8192 ![] bcast_S_S8192x8192 (constant S_ .f32 0x7FC00000#32)))
    transposes_S8192x8192_S8192x8192_1_0

/-- The index array at (a, b) is the word holding (a + b) mod 8192. -/
theorem kIdx_apply (a b : Fin 8192) : kIdx (ix2 a b) = BitVec.ofNat 32 ((a.val + b.val) % 8192) :=
  (show kIdx (ix2 a b) = IntOp.andi (IntOp.addi (BitVec.ofNat 32 a.val) (BitVec.ofNat 32 b.val)) 8191#32 from rfl).trans
    (andi_mask_small a.val b.val a.isLt b.isLt)

/-- It is not negative, so the wrap leaves it alone. -/
theorem kWrapped_apply (a b : Fin 8192) : kWrapped (ix2 a b) = BitVec.ofNat 32 ((a.val + b.val) % 8192) := by
  have h : kWrapped (ix2 a b) = Scalar.select (IntOp.cmpi .slt (kIdx (ix2 a b)) 0#32)
      (IntOp.addi (kIdx (ix2 a b)) 8192#32) (kIdx (ix2 a b)) := rfl
  rw [h, kIdx_apply, slt_zero_small _ (by omega), select_zero]

/-- The start index at (a, b, 0). -/
theorem kStart_apply (a b : Fin 8192) (u : Fin 1) : kStart (ix3 a b u) = BitVec.ofNat 32 ((a.val + b.val) % 8192) :=
  (shapeCast_ab_ab1_apply kWrapped shapeCasts_S8192x8192_S8192x8192x1 a b u).trans (kWrapped_apply a b)

/-- Every start index is in range: the mask is all ones. -/
theorem kMask_apply (j : S8192x8192.Idx) : kMask j = 1#1 := by
  refine reduce_andi_of_all_one _ _ _ _ (fun k => ?_) (fun _ => rfl) j
  obtain ⟨a, b, u, rfl⟩ : ∃ (a b : Fin 8192) (u : Fin 1), k = ix3 a b u := ⟨k 0, k 1, k 2, eq_ix3 k⟩
  show IntOp.andi (IntOp.cmpi .sge (kStart (ix3 a b u)) 0#32) (IntOp.cmpi .sle (kStart (ix3 a b u)) 8191#32) = 1#1
  rw [kStart_apply, sge_zero_small _ (by omega), sle_8191_small _ (Nat.mod_lt _ (by norm_num))]
  rfl

/-- THE KERNEL'S GATHER AT (i, j): the Gram matrix at row j and column (i + j) mod 8192. -/
theorem simsK_apply (s : (⟨S8192x8192, .f32⟩ : BufTy).Contents (Elt F)) (i j : Fin 8192) :
    simsK s (ix2 i j) = s (ix2 j ⟨(i.val + j.val) % 8192, Nat.mod_lt _ (by norm_num)⟩) := by
  unfold simsK
  rw [transpose_ix2_apply, select_apply, kMask_apply, select_one]
  have hg : gather_S8192x8192_S8192x8192x1_S8192x8192_n_1_0_0_1_2_11
      = alongDims 8192 8192 8192 gather_S8192x8192_S8192x8192x1_S8192x8192_n_1_0_0_1_2_11_wf := rfl
  rw [hg]
  refine (gather_along_apply (by norm_num) _ s kStart j i).trans ?_
  refine congrArg s ?_
  refine congrArg (ix2 j) (Fin.ext ?_)
  show min (kStart (ix3 j i (0 : Fin 1))).toInt.toNat (8192 - 1) = (i.val + j.val) % 8192
  rw [kStart_apply, clamp_small _ (Nat.mod_lt _ (by norm_num)), Nat.add_comm]

/-- Every entry of the kernel's gather is an entry of the Gram matrix. -/
theorem simsK_mem (s : (⟨S8192x8192, .f32⟩ : BufTy).Contents (Elt F)) (k : S8192x8192.Idx) : ∃ k', simsK s k = s k' := by
  rw [eq_ix2 k]; exact ⟨_, simsK_apply s (k 0) (k 1)⟩

end Cert.Sims
-- ==== Proof.LossRowsDefs.lean ====
import proofs.«118001_j3702261809487_2_alg».proof.KernelIdeal
import proofs.«118001_j3702261809487_2_alg».proof.ReferenceIdeal
import Idealize.ShloMosaic.PureOps.Ideal

/-!
# The per-row loss of the two programs, as functions of the positive and negative logits

Both programs end by averaging a vector of 8192 per-row losses. Each computes that vector from the same
two arrays: `pos` (one positive logit per row) and `neg` (8190 negative logits per row).

* The kernel's program divides both by the temperature 0.5, takes the shifted log-sum-exp `L` of each row of
  negatives (row maximum `m`, then `m + log Σ exp (n - m)`), and returns `logaddexp p L - p`, with
  `logaddexp` spelt as a select on `d ≠ d` (for `d = p - L`) between `p + L` and
  `max p L + log1p (exp (-|d|))`.
* The reference's program puts the positive logit in front of the row of negatives, divides by 0.5, takes the
  row-wise log-softmax, and returns minus its first column.

The definitions below are the programs' own operation terms, composed in the programs' order.
-/

noncomputable section

namespace Cert.LossRows

open Idealize.ShloMosaic

section Kernel
open Cert.KernelIdeal Cert.KernelIdeal.Facts₀
variable [Cert.KernelIdeal.Facts]

/-- The positive logits over the temperature. -/
def kP (pos : FVec Ideal S8192 .f32) : FVec Ideal S8192 .f32 :=
  Host.divf pos (broadcastInDim S8192 ![] bcast_S_S8192 (constant (F := Ideal) S_ .f32 0x3F000000#32))

/-- The negative logits over the temperature. -/
def kN (neg : FVec Ideal S8192x8190 .f32) : FVec Ideal S8192x8190 .f32 :=
  Host.divf neg (broadcastInDim S8192x8190 ![] bcast_S_S8192x8190 (constant (F := Ideal) S_ .f32 0x3F000000#32))

/-- Each row's maximum of the scaled negatives, from minus infinity. -/
def kM (neg : FVec Ideal S8192x8190 .f32) : FVec Ideal S8192 .f32 :=
  Host.reduce FloatOps.maximumf (kN neg) (constant (F := Ideal) S_ .f32 0xFF800000#32) reducesTo_S8192x8190_S8192_d1 h_S_

/-- The exponentials of the scaled negatives shifted by their row's maximum. -/
def kE (neg : FVec Ideal S8192x8190 .f32) : FVec Ideal S8192x8190 .f32 :=
  Host.exp (subf (kN neg)
    (broadcastInDim S8192x8190 ![0, 1] bcast_S8192x1_S8192x8190_0_1 (broadcastInDim S8192x1 ![0] bcast_S8192_S8192x1_0 (kM neg))))

/-- Each row's log-sum-exp of the scaled negatives. -/
def kL (neg : FVec Ideal S8192x8190 .f32) : FVec Ideal S8192 .f32 :=
  addf (kM neg) (Host.log (Host.reduceAdd (kE neg) (constant (F := Ideal) S_ .f32 0x00000000#32) reducesTo_S8192x8190_S8192_d1 h_S_))

/-- The difference of the two arguments of the log-add-exp. -/
def kD (pos : FVec Ideal S8192 .f32) (neg : FVec Ideal S8192x8190 .f32) : FVec Ideal S8192 .f32 :=
  subf (kP pos) (kL neg)

/-- The kernel's program's per-row loss: the log-add-exp of the scaled positive and the row's log-sum-exp, minus the
    scaled positive. -/
def lossK (pos : FVec Ideal S8192 .f32) (neg : FVec Ideal S8192x8190 .f32) : FVec Ideal S8192 .f32 :=
  subf
    (select (cmpf .une (kD pos neg) (kD pos neg)) (addf (kP pos) (kL neg))
      (addf (maximumf (kP pos) (kL neg)) (Host.log1p (Host.exp (Host.negf (Host.absf (kD pos neg)))))))
    (kP pos)

end Kernel

section Reference
open Cert.ReferenceIdeal Cert.ReferenceIdeal.Facts₀
variable [Cert.ReferenceIdeal.Facts]

/-- The logits of a row, the positive one first, over the temperature. -/
def rZ (pos : FVec Ideal S8192 .f32) (neg : FVec Ideal S8192x8190 .f32) : FVec Ideal S8192x8191 .f32 :=
  Host.divf
    (concatenate S8192x8191 1 [⟨S8192x1, broadcastInDim S8192x1 ![0] bcast_S8192_S8192x1_0 pos⟩, ⟨S8192x8190, neg⟩]
      concatenates_S8192x1_S8192x8190_S8192x8191_d1)
    (broadcastInDim S8192x8191 ![] bcast_S_S8192x8191 (constant (F := Ideal) S_ .f32 0x3F000000#32))

/-- Each row's maximum, from minus infinity, joined once more with minus infinity. -/
def rM (z : FVec Ideal S8192x8191 .f32) : FVec Ideal S8192 .f32 :=
  maximumf (broadcastInDim S8192 ![] bcast_S_S8192 (constant (F := Ideal) S_ .f32 0xFF800000#32))
    (Host.reduce FloatOps.maximumf z (constant (F := Ideal) S_ .f32 0xFF800000#32) reducesTo_S8192x8191_S8192_d1 h_S_)

/-- The logits shifted by their row's maximum. -/
def rShift (z : FVec Ideal S8192x8191 .f32) : FVec Ideal S8192x8191 .f32 :=
  subf z (broadcastInDim S8192x8191 ![0, 1] bcast_S8192x1_S8192x8191_0_1 (broadcastInDim S8192x1 ![0] bcast_S8192_S8192x1_0 (rM z)))

/-- The row-wise log-softmax. -/
def rLogSoftmax (z : FVec Ideal S8192x8191 .f32) : FVec Ideal S8192x8191 .f32 :=
  subf (rShift z)
    (broadcastInDim S8192x8191 ![0, 1] bcast_S8192x1_S8192x8191_0_1
      (Host.log (broadcastInDim S8192x1 ![0] bcast_S8192_S8192x1_0
        (Host.reduceAdd (Host.exp (rShift z)) (constant (F := Ideal) S_ .f32 0x00000000#32) reducesTo_S8192x8191_S8192_d1 h_S_))))

/-- The reference's program's per-row loss: minus the first column of the row-wise log-softmax. -/
def lossR (pos : FVec Ideal S8192 .f32) (neg : FVec Ideal S8192x8190 .f32) : FVec Ideal S8192 .f32 :=
  Host.negf (shapeCast S8192 (extractStridedSlice S8192x1 ![0, 0] (rLogSoftmax (rZ pos neg)) slices_S8192x8191_S8192x1_0_0)
    shapeCasts_S8192x1_S8192)

end Reference

end Cert.LossRows

end
-- ==== Proof.LibLogSumExp.lean ====
import Idealize.ShloMosaic.PureOps.Ideal

/-!
# Log-sum-exp over the extended reals, on real inputs

Floats are read as extended reals (`EReal`), with the exact exponential and logarithm
`Ideal.exp`, `Ideal.log`, `Ideal.log1p` extended to the two infinities. This file proves, for REAL
inputs `p`, `n k` coerced to extended reals, that two ways of computing one cross-entropy row agree:

* the "log-add-exp" way: `logaddexp p L - p` where `L = m + log (Σ exp (n k - m))` is a shifted
  log-sum-exp (any real shift `m`) and `logaddexp a b = max a b + log1p (exp (-|a - b|))`;
* the "log-softmax" way: `-((p - mx) - log (exp (p - mx) + Σ exp (n k - mx)))` (any real shift `mx`).

Both equal the real number `log (exp p + Σ exp (n k)) - p`.

Strategy. Every intermediate value is a real, so each extended-real expression is first rewritten
into the coercion of the corresponding real expression (coercion commutes with `+`, `-`, `max`,
finite sums, and with `exp`; with `log` at a positive argument), and then a real identity is used:

* `exp y * (1 + exp (x - y)) = exp x + exp y`, so for `x ≤ y`,
  `y + log (1 + exp (x - y)) = log (exp x + exp y)`;
* `exp m * Σ exp (n k - m) = Σ exp (n k)`, so `m + log (Σ exp (n k - m)) = log (Σ exp (n k))`;
* `exp (p - mx) + Σ exp (n k - mx) = exp (-mx) * (exp p + Σ exp (n k))`.

The file also records that a running maximum of a nonempty finite family of reals started at `⊥`
is a real, and that `Ideal.div` of two reals by a nonzero real is the real quotient.
-/

namespace LogSumExp

open Idealize.ShloMosaic
open scoped BigOperators

variable {ι : Type} [Fintype ι]

/-! ### Coercion lemmas -/

/-- ℝ→EReal coercion commutes with a sum over a finset. -/
theorem coe_finset_sum {α : Type} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- ℝ→EReal coercion commutes with a finite sum. -/
theorem coe_sum (f : ι → ℝ) : ((∑ k, f k : ℝ) : EReal) = ∑ k, (f k : EReal) :=
  coe_finset_sum Finset.univ f

theorem exp_coe (r : ℝ) : Ideal.exp (r : EReal) = ((Real.exp r : ℝ) : EReal) := rfl

theorem log_coe_of_pos {r : ℝ} (h : 0 < r) : Ideal.log (r : EReal) = ((Real.log r : ℝ) : EReal) := by
  rw [Ideal.log_coe, if_neg (not_le.mpr h)]

/-- The maximum of two coerced reals is the coerced maximum. -/
theorem max_coe_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Ideal.div of two reals by a nonzero real is the real quotient. -/
theorem div_coe (x : ℝ) {y : ℝ} (hy : y ≠ 0) : Ideal.div (x : EReal) (y : EReal) = ((x / y : ℝ) : EReal) := by
  rw [Ideal.div_coe hy (x : EReal), ← EReal.coe_mul, mul_one_div]

/-! ### Real identities -/

/-- For `x ≤ y` (in fact for all `x, y`): `y + log (1 + exp (x - y)) = log (exp x + exp y)`. -/
theorem real_add_log_one_add_exp (x y : ℝ) :
    y + Real.log (1 + Real.exp (x - y)) = Real.log (Real.exp x + Real.exp y) := by
  have h1 : (0 : ℝ) < 1 + Real.exp (x - y) := by positivity
  have h2 : y + (x - y) = x := by ring
  have : Real.exp x + Real.exp y = Real.exp y * (1 + Real.exp (x - y)) := by
    rw [mul_add, mul_one, ← Real.exp_add, h2, add_comm]
  rw [this, Real.log_mul (Real.exp_pos y).ne' h1.ne', Real.log_exp]

/-- `max a b + log (1 + exp (-|a - b|)) = log (exp a + exp b)`, with `|d|` spelled `max d (-d)`. -/
theorem real_logaddexp (a b : ℝ) :
    max a b + Real.log (1 + Real.exp (-(max (a - b) (-(a - b))))) = Real.log (Real.exp a + Real.exp b) := by
  rcases le_total a b with h | h
  · have e1 : max a b = b := max_eq_right h
    have e2 : max (a - b) (-(a - b)) = -(a - b) := max_eq_right (by linarith)
    rw [e1, e2, neg_neg]
    exact real_add_log_one_add_exp a b
  · have e1 : max a b = a := max_eq_left h
    have e2 : max (a - b) (-(a - b)) = a - b := max_eq_left (by linarith)
    rw [e1, e2, neg_sub, add_comm (Real.exp a)]
    exact real_add_log_one_add_exp b a

theorem sum_exp_sub_pos [Nonempty ι] (m : ℝ) (n : ι → ℝ) : 0 < ∑ k, Real.exp (n k - m) :=
  Finset.sum_pos (fun k _ => Real.exp_pos _) Finset.univ_nonempty

theorem sum_exp_pos [Nonempty ι] (n : ι → ℝ) : 0 < ∑ k, Real.exp (n k) :=
  Finset.sum_pos (fun k _ => Real.exp_pos _) Finset.univ_nonempty

/-- The shifted log-sum-exp does not depend on the shift. -/
theorem real_shift_sum [Nonempty ι] (m : ℝ) (n : ι → ℝ) :
    m + Real.log (∑ k, Real.exp (n k - m)) = Real.log (∑ k, Real.exp (n k)) := by
  have hpos := sum_exp_sub_pos m n
  have : ∑ k, Real.exp (n k) = Real.exp m * ∑ k, Real.exp (n k - m) := by
    rw [Finset.mul_sum]
    refine Finset.sum_congr rfl (fun k _ => ?_)
    rw [← Real.exp_add]
    congr 1
    ring
  rw [this, Real.log_mul (Real.exp_pos m).ne' hpos.ne', Real.log_exp]

/-- The real log-softmax row. -/
theorem real_logsoftmax (p mx : ℝ) (n : ι → ℝ) :
    -((p - mx) - Real.log (Real.exp (p - mx) + ∑ k, Real.exp (n k - mx)))
      = Real.log (Real.exp p + ∑ k, Real.exp (n k)) - p := by
  have hS : 0 < Real.exp p + ∑ k, Real.exp (n k) :=
    add_pos_of_pos_of_nonneg (Real.exp_pos p) (Finset.sum_nonneg (fun k _ => (Real.exp_pos _).le))
  have : Real.exp (p - mx) + ∑ k, Real.exp (n k - mx)
      = Real.exp (-mx) * (Real.exp p + ∑ k, Real.exp (n k)) := by
    rw [mul_add, Finset.mul_sum, ← Real.exp_add]
    congr 1
    · congr 1
      ring
    · refine Finset.sum_congr rfl (fun k _ => ?_)
      rw [← Real.exp_add]
      congr 1
      ring
  rw [this, Real.log_mul (Real.exp_pos _).ne' hS.ne', Real.log_exp]
  ring

/-! ### The two rows over the extended reals -/

/-- The sum of exponentials of shifted coerced reals is the coerced real sum. -/
theorem sum_exp_coe (m : ℝ) (n : ι → ℝ) :
    ∑ k, Ideal.exp ((n k : EReal) - (m : EReal)) = ((∑ k, Real.exp (n k - m) : ℝ) : EReal) := by
  rw [coe_sum]
  refine Finset.sum_congr rfl (fun k _ => ?_)
  rw [← EReal.coe_sub, exp_coe]

/-- The shifted log-sum-exp of coerced reals is a coerced real. -/
theorem logsumexp_coe [Nonempty ι] (m : ℝ) (n : ι → ℝ) :
    (m : EReal) + Ideal.log (0 + ∑ k, Ideal.exp ((n k : EReal) - (m : EReal)))
      = ((Real.log (∑ k, Real.exp (n k)) : ℝ) : EReal) := by
  rw [zero_add, sum_exp_coe, log_coe_of_pos (sum_exp_sub_pos m n), ← EReal.coe_add, real_shift_sum]

/-- log-add-exp of two coerced reals. -/
theorem logaddexp_coe (a b : ℝ) :
    max (a : EReal) (b : EReal)
        + Ideal.log1p (Ideal.exp (-(max ((a : EReal) - (b : EReal)) (-((a : EReal) - (b : EReal))))))
      = ((Real.log (Real.exp a + Real.exp b) : ℝ) : EReal) := by
  have h1 : (0 : ℝ) < 1 + Real.exp (-(max (a - b) (-(a - b)))) := by positivity
  rw [← EReal.coe_sub, ← EReal.coe_neg, max_coe_real, max_coe_real, ← EReal.coe_neg, exp_coe,
    Ideal.log1p, ← EReal.coe_one, ← EReal.coe_add, log_coe_of_pos h1, ← EReal.coe_add, real_logaddexp]

/-- The kernel's row: logaddexp of p and L = m + log(0 + Σ exp(n k - m)), minus p, for ANY real shift m. -/
theorem logaddexp_row [Nonempty ι] (p m : ℝ) (n : ι → ℝ) :
    (max (p : EReal) ((m : EReal) + Ideal.log (0 + ∑ k, Ideal.exp ((n k : EReal) - (m : EReal))))
      + Ideal.log1p (Ideal.exp (-(max ((p : EReal) - ((m : EReal) + Ideal.log (0 + ∑ k, Ideal.exp ((n k : EReal) - (m : EReal)))))
                                   (-((p : EReal) - ((m : EReal) + Ideal.log (0 + ∑ k, Ideal.exp ((n k : EReal) - (m : EReal))))))))))
      - (p : EReal)
    = ((Real.log (Real.exp p + ∑ k, Real.exp (n k)) - p : ℝ) : EReal) := by
  rw [logsumexp_coe, logaddexp_coe, ← EReal.coe_sub, Real.exp_log (sum_exp_pos n)]

/-- The reference's row: minus the log-softmax entry of p among [p, n..], for ANY real shift mx. -/
theorem logsoftmax_row (p mx : ℝ) (n : ι → ℝ) :
    -(((p : EReal) - (mx : EReal)) - Ideal.log (0 + (Ideal.exp ((p : EReal) - (mx : EReal)) + ∑ k, Ideal.exp ((n k : EReal) - (mx : EReal)))))
    = ((Real.log (Real.exp p + ∑ k, Real.exp (n k)) - p : ℝ) : EReal) := by
  have hpos : 0 < Real.exp (p - mx) + ∑ k, Real.exp (n k - mx) :=
    add_pos_of_pos_of_nonneg (Real.exp_pos _) (Finset.sum_nonneg (fun k _ => (Real.exp_pos _).le))
  rw [zero_add, sum_exp_coe, ← EReal.coe_sub, exp_coe, ← EReal.coe_add, log_coe_of_pos hpos,
    ← EReal.coe_sub, ← EReal.coe_neg, real_logsoftmax]

/-- the two rows agree -/
theorem row_law [Nonempty ι] (p m mx : ℝ) (n : ι → ℝ) :
    (max (p : EReal) ((m : EReal) + Ideal.log (0 + ∑ k, Ideal.exp ((n k : EReal) - (m : EReal))))
      + Ideal.log1p (Ideal.exp (-(max ((p : EReal) - ((m : EReal) + Ideal.log (0 + ∑ k, Ideal.exp ((n k : EReal) - (m : EReal)))))
                                   (-((p : EReal) - ((m : EReal) + Ideal.log (0 + ∑ k, Ideal.exp ((n k : EReal) - (m : EReal))))))))))
      - (p : EReal)
    = -(((p : EReal) - (mx : EReal)) - Ideal.log (0 + (Ideal.exp ((p : EReal) - (mx : EReal)) + ∑ k, Ideal.exp ((n k : EReal) - (mx : EReal))))) := by
  rw [logaddexp_row, logsoftmax_row]

/-! ### Running maxima of reals are reals -/

/-- The maximum of a real with the running maximum (from `⊥`) of a finite family of reals is a real. -/
theorem max_fold_max_real (n : ι → ℝ) (s : Finset ι) :
    ∀ a : ℝ, ∃ r : ℝ, max (a : EReal) (s.fold max (⊥ : EReal) (fun k => (n k : EReal))) = (r : EReal) := by
  classical
  induction s using Finset.induction_on with
  | empty => intro a; exact ⟨a, by rw [Finset.fold_empty, max_bot_right]⟩
  | insert b s hb ih =>
    intro a
    obtain ⟨r, hr⟩ := ih (max a (n b))
    exact ⟨r, by rw [Finset.fold_insert hb, ← max_assoc, max_coe_real, hr]⟩

/-- The running maximum of a nonempty finite family of reals, started from ⊥, is a real. -/
theorem fold_max_real [Nonempty ι] (n : ι → ℝ) :
    ∃ r : ℝ, Finset.univ.fold max (⊥ : EReal) (fun k => (n k : EReal)) = (r : EReal) := by
  classical
  obtain ⟨k0⟩ := ‹Nonempty ι›
  obtain ⟨r, hr⟩ := max_fold_max_real n (Finset.univ.erase k0) (n k0)
  refine ⟨r, ?_⟩
  rw [← Finset.insert_erase (Finset.mem_univ k0), Finset.fold_insert (Finset.notMem_erase k0 _), hr]

theorem foldl_max_coe_real (l : List ℝ) :
    ∀ a : ℝ, ∃ r : ℝ, (l.map fun (x : ℝ) => (x : EReal)).foldl max (a : EReal) = (r : EReal) := by
  induction l with
  | nil => intro a; exact ⟨a, rfl⟩
  | cons x l ih =>
    intro a
    obtain ⟨r, hr⟩ := ih (max a x)
    exact ⟨r, by rw [List.map_cons, List.foldl_cons, max_coe_real, hr]⟩

theorem foldl_max_real (l : List ℝ) (h : l ≠ []) :
    ∃ r : ℝ, (l.map fun (x : ℝ) => (x : EReal)).foldl max (⊥ : EReal) = (r : EReal) := by
  cases l with
  | nil => exact absurd rfl h
  | cons x l =>
    obtain ⟨r, hr⟩ := foldl_max_coe_real l x
    exact ⟨r, by rw [List.map_cons, List.foldl_cons, max_bot_left, hr]⟩

theorem max_foldr_max_real (l : List ℝ) :
    ∀ a : ℝ, ∃ r : ℝ, max (a : EReal) ((l.map fun (x : ℝ) => (x : EReal)).foldr max (⊥ : EReal)) = (r : EReal) := by
  induction l with
  | nil => intro a; exact ⟨a, by rw [List.map_nil, List.foldr_nil, max_bot_right]⟩
  | cons x l ih =>
    intro a
    obtain ⟨r, hr⟩ := ih (max a x)
    exact ⟨r, by rw [List.map_cons, List.foldr_cons, ← max_assoc, max_coe_real, hr]⟩

theorem foldr_max_real (l : List ℝ) (h : l ≠ []) :
    ∃ r : ℝ, (l.map fun (x : ℝ) => (x : EReal)).foldr max (⊥ : EReal) = (r : EReal) := by
  cases l with
  | nil => exact absurd rfl h
  | cons x l =>
    obtain ⟨r, hr⟩ := max_foldr_max_real l x
    exact ⟨r, by rw [List.map_cons, List.foldr_cons, hr]⟩

end LogSumExp
-- ==== Proof.Norm.lean ====
/-
  The row normalisation x = reps / max(‖reps row‖, c), entry by entry, and that it keeps real entries real.

  reps is the two arguments stacked, so each of its entries is an entry of one of them. For a matrix with real
  entries the sum of squares of a row (taken from a zero start) is a nonnegative real, its square root is a real,
  and the larger of that root and the positive constant c is a positive real; a real divided by a nonzero real is a
  real. The two programs spell this part with the same operations, so one definition serves both.
-/
import proofs.«118001_j3702261809487_2_alg».proof.KernelIdeal
import proofs.«118001_j3702261809487_2_alg».proof.ReferenceIdeal
import proofs.«118001_j3702261809487_2_alg».proof.Proof.LibLogSumExp
import Idealize.ShloMosaic.PureOps.Ideal
import Idealize.ShloMosaic.PureOps.Ideal.Laws
import Idealize.ShloMosaic.Lib.ValueIdx
import Idealize.ShloMosaic.Lib.Pipeline.Value

noncomputable section

namespace Cert.Gram

open Idealize.ShloMosaic Idealize.ShloMosaic.ValueIdx
open Cert.KernelIdeal (S4096x512 S8192x512 S_ S8192 S8192x1)

/-- The word of the constant c denotes a positive real: (2²³ + 2870391) · 2^(100 − 150), about 10⁻⁸. -/
theorem eps_pos : ∃ c : ℝ, 0 < c ∧ Ideal.ofBits .f32 0x322BCC77#32 = (c : EReal) := by
  refine ⟨11258999 * 2 ^ (-50 : ℤ), by positivity, ?_⟩
  simp [Ideal.ofBits, Ideal.ieee, -EReal.coe_mul]

section Kernel
variable [Cert.KernelIdeal.Facts]
open Cert.KernelIdeal.Facts₀

/-- The two arguments stacked along the rows. -/
def reps (a0 a1 : FVec Ideal S4096x512 .f32) : FVec Ideal S8192x512 .f32 :=
  concatenate S8192x512 0 [⟨S4096x512, a0⟩, ⟨S4096x512, a1⟩] concatenates_S4096x512_S4096x512_S8192x512_d0

/-- The sum of squares of each row, from a zero start. -/
def rowsum (x : FVec Ideal S8192x512 .f32) : FVec Ideal S8192 .f32 :=
  Host.reduceAdd (F := Ideal) (mulf x x) (constant (F := Ideal) S_ .f32 0x00000000#32) reducesTo_S8192x512_S8192_d1 h_S_

/-- The divisor of each row: the larger of the row's norm and the constant c. -/
def denom (x : FVec Ideal S8192x512 .f32) : FVec Ideal S8192x1 .f32 :=
  maximumf (Host.sqrt (broadcastInDim S8192x1 ![0] bcast_S8192_S8192x1_0 (rowsum x)))
    (broadcastInDim S8192x1 ![] bcast_S_S8192x1 (constant (F := Ideal) S_ .f32 0x322BCC77#32))

/-- Every row divided by its divisor. -/
def xnormOf (x : FVec Ideal S8192x512 .f32) : FVec Ideal S8192x512 .f32 :=
  Host.divf x (broadcastInDim S8192x512 ![0, 1] bcast_S8192x1_S8192x512_0_1 (denom x))

/-- The normalised rows as a function of the two arguments. -/
def xnorm (a0 a1 : FVec Ideal S4096x512 .f32) : FVec Ideal S8192x512 .f32 := xnormOf (reps a0 a1)

/-- Each entry of the stacked matrix is an entry of one of the two arguments. -/
theorem reps_real (a0 a1 : FVec Ideal S4096x512 .f32) (h0 : ∀ i, ∃ r : ℝ, a0 i = (r : EReal))
    (h1 : ∀ i, ∃ r : ℝ, a1 i = (r : EReal)) : ∀ i, ∃ r : ℝ, reps a0 a1 i = (r : EReal) := by
  intro j
  unfold reps
  by_cases hlt : (j 0).val < 4096
  · rw [concatenate_pair_apply_left (0 : Fin S8192x512.rank) a0 a1 _ j rfl (ix2 ⟨(j 0).val, hlt⟩ ⟨(j 1).val, (j 1).isLt⟩)
      (fun b => by match b with
        | ⟨0, _⟩ => rfl
        | ⟨1, _⟩ => rfl)]
    exact h0 _
  · have hj : (j 0).val < 8192 := (j 0).isLt
    rw [concatenate_pair_apply_right (0 : Fin S8192x512.rank) a0 a1 _ j rfl rfl
      (ix2 ⟨(j 0).val - 4096, by omega⟩ ⟨(j 1).val, (j 1).isLt⟩)
      (fun b hb => by match b, hb with
        | ⟨0, _⟩, hb => exact absurd rfl hb
        | ⟨1, _⟩, _ => rfl)
      (by show (j 0).val - 4096 + 4096 = (j 0).val; omega)]
    exact h1 _

/-- The sum of squares of a row of reals is a nonnegative real. -/
theorem rowsum_real (x : FVec Ideal S8192x512 .f32) (hx : ∀ i, ∃ r : ℝ, x i = (r : EReal)) :
    ∀ k, ∃ r : ℝ, 0 ≤ r ∧ rowsum x k = (r : EReal) := by
  intro k
  choose f hf using hx
  obtain rfl : x = fun i => (f i : EReal) := funext hf
  have hR : S8192x512.Reduces [1] S8192 := by decide
  unfold rowsum Host.reduceAdd
  rw [Ideal.hostReduceAdd_def, Ideal.hostReduceAdd_single _ hR]
  refine ⟨∑ c : Fin 512, f (hR.lift k c) * f (hR.lift k c), Finset.sum_nonneg fun c _ => mul_self_nonneg _, ?_⟩
  rw [LogSumExp.coe_sum]
  simp only [EReal.coe_mul]
  show Ideal.ofBits .f32 0x00000000#32 + _ = _
  rw [Ideal.ofBits_zero_f32, zero_add]
  rfl

/-- The divisor of a row of reals is a positive real. -/
theorem denom_pos (x : FVec Ideal S8192x512 .f32) (hx : ∀ i, ∃ r : ℝ, x i = (r : EReal)) :
    ∀ j, ∃ r : ℝ, 0 < r ∧ denom x j = (r : EReal) := by
  intro j
  have hd : ∃ k, denom x j = max (Ideal.sqrt (rowsum x k)) (Ideal.ofBits .f32 0x322BCC77#32) := ⟨_, rfl⟩
  obtain ⟨k, hk⟩ := hd
  obtain ⟨s, hs0, hs⟩ := rowsum_real x hx k
  obtain ⟨c, hc0, hc⟩ := eps_pos
  rw [hk, hs, hc, Ideal.sqrt_coe, if_neg (not_lt.mpr hs0), LogSumExp.max_coe_real]
  exact ⟨_, lt_of_lt_of_le hc0 (le_max_right _ _), rfl⟩

/-- A matrix of reals normalised has real entries. -/
theorem xnormOf_real (x : FVec Ideal S8192x512 .f32) (hx : ∀ i, ∃ r : ℝ, x i = (r : EReal)) :
    ∀ i, ∃ r : ℝ, xnormOf x i = (r : EReal) := by
  intro i
  have hd : ∃ j, xnormOf x i = Ideal.div (x i) (denom x j) := ⟨_, rfl⟩
  obtain ⟨j, hj⟩ := hd
  obtain ⟨r, hr⟩ := hx i
  obtain ⟨d, hd0, hd⟩ := denom_pos x hx j
  rw [hj, hr, hd, LogSumExp.div_coe r hd0.ne']
  exact ⟨_, rfl⟩

/-- The normalised rows of two arguments with real entries have real entries. -/
theorem xnorm_real (a0 a1 : FVec Ideal S4096x512 .f32) (h0 : ∀ i, ∃ r : ℝ, a0 i = (r : EReal))
    (h1 : ∀ i, ∃ r : ℝ, a1 i = (r : EReal)) : ∀ i, ∃ r : ℝ, xnorm a0 a1 i = (r : EReal) :=
  xnormOf_real _ (reps_real a0 a1 h0 h1)

end Kernel

section Reference
variable [Cert.ReferenceIdeal.Facts]

/-- The reference's stacked arguments, in its own names. -/
def repsR (a0 a1 : FVec Ideal Cert.ReferenceIdeal.S4096x512 .f32) : FVec Ideal Cert.ReferenceIdeal.S8192x512 .f32 :=
  concatenate Cert.ReferenceIdeal.S8192x512 0 [⟨Cert.ReferenceIdeal.S4096x512, a0⟩, ⟨Cert.ReferenceIdeal.S4096x512, a1⟩]
    Cert.ReferenceIdeal.Facts₀.concatenates_S4096x512_S4096x512_S8192x512_d0

/-- The reference's normalised rows, in its own names: the same operations in the same order. -/
def xnormR (a0 a1 : FVec Ideal Cert.ReferenceIdeal.S4096x512 .f32) : FVec Ideal Cert.ReferenceIdeal.S8192x512 .f32 :=
  Host.divf (repsR a0 a1)
    (broadcastInDim Cert.ReferenceIdeal.S8192x512 ![0, 1] Cert.ReferenceIdeal.Facts₀.bcast_S8192x1_S8192x512_0_1
      (maximumf
        (Host.sqrt (broadcastInDim Cert.ReferenceIdeal.S8192x1 ![0] Cert.ReferenceIdeal.Facts₀.bcast_S8192_S8192x1_0
          (Host.reduceAdd (F := Ideal) (mulf (repsR a0 a1) (repsR a0 a1))
            (constant (F := Ideal) Cert.ReferenceIdeal.S_ .f32 0x00000000#32)
            Cert.ReferenceIdeal.Facts₀.reducesTo_S8192x512_S8192_d1 Cert.ReferenceIdeal.Facts₀.h_S_)))
        (broadcastInDim Cert.ReferenceIdeal.S8192x1 ![] Cert.ReferenceIdeal.Facts₀.bcast_S_S8192x1
          (constant (F := Ideal) Cert.ReferenceIdeal.S_ .f32 0x322BCC77#32))))

variable [Cert.KernelIdeal.Facts]

/-- The two texts are one function: they differ only in which proofs of the same shape facts they cite. -/
theorem xnormR_eq (a0 a1 : FVec Ideal S4096x512 .f32) : xnormR a0 a1 = xnorm a0 a1 := rfl

end Reference

end Cert.Gram

end
-- ==== Proof.KIStages.lean ====
/-
  The kernel program's value, stage by stage, at the exact instance: the normalised rows x (rounded to the matrix
  unit's input format, which is the identity on exact values), and after the Gram matrix the gather of the shifted
  diagonals, the positives (row 4096) and the negatives (the other rows but row 0, re-read as 8192 rows of 8190), the
  row losses and their mean. Each definition composes the pure functions of a stretch of the program's operations in
  the program's order.
-/
import proofs.«118001_j3702261809487_2_alg».proof.Proof.Gen.KernelIdeal
import proofs.«118001_j3702261809487_2_alg».proof.Proof.SimsK
import proofs.«118001_j3702261809487_2_alg».proof.Proof.LossRowsDefs
import proofs.«118001_j3702261809487_2_alg».proof.Proof.Norm

noncomputable section

namespace Cert.KernelIdeal.Hand

open Cert.KernelIdeal Cert.KernelIdeal.Gen Idealize.ShloMosaic

/-- The normalised rows in the matrix unit's input format. -/
def xbf (x : (⟨S8192x512, .f32⟩ : BufTy).Contents (Elt Ideal)) : (⟨S8192x512, .bf16⟩ : BufTy).Contents (Elt Ideal) :=
  (truncf (F := Ideal) .bf16 · bitsLt_bf16_f32) x

/-- The positives: row 4096 of the re-indexed similarities. -/
def posK (s : (⟨S8192x8192, .f32⟩ : BufTy).Contents (Elt Ideal)) : (⟨S8192, .f32⟩ : BufTy).Contents (Elt Ideal) :=
  shapeCast S8192 (extractStridedSlice S1x8192 ![4096, 0] s slices_S8192x8192_S1x8192_4096_0) shapeCasts_S1x8192_S8192

/-- The negatives: rows 1 … 4095 and 4097 … 8191 stacked and read in row-major order as 8192 rows of 8190. -/
def negK (s : (⟨S8192x8192, .f32⟩ : BufTy).Contents (Elt Ideal)) : (⟨S8192x8190, .f32⟩ : BufTy).Contents (Elt Ideal) :=
  shapeCast S8192x8190
    (concatenate S8190x8192 0
      [⟨S4095x8192, extractStridedSlice S4095x8192 ![1, 0] s slices_S8192x8192_S4095x8192_1_0⟩,
       ⟨S4095x8192, extractStridedSlice S4095x8192 ![4097, 0] s slices_S8192x8192_S4095x8192_4097_0⟩]
      concatenates_S4095x8192_S4095x8192_S8190x8192_d0)
    shapeCasts_S8190x8192_S8192x8190

/-- The mean of the row losses: their sum from zero, divided by 8192. -/
def finalK (l : (⟨S8192, .f32⟩ : BufTy).Contents (Elt Ideal)) : (⟨S_, .f32⟩ : BufTy).Contents (Elt Ideal) :=
  Host.divf (F := Ideal) (Host.reduceAdd (F := Ideal) l (constant (F := Ideal) S_ .f32 0x00000000#32) reducesTo_S8192_S_d0 h_S_) (constant (F := Ideal) S_ .f32 0x46000000#32)

/-- The result as a function of the Gram matrix. -/
def tailK (s : (⟨S8192x8192, .f32⟩ : BufTy).Contents (Elt Ideal)) : (⟨S_, .f32⟩ : BufTy).Contents (Elt Ideal) :=
  finalK (Cert.LossRows.lossK (posK (Cert.Sims.simsK s)) (negK (Cert.Sims.simsK s)))

end Cert.KernelIdeal.Hand

end
-- ==== Proof.KIGatherOps.lean ====
/-
  The gather stretch of the kernel program (the column gather jax outlines as a function of its own), listed with each
  operation applied directly to its buffers: the same 22 operations, in order, as the launch module's list, which
  states them through typed references; operation by operation the two spellings are one, so the lists are one list.
-/
import proofs.«118001_j3702261809487_2_alg».proof.Proof.Gen.KernelIdeal.Launch

set_option maxRecDepth 16384

noncomputable section

namespace Cert.KernelIdeal.Hand

open Cert.KernelIdeal Cert.KernelIdeal.Gen Idealize.ShloMosaic

variable {F : FTy → Type} [FloatOps F]

/-- The column gather's operations, in order. -/
abbrev gatherOps : List (HloOp τ sig (Elt F)) :=
  [ StableHlo.nullary main_call1_c (constantI S_ 32 0#32),
    StableHlo.unary main_call1_c main_call1_v0 ((broadcastInDim S8192x8192 ![] bcast_S_S8192x8192) : (⟨S_, .i32⟩ : BufTy).Contents (Elt F) → (⟨S8192x8192, .i32⟩ : BufTy).Contents (Elt F)),
    StableHlo.binary main_v15 main_call1_v0 main_call1_v1 ((cmpi .slt) : (⟨S8192x8192, .i32⟩ : BufTy).Contents (Elt F) → (⟨S8192x8192, .i32⟩ : BufTy).Contents (Elt F) → (⟨S8192x8192, .i1⟩ : BufTy).Contents (Elt F)),
    StableHlo.nullary main_call1_c_0 (constantI S_ 32 8192#32),
    StableHlo.unary main_call1_c_0 main_call1_v2 ((broadcastInDim S8192x8192 ![] bcast_S_S8192x8192) : (⟨S_, .i32⟩ : BufTy).Contents (Elt F) → (⟨S8192x8192, .i32⟩ : BufTy).Contents (Elt F)),
    StableHlo.binary main_v15 main_call1_v2 main_call1_v3 ((addi) : (⟨S8192x8192, .i32⟩ : BufTy).Contents (Elt F) → (⟨S8192x8192, .i32⟩ : BufTy).Contents (Elt F) → (⟨S8192x8192, .i32⟩ : BufTy).Contents (Elt F)),
    StableHlo.ternary main_call1_v1 main_call1_v3 main_v15 main_call1_v4 ((select) : (⟨S8192x8192, .i1⟩ : BufTy).Contents (Elt F) → (⟨S8192x8192, .i32⟩ : BufTy).Contents (Elt F) → (⟨S8192x8192, .i32⟩ : BufTy).Contents (Elt F) → (⟨S8192x8192, .i32⟩ : BufTy).Contents (Elt F)),
    StableHlo.reshape main_call1_v4 main_call1_v5 rfl shapeCasts_S8192x8192_S8192x8192x1,
    StableHlo.nullary main_call1_c_1 (constantI S1 32 8191#32),
    StableHlo.nullary main_call1_c_2 (constantI S_ 32 0#32),
    StableHlo.unary main_call1_c_2 main_call1_v6 ((broadcastInDim S8192x8192x1 ![] bcast_S_S8192x8192x1) : (⟨S_, .i32⟩ : BufTy).Contents (Elt F) → (⟨S8192x8192x1, .i32⟩ : BufTy).Contents (Elt F)),
    StableHlo.binary main_call1_v5 main_call1_v6 main_call1_v7 ((cmpi .sge) : (⟨S8192x8192x1, .i32⟩ : BufTy).Contents (Elt F) → (⟨S8192x8192x1, .i32⟩ : BufTy).Contents (Elt F) → (⟨S8192x8192x1, .i1⟩ : BufTy).Contents (Elt F)),
    StableHlo.unary main_call1_c_1 main_call1_v8 ((broadcastInDim S1x1x1 ![2] bcast_S1_S1x1x1_2) : (⟨S1, .i32⟩ : BufTy).Contents (Elt F) → (⟨S1x1x1, .i32⟩ : BufTy).Contents (Elt F)),
    StableHlo.unary main_call1_v8 main_call1_v9 ((broadcastInDim S8192x8192x1 ![0, 1, 2] bcast_S1x1x1_S8192x8192x1_0_1_2) : (⟨S1x1x1, .i32⟩ : BufTy).Contents (Elt F) → (⟨S8192x8192x1, .i32⟩ : BufTy).Contents (Elt F)),
    StableHlo.binary main_call1_v5 main_call1_v9 main_call1_v10 ((cmpi .sle) : (⟨S8192x8192x1, .i32⟩ : BufTy).Contents (Elt F) → (⟨S8192x8192x1, .i32⟩ : BufTy).Contents (Elt F) → (⟨S8192x8192x1, .i1⟩ : BufTy).Contents (Elt F)),
    StableHlo.binary main_call1_v7 main_call1_v10 main_call1_v11 ((andi) : (⟨S8192x8192x1, .i1⟩ : BufTy).Contents (Elt F) → (⟨S8192x8192x1, .i1⟩ : BufTy).Contents (Elt F) → (⟨S8192x8192x1, .i1⟩ : BufTy).Contents (Elt F)),
    StableHlo.nullary main_call1_c_3 (constantI S_ 1 1#1),
    StableHlo.binary main_call1_v11 main_call1_c_3 main_call1_v12 ((fun x v => Host.reduce IntOp.andi x v reducesTo_S8192x8192x1_S8192x8192_d2 h_S_) : (⟨S8192x8192x1, .i1⟩ : BufTy).Contents (Elt F) → (⟨S_, .i1⟩ : BufTy).Contents (Elt F) → (⟨S8192x8192, .i1⟩ : BufTy).Contents (Elt F)),
    StableHlo.binary main_v7 main_call1_v5 main_call1_v13 ((fun x i => Host.gather gather_S8192x8192_S8192x8192x1_S8192x8192_n_1_0_0_1_2_11 x i) : (⟨S8192x8192, .f32⟩ : BufTy).Contents (Elt F) → (⟨S8192x8192x1, .i32⟩ : BufTy).Contents (Elt F) → (⟨S8192x8192, .f32⟩ : BufTy).Contents (Elt F)),
    StableHlo.nullary main_call1_cst (constant S_ .f32 0x7FC00000#32),
    StableHlo.unary main_call1_cst main_call1_v14 ((broadcastInDim S8192x8192 ![] bcast_S_S8192x8192) : (⟨S_, .f32⟩ : BufTy).Contents (Elt F) → (⟨S8192x8192, .f32⟩ : BufTy).Contents (Elt F)),
    StableHlo.ternary main_call1_v12 main_call1_v13 main_call1_v14 main_v16 ((select) : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) ]

theorem op_eq_0 (v : (⟨S_, .i32⟩ : BufTy).Contents (Elt F)) : (StableHlo.TRef.nullary (.of main_call1_c : StableHlo.TRef sig ⟨S_, .i32⟩) v : HloOp τ sig (Elt F)) = StableHlo.nullary main_call1_c v := rfl
theorem op_eq_1 (f : (⟨S_, .i32⟩ : BufTy).Contents (Elt F) → (⟨S8192x8192, .i32⟩ : BufTy).Contents (Elt F)) : (StableHlo.TRef.unary (.of main_call1_c : StableHlo.TRef sig ⟨S_, .i32⟩) (.of main_call1_v0 : StableHlo.TRef sig ⟨S8192x8192, .i32⟩) f : HloOp τ sig (Elt F)) = StableHlo.unary main_call1_c main_call1_v0 f := rfl
theorem op_eq_2 (f : (⟨S8192x8192, .i32⟩ : BufTy).Contents (Elt F) → (⟨S8192x8192, .i32⟩ : BufTy).Contents (Elt F) → (⟨S8192x8192, .i1⟩ : BufTy).Contents (Elt F)) : (StableHlo.TRef.binary (.of main_v15 : StableHlo.TRef sig ⟨S8192x8192, .i32⟩) (.of main_call1_v0 : StableHlo.TRef sig ⟨S8192x8192, .i32⟩) (.of main_call1_v1 : StableHlo.TRef sig ⟨S8192x8192, .i1⟩) f : HloOp τ sig (Elt F)) = StableHlo.binary main_v15 main_call1_v0 main_call1_v1 f := rfl
theorem op_eq_3 (v : (⟨S_, .i32⟩ : BufTy).Contents (Elt F)) : (StableHlo.TRef.nullary (.of main_call1_c_0 : StableHlo.TRef sig ⟨S_, .i32⟩) v : HloOp τ sig (Elt F)) = StableHlo.nullary main_call1_c_0 v := rfl
theorem op_eq_4 (f : (⟨S_, .i32⟩ : BufTy).Contents (Elt F) → (⟨S8192x8192, .i32⟩ : BufTy).Contents (Elt F)) : (StableHlo.TRef.unary (.of main_call1_c_0 : StableHlo.TRef sig ⟨S_, .i32⟩) (.of main_call1_v2 : StableHlo.TRef sig ⟨S8192x8192, .i32⟩) f : HloOp τ sig (Elt F)) = StableHlo.unary main_call1_c_0 main_call1_v2 f := rfl
theorem op_eq_5 (f : (⟨S8192x8192, .i32⟩ : BufTy).Contents (Elt F) → (⟨S8192x8192, .i32⟩ : BufTy).Contents (Elt F) → (⟨S8192x8192, .i32⟩ : BufTy).Contents (Elt F)) : (StableHlo.TRef.binary (.of main_v15 : StableHlo.TRef sig ⟨S8192x8192, .i32⟩) (.of main_call1_v2 : StableHlo.TRef sig ⟨S8192x8192, .i32⟩) (.of main_call1_v3 : StableHlo.TRef sig ⟨S8192x8192, .i32⟩) f : HloOp τ sig (Elt F)) = StableHlo.binary main_v15 main_call1_v2 main_call1_v3 f := rfl
theorem op_eq_6 (f : (⟨S8192x8192, .i1⟩ : BufTy).Contents (Elt F) → (⟨S8192x8192, .i32⟩ : BufTy).Contents (Elt F) → (⟨S8192x8192, .i32⟩ : BufTy).Contents (Elt F) → (⟨S8192x8192, .i32⟩ : BufTy).Contents (Elt F)) : (StableHlo.TRef.ternary (.of main_call1_v1 : StableHlo.TRef sig ⟨S8192x8192, .i1⟩) (.of main_call1_v3 : StableHlo.TRef sig ⟨S8192x8192, .i32⟩) (.of main_v15 : StableHlo.TRef sig ⟨S8192x8192, .i32⟩) (.of main_call1_v4 : StableHlo.TRef sig ⟨S8192x8192, .i32⟩) f : HloOp τ sig (Elt F)) = StableHlo.ternary main_call1_v1 main_call1_v3 main_v15 main_call1_v4 f := rfl
theorem op_eq_7 : (StableHlo.TRef.reshape (.of main_call1_v4 : StableHlo.TRef sig ⟨S8192x8192, .i32⟩) (.of main_call1_v5 : StableHlo.TRef sig ⟨S8192x8192x1, .i32⟩) rfl shapeCasts_S8192x8192_S8192x8192x1 : HloOp τ sig (Elt F)) = StableHlo.reshape main_call1_v4 main_call1_v5 rfl shapeCasts_S8192x8192_S8192x8192x1 := rfl
theorem op_eq_8 (v : (⟨S1, .i32⟩ : BufTy).Contents (Elt F)) : (StableHlo.TRef.nullary (.of main_call1_c_1 : StableHlo.TRef sig ⟨S1, .i32⟩) v : HloOp τ sig (Elt F)) = StableHlo.nullary main_call1_c_1 v := rfl
theorem op_eq_9 (v : (⟨S_, .i32⟩ : BufTy).Contents (Elt F)) : (StableHlo.TRef.nullary (.of main_call1_c_2 : StableHlo.TRef sig ⟨S_, .i32⟩) v : HloOp τ sig (Elt F)) = StableHlo.nullary main_call1_c_2 v := rfl
theorem op_eq_10 (f : (⟨S_, .i32⟩ : BufTy).Contents (Elt F) → (⟨S8192x8192x1, .i32⟩ : BufTy).Contents (Elt F)) : (StableHlo.TRef.unary (.of main_call1_c_2 : StableHlo.TRef sig ⟨S_, .i32⟩) (.of main_call1_v6 : StableHlo.TRef sig ⟨S8192x8192x1, .i32⟩) f : HloOp τ sig (Elt F)) = StableHlo.unary main_call1_c_2 main_call1_v6 f := rfl
theorem op_eq_11 (f : (⟨S8192x8192x1, .i32⟩ : BufTy).Contents (Elt F) → (⟨S8192x8192x1, .i32⟩ : BufTy).Contents (Elt F) → (⟨S8192x8192x1, .i1⟩ : BufTy).Contents (Elt F)) : (StableHlo.TRef.binary (.of main_call1_v5 : StableHlo.TRef sig ⟨S8192x8192x1, .i32⟩) (.of main_call1_v6 : StableHlo.TRef sig ⟨S8192x8192x1, .i32⟩) (.of main_call1_v7 : StableHlo.TRef sig ⟨S8192x8192x1, .i1⟩) f : HloOp τ sig (Elt F)) = StableHlo.binary main_call1_v5 main_call1_v6 main_call1_v7 f := rfl
theorem op_eq_12 (f : (⟨S1, .i32⟩ : BufTy).Contents (Elt F) → (⟨S1x1x1, .i32⟩ : BufTy).Contents (Elt F)) : (StableHlo.TRef.unary (.of main_call1_c_1 : StableHlo.TRef sig ⟨S1, .i32⟩) (.of main_call1_v8 : StableHlo.TRef sig ⟨S1x1x1, .i32⟩) f : HloOp τ sig (Elt F)) = StableHlo.unary main_call1_c_1 main_call1_v8 f := rfl
theorem op_eq_13 (f : (⟨S1x1x1, .i32⟩ : BufTy).Contents (Elt F) → (⟨S8192x8192x1, .i32⟩ : BufTy).Contents (Elt F)) : (StableHlo.TRef.unary (.of main_call1_v8 : StableHlo.TRef sig ⟨S1x1x1, .i32⟩) (.of main_call1_v9 : StableHlo.TRef sig ⟨S8192x8192x1, .i32⟩) f : HloOp τ sig (Elt F)) = StableHlo.unary main_call1_v8 main_call1_v9 f := rfl
theorem op_eq_14 (f : (⟨S8192x8192x1, .i32⟩ : BufTy).Contents (Elt F) → (⟨S8192x8192x1, .i32⟩ : BufTy).Contents (Elt F) → (⟨S8192x8192x1, .i1⟩ : BufTy).Contents (Elt F)) : (StableHlo.TRef.binary (.of main_call1_v5 : StableHlo.TRef sig ⟨S8192x8192x1, .i32⟩) (.of main_call1_v9 : StableHlo.TRef sig ⟨S8192x8192x1, .i32⟩) (.of main_call1_v10 : StableHlo.TRef sig ⟨S8192x8192x1, .i1⟩) f : HloOp τ sig (Elt F)) = StableHlo.binary main_call1_v5 main_call1_v9 main_call1_v10 f := rfl
theorem op_eq_15 (f : (⟨S8192x8192x1, .i1⟩ : BufTy).Contents (Elt F) → (⟨S8192x8192x1, .i1⟩ : BufTy).Contents (Elt F) → (⟨S8192x8192x1, .i1⟩ : BufTy).Contents (Elt F)) : (StableHlo.TRef.binary (.of main_call1_v7 : StableHlo.TRef sig ⟨S8192x8192x1, .i1⟩) (.of main_call1_v10 : StableHlo.TRef sig ⟨S8192x8192x1, .i1⟩) (.of main_call1_v11 : StableHlo.TRef sig ⟨S8192x8192x1, .i1⟩) f : HloOp τ sig (Elt F)) = StableHlo.binary main_call1_v7 main_call1_v10 main_call1_v11 f := rfl
theorem op_eq_16 (v : (⟨S_, .i1⟩ : BufTy).Contents (Elt F)) : (StableHlo.TRef.nullary (.of main_call1_c_3 : StableHlo.TRef sig ⟨S_, .i1⟩) v : HloOp τ sig (Elt F)) = StableHlo.nullary main_call1_c_3 v := rfl
theorem op_eq_17 (f : (⟨S8192x8192x1, .i1⟩ : BufTy).Contents (Elt F) → (⟨S_, .i1⟩ : BufTy).Contents (Elt F) → (⟨S8192x8192, .i1⟩ : BufTy).Contents (Elt F)) : (StableHlo.TRef.binary (.of main_call1_v11 : StableHlo.TRef sig ⟨S8192x8192x1, .i1⟩) (.of main_call1_c_3 : StableHlo.TRef sig ⟨S_, .i1⟩) (.of main_call1_v12 : StableHlo.TRef sig ⟨S8192x8192, .i1⟩) f : HloOp τ sig (Elt F)) = StableHlo.binary main_call1_v11 main_call1_c_3 main_call1_v12 f := rfl
theorem op_eq_18 (f : (⟨S8192x8192, .f32⟩ : BufTy).Contents (Elt F) → (⟨S8192x8192x1, .i32⟩ : BufTy).Contents (Elt F) → (⟨S8192x8192, .f32⟩ : BufTy).Contents (Elt F)) : (StableHlo.TRef.binary (.of main_v7 : StableHlo.TRef sig ⟨S8192x8192, .f32⟩) (.of main_call1_v5 : StableHlo.TRef sig ⟨S8192x8192x1, .i32⟩) (.of main_call1_v13 : StableHlo.TRef sig ⟨S8192x8192, .f32⟩) f : HloOp τ sig (Elt F)) = StableHlo.binary main_v7 main_call1_v5 main_call1_v13 f := rfl
theorem op_eq_19 (v : (⟨S_, .f32⟩ : BufTy).Contents (Elt F)) : (StableHlo.TRef.nullary (.of main_call1_cst : StableHlo.TRef sig ⟨S_, .f32⟩) v : HloOp τ sig (Elt F)) = StableHlo.nullary main_call1_cst v := rfl
theorem op_eq_20 (f : (⟨S_, .f32⟩ : BufTy).Contents (Elt F) → (⟨S8192x8192, .f32⟩ : BufTy).Contents (Elt F)) : (StableHlo.TRef.unary (.of main_call1_cst : StableHlo.TRef sig ⟨S_, .f32⟩) (.of main_call1_v14 : StableHlo.TRef sig ⟨S8192x8192, .f32⟩) f : HloOp τ sig (Elt F)) = StableHlo.unary main_call1_cst main_call1_v14 f := rfl
theorem op_eq_21 (f : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) : (StableHlo.TRef.ternary (.of main_call1_v12 : StableHlo.TRef sig ⟨S8192x8192, .i1⟩) (.of main_call1_v13 : StableHlo.TRef sig ⟨S8192x8192, .f32⟩) (.of main_call1_v14 : StableHlo.TRef sig ⟨S8192x8192, .f32⟩) (.of main_v16 : StableHlo.TRef sig ⟨S8192x8192, .f32⟩) f : HloOp τ sig (Elt F)) = StableHlo.ternary main_call1_v12 main_call1_v13 main_call1_v14 main_v16 f := rfl

theorem hostOps1_1_eq : (hostOps1_1 : List (HloOp τ sig (Elt F))) = gatherOps :=
  (congrArg₂ List.cons (op_eq_0 _) (congrArg₂ List.cons (op_eq_1 _) (congrArg₂ List.cons (op_eq_2 _) (congrArg₂ List.cons (op_eq_3 _) (congrArg₂ List.cons (op_eq_4 _) (congrArg₂ List.cons (op_eq_5 _) (congrArg₂ List.cons (op_eq_6 _) (congrArg₂ List.cons (op_eq_7) (congrArg₂ List.cons (op_eq_8 _) (congrArg₂ List.cons (op_eq_9 _) (congrArg₂ List.cons (op_eq_10 _) (congrArg₂ List.cons (op_eq_11 _) (congrArg₂ List.cons (op_eq_12 _) (congrArg₂ List.cons (op_eq_13 _) (congrArg₂ List.cons (op_eq_14 _) (congrArg₂ List.cons (op_eq_15 _) (congrArg₂ List.cons (op_eq_16 _) (congrArg₂ List.cons (op_eq_17 _) (congrArg₂ List.cons (op_eq_18 _) (congrArg₂ List.cons (op_eq_19 _) (congrArg₂ List.cons (op_eq_20 _) (congrArg₂ List.cons (op_eq_21 _) rfl))))))))))))))))))))))

end Cert.KernelIdeal.Hand

end
-- ==== Proof.KITail.lean ====
/-
  The kernel program's host stretches read as pure functions of buffer contents, at the exact instance: the buffer of
  x at the region's entry is the normalised rows of the stacked arguments, and the result buffer at the return is the
  tail function (gather, slices, row losses, mean) of the Gram matrix's buffer as the region left it. Each stretch
  is read by itself, from arbitrary contents, so that a value used several times stays one name.
-/
import proofs.«118001_j3702261809487_2_alg».proof.Proof.KIRun
import proofs.«118001_j3702261809487_2_alg».proof.Proof.KIStages
import proofs.«118001_j3702261809487_2_alg».proof.Proof.KIGatherOps

set_option maxRecDepth 65536

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The first stretch after the region builds the table of column numbers (row + column, masked to 13 bits) and
    leaves the Gram matrix's buffer alone. -/
theorem stretch1_idx (U : Valuation τ sig (Elt Ideal)) :
    StableHlo.after hostOps1 U (Proc.devRef .tc main_v15) = Cert.Sims.kIdx := by
  simp only [hostOps1]
  after_results_simp
  rfl
theorem stretch1_gram (U : Valuation τ sig (Elt Ideal)) :
    StableHlo.after hostOps1 U (Proc.devRef .tc main_v7) = U (Proc.devRef .tc main_v7) := by
  simp only [hostOps1]
  after_results_simp

/-- The second stretch (the gather along the columns) from contents holding that table: the gathered rows, every
    position in range. -/
theorem stretch2 (U : Valuation τ sig (Elt Ideal)) (hidx : U (Proc.devRef .tc main_v15) = Cert.Sims.kIdx) :
    StableHlo.after hostOps1_1 U (Proc.devRef .tc main_v16)
      = select Cert.Sims.kMask (Host.gather gather_S8192x8192_S8192x8192x1_S8192x8192_n_1_0_0_1_2_11 (U (Proc.devRef .tc main_v7)) Cert.Sims.kStart)
          (broadcastInDim S8192x8192 ![] bcast_S_S8192x8192 (constant (F := Ideal) S_ .f32 0x7FC00000#32)) := by
  rw [hostOps1_1_eq]
  simp only [gatherOps]
  after_results_simp
  rw [hidx]
  rfl

/-- The third stretch (transpose, slices, row losses, mean) from any contents. -/
theorem stretch3 (U : Valuation τ sig (Elt Ideal)) :
    StableHlo.after hostOps1_2 U (Proc.devRef .tc main_v48)
      = finalK (Cert.LossRows.lossK
          (posK (transpose S8192x8192 [1, 0] (U (Proc.devRef .tc main_v16)) transposes_S8192x8192_S8192x8192_1_0))
          (negK (transpose S8192x8192 [1, 0] (U (Proc.devRef .tc main_v16)) transposes_S8192x8192_S8192x8192_1_0))) := by
  simp only [hostOps1_2]
  after_results_simp
  rfl

/-- The three stretches after the region, from any contents `U`: the result buffer is the tail function of the Gram
    matrix's buffer. -/
theorem tail_of (U : Valuation τ sig (Elt Ideal)) :
    StableHlo.after hostOps1_2 (StableHlo.after hostOps1_1 (StableHlo.after hostOps1 U)) (Proc.devRef .tc main_v48)
      = tailK (U (Proc.devRef .tc main_v7)) := by
  rw [stretch3, stretch2 _ (stretch1_idx U), stretch1_gram]
  rfl

set_option maxHeartbeats 800000 in
/-- The three stretches before the region, from the launch memory: the buffer of x holds the normalised rows of the
    stacked arguments, in the matrix unit's input format. -/
theorem entry_x (c : Dev nD) :
    W1 m ρ c (Proc.devRef .tc main_v6)
      = xbf (Cert.Gram.xnorm (m ((c : Thread nD τ).loc main_arg0)) (m ((c : Thread nD τ).loc main_arg1))) := by
  show StableHlo.after hostOps0_2 (StableHlo.after hostOps0_1 (StableHlo.after hostOps0 (W0 m ρ c))) (Proc.devRef .tc main_v6) = _
  rw [← StableHlo.after_append, ← StableHlo.after_append]
  simp only [hostOps0, hostOps0_1, hostOps0_2, List.cons_append, List.nil_append]
  after_results_simp
  rfl

end Cert.KernelIdeal.Hand

end
-- ==== Proof.RefRunStages.lean ====
import proofs.«118001_j3702261809487_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The value of the run, stage by stage

Each definition is the composition of the pure functions of a stretch of the program's operations, in the
program's order; `result` composes them. -/

/-- The two argument blocks stacked along the rows: rows `0 … 4095` the first, `4096 … 8191` the second. -/
def stacked (a0 a1 : (⟨S4096x512, .f32⟩ : BufTy).Contents (Elt F)) : (⟨S8192x512, .f32⟩ : BufTy).Contents (Elt F) :=
  concatenate S8192x512 0 [⟨S4096x512, a0⟩, ⟨S4096x512, a1⟩] concatenates_S4096x512_S4096x512_S8192x512_d0

/-- The Euclidean norm of each row, as a column: the square root of the row's sum of squares from zero. -/
def rowNorm (x : (⟨S8192x512, .f32⟩ : BufTy).Contents (Elt F)) : (⟨S8192x1, .f32⟩ : BufTy).Contents (Elt F) :=
  Host.sqrt (broadcastInDim (s := S8192) S8192x1 ![0] bcast_S8192_S8192x1_0
    (Host.reduceAdd (mulf x x) (constant S_ .f32 0x00000000#32) reducesTo_S8192x512_S8192_d1 h_S_))

/-- Each row divided by its norm, the norm bounded below by the constant `1e-8`. -/
def normalize (x : (⟨S8192x512, .f32⟩ : BufTy).Contents (Elt F)) : (⟨S8192x512, .f32⟩ : BufTy).Contents (Elt F) :=
  Host.divf x (broadcastInDim (s := S8192x1) S8192x512 ![0, 1] bcast_S8192x1_S8192x512_0_1
    (maximumf (rowNorm x) (broadcastInDim (s := S_) S8192x1 ![] bcast_S_S8192x1 (constant S_ .f32 0x322BCC77#32))))

/-- The stacked arguments with every row normalized. -/
def xnorm (a0 a1 : (⟨S4096x512, .f32⟩ : BufTy).Contents (Elt F)) : (⟨S8192x512, .f32⟩ : BufTy).Contents (Elt F) :=
  normalize (stacked a0 a1)

/-- All pairwise inner products of the rows: the matrix times its transpose. -/
def gram (x : (⟨S8192x512, .f32⟩ : BufTy).Contents (Elt F)) : (⟨S8192x8192, .f32⟩ : BufTy).Contents (Elt F) :=
  Host.dotGeneral dot_S8192x512_S512x8192_S8192x8192_1_0_0_1_n_n none x
    (transpose S512x8192 [1, 0] x transposes_S8192x512_S512x8192_1_0)

/-- `0, 1, …, 8191`. -/
def iota : IVec S8192 32 := iotaInDim S8192 32 0

/-- The column number, as one row. -/
def colRow : IVec S1x8192 32 := broadcastInDim (s := S8192) S1x8192 ![1] bcast_S8192_S1x8192_1 iota

/-- Entry `(i, j)` is `j + i`. -/
def sumIdx : IVec S8192x8192 32 :=
  addi (broadcastInDim (s := S1x8192) S8192x8192 ![0, 1] bcast_S1x8192_S8192x8192_0_1 colRow)
    (broadcastInDim (s := S8192x1) S8192x8192 ![0, 1] bcast_S8192x1_S8192x8192_0_1
      (broadcastInDim (s := S8192) S8192x1 ![0] bcast_S8192_S8192x1_0 iota))

/-- The modulus as the program forms it: `8192`, which a zero would have had replaced by `1`. -/
def modulus : IVec S_ 32 :=
  select (cmpi .eq (id (constantI S_ 32 8192#32)) (constantI S_ 32 0#32)) (constantI S_ 32 1#32) (id (constantI S_ 32 8192#32))

/-- Zero at every entry. -/
def zeroB : IVec S8192x8192 32 := broadcastInDim (s := S_) S8192x8192 ![] bcast_S_S8192x8192 (constantI S_ 32 0#32)

/-- The truncated remainder of each entry by the modulus. -/
def rem0Of (s : IVec S8192x8192 32) : IVec S8192x8192 32 :=
  Host.remsi s (broadcastInDim (s := S_) S8192x8192 ![] bcast_S_S8192x8192 modulus)

/-- The remainder with the sign of the modulus `m`: where the truncated remainder `r` is nonzero and its sign
    differs from the modulus's, the modulus is added. -/
def remFixOf (r : IVec S8192x8192 32) (m : IVec S_ 32) : IVec S8192x8192 32 :=
  select (andi (cmpi .ne (cmpi .slt r zeroB)
      (broadcastInDim (s := S_) S8192x8192 ![] bcast_S_S8192x8192 (cmpi .slt m (constantI S_ 32 0#32)))) (cmpi .ne r zeroB))
    (addi r (broadcastInDim (s := S_) S8192x8192 ![] bcast_S_S8192x8192 m)) r

/-- A row of indices, the negative ones wrapped by `8192`. -/
def colWrapOf (c : IVec S1x8192 32) : IVec S1x8192 32 :=
  select (cmpi .slt c (broadcastInDim (s := S_) S1x8192 ![] bcast_S_S1x8192 (constantI S_ 32 0#32)))
    (addi c (broadcastInDim (s := S_) S1x8192 ![] bcast_S_S1x8192 (constantI S_ 32 8192#32))) c

/-- A table of indices, the negative ones wrapped by `8192`. -/
def remWrapOf (f : IVec S8192x8192 32) : IVec S8192x8192 32 :=
  select (cmpi .slt f zeroB) (addi f (broadcastInDim (s := S_) S8192x8192 ![] bcast_S_S8192x8192 (constantI S_ 32 8192#32))) f

/-- The first index component from the wrapped row: the same row at every `i`, with a trailing axis of one. -/
def idx0Of (cw : IVec S1x8192 32) : IVec S8192x8192x1 32 :=
  broadcastInDim (s := S8192x8192) S8192x8192x1 ![0, 1] bcast_S8192x8192_S8192x8192x1_0_1
    (broadcastInDim (s := S1x8192) S8192x8192 ![0, 1] bcast_S1x8192_S8192x8192_0_1 cw)

/-- The second index component from the sign-corrected remainder: wrapped, with a trailing axis of one. -/
def idx1Of (f : IVec S8192x8192 32) : IVec S8192x8192x1 32 :=
  broadcastInDim (s := S8192x8192) S8192x8192x1 ![0, 1] bcast_S8192x8192_S8192x8192x1_0_1 (remWrapOf f)

/-- The gather of a table `s` through the index pairs whose components are `i0` and `i1`. -/
def simsOf (s : (⟨S8192x8192, .f32⟩ : BufTy).Contents (Elt F)) (i0 i1 : IVec S8192x8192x1 32) : (⟨S8192x8192, .f32⟩ : BufTy).Contents (Elt F) :=
  Host.gather gather_S8192x8192_S8192x8192x2_S8192x8192_n_01_n_n_01_2_11 s
    (concatenate S8192x8192x2 2 [⟨S8192x8192x1, i0⟩, ⟨S8192x8192x1, i1⟩] concatenates_S8192x8192x1_S8192x8192x1_S8192x8192x2_d2)

/-- The truncated remainder of `j + i` by the modulus. -/
def rem0 : IVec S8192x8192 32 := rem0Of sumIdx
/-- `(j + i) mod 8192` with the sign of the modulus. -/
def remFix : IVec S8192x8192 32 := remFixOf rem0 modulus
/-- The first index component as a row: the column number, a negative one wrapped by `8192`. -/
def colWrap : IVec S1x8192 32 := colWrapOf colRow
/-- The second index component: `(j + i) mod 8192`, a negative one wrapped by `8192`. -/
def remWrap : IVec S8192x8192 32 := remWrapOf remFix

/-- The table of index pairs the gather reads: at `(i, j)` the pair `(j, (j + i) mod 8192)`. It depends on no argument. -/
def idxR : IVec S8192x8192x2 32 :=
  concatenate S8192x8192x2 2 [⟨S8192x8192x1, idx0Of colWrap⟩, ⟨S8192x8192x1, idx1Of remFix⟩]
    concatenates_S8192x8192x1_S8192x8192x1_S8192x8192x2_d2

/-- The similarities re-indexed: entry `(i, j)` is the similarity at the pair `idxR` holds there. -/
def sims (s : (⟨S8192x8192, .f32⟩ : BufTy).Contents (Elt F)) : (⟨S8192x8192, .f32⟩ : BufTy).Contents (Elt F) :=
  simsOf s (idx0Of colWrap) (idx1Of remFix)

theorem sims_eq (s : (⟨S8192x8192, .f32⟩ : BufTy).Contents (Elt F)) :
    sims s = Host.gather gather_S8192x8192_S8192x8192x2_S8192x8192_n_01_n_n_01_2_11 s idxR := rfl

/-- The positive similarities: row `4096` of the re-indexed table. -/
def pos (s : (⟨S8192x8192, .f32⟩ : BufTy).Contents (Elt F)) : (⟨S8192, .f32⟩ : BufTy).Contents (Elt F) :=
  shapeCast S8192 (extractStridedSlice S1x8192 ![4096, 0] s slices_S8192x8192_S1x8192_4096_0) shapeCasts_S1x8192_S8192

/-- Rows `1 … 4095` of the re-indexed table. -/
def negTop (s : (⟨S8192x8192, .f32⟩ : BufTy).Contents (Elt F)) : (⟨S4095x8192, .f32⟩ : BufTy).Contents (Elt F) :=
  extractStridedSlice S4095x8192 ![1, 0] s slices_S8192x8192_S4095x8192_1_0

/-- Rows `4097 … 8191` of the re-indexed table. -/
def negBot (s : (⟨S8192x8192, .f32⟩ : BufTy).Contents (Elt F)) : (⟨S4095x8192, .f32⟩ : BufTy).Contents (Elt F) :=
  extractStridedSlice S4095x8192 ![4097, 0] s slices_S8192x8192_S4095x8192_4097_0

/-- Two blocks of rows stacked, and read in row-major order as 8192 rows of 8190. -/
def negOf (t b : (⟨S4095x8192, .f32⟩ : BufTy).Contents (Elt F)) : (⟨S8192x8190, .f32⟩ : BufTy).Contents (Elt F) :=
  shapeCast S8192x8190
    (concatenate S8190x8192 0 [⟨S4095x8192, t⟩, ⟨S4095x8192, b⟩] concatenates_S4095x8192_S4095x8192_S8190x8192_d0)
    shapeCasts_S8190x8192_S8192x8190

/-- The negative similarities: every row of the re-indexed table but rows `0` and `4096`, as 8192 rows of 8190. -/
def neg (s : (⟨S8192x8192, .f32⟩ : BufTy).Contents (Elt F)) : (⟨S8192x8190, .f32⟩ : BufTy).Contents (Elt F) :=
  negOf (negTop s) (negBot s)

/-- A vector as a column. -/
def posCol (p : (⟨S8192, .f32⟩ : BufTy).Contents (Elt F)) : (⟨S8192x1, .f32⟩ : BufTy).Contents (Elt F) :=
  broadcastInDim (s := S8192) S8192x1 ![0] bcast_S8192_S8192x1_0 p

/-- Per row the positive followed by the negatives, divided by the temperature `0.5`. -/
def logitsOf (pc : (⟨S8192x1, .f32⟩ : BufTy).Contents (Elt F)) (n : (⟨S8192x8190, .f32⟩ : BufTy).Contents (Elt F)) : (⟨S8192x8191, .f32⟩ : BufTy).Contents (Elt F) :=
  Host.divf
    (concatenate S8192x8191 1 [⟨S8192x1, pc⟩, ⟨S8192x8190, n⟩] concatenates_S8192x1_S8192x8190_S8192x8191_d1)
    (broadcastInDim (s := S_) S8192x8191 ![] bcast_S_S8192x8191 (constant S_ .f32 0x3F000000#32))

/-- The logits. -/
def logits (p : (⟨S8192, .f32⟩ : BufTy).Contents (Elt F)) (n : (⟨S8192x8190, .f32⟩ : BufTy).Contents (Elt F)) : (⟨S8192x8191, .f32⟩ : BufTy).Contents (Elt F) :=
  logitsOf (posCol p) n

/-- Minus infinity. -/
def negInf : (⟨S_, .f32⟩ : BufTy).Contents (Elt F) := constant S_ .f32 0xFF800000#32

/-- The maximum of each row of `z`, folded from the initial value `c`. -/
def rowMaxRaw : (⟨S8192x8191, .f32⟩ : BufTy).Contents (Elt F) → (⟨S_, .f32⟩ : BufTy).Contents (Elt F) → (⟨S8192, .f32⟩ : BufTy).Contents (Elt F) :=
  fun x v => Host.reduce FloatOps.maximumf x v reducesTo_S8192x8191_S8192_d1 h_S_

/-- Each row of `z` minus the larger of minus infinity and `r`'s entry for the row. -/
def shiftedOf (z : (⟨S8192x8191, .f32⟩ : BufTy).Contents (Elt F)) (r : (⟨S8192, .f32⟩ : BufTy).Contents (Elt F)) : (⟨S8192x8191, .f32⟩ : BufTy).Contents (Elt F) :=
  subf z (broadcastInDim (s := S8192x1) S8192x8191 ![0, 1] bcast_S8192x1_S8192x8191_0_1
    (broadcastInDim (s := S8192) S8192x1 ![0] bcast_S8192_S8192x1_0
      (maximumf (broadcastInDim (s := S_) S8192 ![] bcast_S_S8192 (constant S_ .f32 0xFF800000#32)) r)))

/-- The maximum of each row, from minus infinity. -/
def rowMax (z : (⟨S8192x8191, .f32⟩ : BufTy).Contents (Elt F)) : (⟨S8192, .f32⟩ : BufTy).Contents (Elt F) := rowMaxRaw z negInf

/-- Each row minus its maximum. -/
def shifted (z : (⟨S8192x8191, .f32⟩ : BufTy).Contents (Elt F)) : (⟨S8192x8191, .f32⟩ : BufTy).Contents (Elt F) := shiftedOf z (rowMax z)

/-- A shifted row minus the logarithm of the sum of its exponentials. -/
def lsmOf (sh : (⟨S8192x8191, .f32⟩ : BufTy).Contents (Elt F)) : (⟨S8192x8191, .f32⟩ : BufTy).Contents (Elt F) :=
  subf sh (broadcastInDim (s := S8192x1) S8192x8191 ![0, 1] bcast_S8192x1_S8192x8191_0_1
    (Host.log (broadcastInDim (s := S8192) S8192x1 ![0] bcast_S8192_S8192x1_0
      (Host.reduceAdd (Host.exp sh) (constant S_ .f32 0x00000000#32) reducesTo_S8192x8191_S8192_d1 h_S_))))

/-- The row-wise log-softmax. -/
def logSoftmax (z : (⟨S8192x8191, .f32⟩ : BufTy).Contents (Elt F)) : (⟨S8192x8191, .f32⟩ : BufTy).Contents (Elt F) :=
  lsmOf (shifted z)

/-- Minus column `0`, as a vector. -/
def lossOf (l : (⟨S8192x8191, .f32⟩ : BufTy).Contents (Elt F)) : (⟨S8192, .f32⟩ : BufTy).Contents (Elt F) :=
  Host.negf (shapeCast S8192 (extractStridedSlice S8192x1 ![0, 0] l slices_S8192x8191_S8192x1_0_0) shapeCasts_S8192x1_S8192)

/-- The loss of each row: minus the log-softmax at the positive, column `0`. -/
def lossR (p : (⟨S8192, .f32⟩ : BufTy).Contents (Elt F)) (n : (⟨S8192x8190, .f32⟩ : BufTy).Contents (Elt F)) : (⟨S8192, .f32⟩ : BufTy).Contents (Elt F) :=
  lossOf (logSoftmax (logits p n))

/-- The mean of the row losses: their sum from zero, divided by `8192`. -/
def final (l : (⟨S8192, .f32⟩ : BufTy).Contents (Elt F)) : (⟨S_, .f32⟩ : BufTy).Contents (Elt F) :=
  Host.divf (Host.reduceAdd l (constant S_ .f32 0x00000000#32) reducesTo_S8192_S_d0 h_S_) (constant S_ .f32 0x46000000#32)

/-- The value the run leaves in the result buffer, as one function of the two argument arrays. -/
def result (a0 a1 : (⟨S4096x512, .f32⟩ : BufTy).Contents (Elt F)) : (⟨S_, .f32⟩ : BufTy).Contents (Elt F) :=
  final (lossR (pos (sims (gram (xnorm a0 a1)))) (neg (sims (gram (xnorm a0 a1)))))

end Cert.ReferenceIdeal.RefRun

end
-- ==== Proof.GramReal.lean ====
/-
  The Gram matrix of a matrix with real entries has real entries: each entry is a finite sum of products of reals.
-/
import proofs.«118001_j3702261809487_2_alg».proof.Proof.Gram
import proofs.«118001_j3702261809487_2_alg».proof.Proof.LibLogSumExp

noncomputable section

namespace Cert.Gram

open Idealize.ShloMosaic Idealize.ShloMosaic.ValueIdx

variable [Cert.ReferenceIdeal.Facts]

/-- Every entry of the Gram matrix of real rows is a real number. -/
theorem gram_real (x : FVec Ideal Cert.ReferenceIdeal.S8192x512 .f32) (hx : ∀ i, ∃ r : ℝ, x i = (r : EReal)) :
    ∀ i, ∃ r : ℝ, gramR x i = (r : EReal) := by
  intro i
  choose f hf using hx
  obtain ⟨a, b, rfl⟩ : ∃ a b : Fin 8192, i = ix2 a b := ⟨i 0, i 1, eq_ix2 i⟩
  rw [gramR_apply]
  refine ⟨∑ k : Fin 512, f (ix2 a k) * f (ix2 b k), ?_⟩
  rw [LogSumExp.coe_sum]
  exact Finset.sum_congr rfl fun k _ => by rw [hf, hf, EReal.coe_mul]

end Cert.Gram

end
-- ==== Proof.SimsR.lean ====
/-
  The reference's gather of the similarity matrix, as a function of the Gram matrix: the row numbers
  rows[a, b] = b and the column numbers cols[a, b] = (b + a) mod 8192 (jnp's remainder: the signed remainder, then
  its sign fix-up), each with its wrap of negative indices, stacked along a new last axis, and the gather of single
  elements at those (row, column) pairs. Read at (i, j) it is S[j, (i + j) mod 8192].
-/
import proofs.«118001_j3702261809487_2_alg».proof.ReferenceIdeal
import proofs.«118001_j3702261809487_2_alg».proof.Proof.LibGatherAt

noncomputable section

namespace Cert.Sims

open Idealize.ShloMosaic Idealize.ShloMosaic.ValueIdx
open Cert.ReferenceIdeal Cert.ReferenceIdeal.Facts₀ Cert.ReferenceIdeal.Facts

variable [Cert.ReferenceIdeal.Facts] {F : FTy → Type} [FloatOps F]

/-- The iota 0, 1, …, 8191. -/
def rIota : IVec S8192 32 := iotaInDim S8192 32 0

/-- The iota as one row: row[0, b] = b. -/
def rRow : IVec S1x8192 32 := broadcastInDim S1x8192 ![1] bcast_S8192_S1x8192_1 rIota

/-- The sum j[None, :] + j[:, None]: sum[a, b] = b + a. -/
def rSum : IVec S8192x8192 32 :=
  addi (broadcastInDim S8192x8192 ![0, 1] bcast_S1x8192_S8192x8192_0_1 rRow)
    (broadcastInDim S8192x8192 ![0, 1] bcast_S8192x1_S8192x8192_0_1 (broadcastInDim S8192x1 ![0] bcast_S8192_S8192x1_0 rIota))

/-- The divisor as jnp's remainder uses it: 8192, replaced by 1 were it 0. -/
def rDiv : IVec S_ 32 :=
  select (cmpi .eq (id (constantI S_ 32 8192#32)) (constantI S_ 32 0#32)) (constantI S_ 32 1#32) (id (constantI S_ 32 8192#32))

/-- The signed remainder of the sum by the divisor. -/
def rRem : IVec S8192x8192 32 := Host.remsi rSum (broadcastInDim S8192x8192 ![] bcast_S_S8192x8192 rDiv)

/-- jnp's remainder: the signed remainder, plus the divisor where it is not zero and its sign differs from the
    divisor's. -/
def rMod : IVec S8192x8192 32 :=
  select
    (andi
      (cmpi .ne (cmpi .slt rRem (broadcastInDim S8192x8192 ![] bcast_S_S8192x8192 (constantI S_ 32 0#32)))
        (broadcastInDim S8192x8192 ![] bcast_S_S8192x8192 (cmpi .slt rDiv (constantI S_ 32 0#32))))
      (cmpi .ne rRem (broadcastInDim S8192x8192 ![] bcast_S_S8192x8192 (constantI S_ 32 0#32))))
    (addi rRem (broadcastInDim S8192x8192 ![] bcast_S_S8192x8192 rDiv)) rRem

/-- The row numbers with negative entries wrapped by 8192. -/
def rRowWrapped : IVec S1x8192 32 :=
  select (cmpi .slt rRow (broadcastInDim S1x8192 ![] bcast_S_S1x8192 (constantI S_ 32 0#32)))
    (addi rRow (broadcastInDim S1x8192 ![] bcast_S_S1x8192 (constantI S_ 32 8192#32))) rRow

/-- The column numbers with negative entries wrapped by 8192. -/
def rColWrapped : IVec S8192x8192 32 :=
  select (cmpi .slt rMod (broadcastInDim S8192x8192 ![] bcast_S_S8192x8192 (constantI S_ 32 0#32)))
    (addi rMod (broadcastInDim S8192x8192 ![] bcast_S_S8192x8192 (constantI S_ 32 8192#32))) rMod

/-- The start indices of the gather: (row, column) pairs along a new last axis. -/
def rStart : IVec S8192x8192x2 32 :=
  concatenate S8192x8192x2 2
    [⟨S8192x8192x1, broadcastInDim S8192x8192x1 ![0, 1] bcast_S8192x8192_S8192x8192x1_0_1
        (broadcastInDim S8192x8192 ![0, 1] bcast_S1x8192_S8192x8192_0_1 rRowWrapped)⟩,
     ⟨S8192x8192x1, broadcastInDim S8192x8192x1 ![0, 1] bcast_S8192x8192_S8192x8192x1_0_1 rColWrapped⟩]
    concatenates_S8192x8192x1_S8192x8192x1_S8192x8192x2_d2

/-- The reference's similarity matrix as a function of the Gram matrix `s`: the gather at the (row, column) pairs. -/
def simsR (s : (⟨S8192x8192, .f32⟩ : BufTy).Contents (Elt F)) : (⟨S8192x8192, .f32⟩ : BufTy).Contents (Elt F) :=
  Host.gather gather_S8192x8192_S8192x8192x2_S8192x8192_n_01_n_n_01_2_11 s rStart

/-- The divisor is 8192. -/
theorem rDiv_apply (k : S_.Idx) : rDiv k = 8192#32 := by
  show Scalar.select (IntOp.cmpi .eq 8192#32 0#32) 1#32 8192#32 = 8192#32
  decide

/-- The signed remainder at (a, b) is the word holding (b + a) mod 8192. -/
theorem rRem_apply (a b : Fin 8192) : rRem (ix2 a b) = BitVec.ofNat 32 ((b.val + a.val) % 8192) := by
  have h : rRem (ix2 a b) = IntOp.remsi .host (IntOp.addi (BitVec.ofNat 32 b.val) (BitVec.ofNat 32 a.val)) (rDiv ix0) := rfl
  rw [h, rDiv_apply, remsi_small _ _ _ b.isLt a.isLt]

/-- The fix-up changes nothing: the remainder is not negative, and neither is the divisor. -/
theorem rMod_apply (a b : Fin 8192) : rMod (ix2 a b) = BitVec.ofNat 32 ((b.val + a.val) % 8192) := by
  have h : rMod (ix2 a b) = Scalar.select
      (IntOp.andi (IntOp.cmpi .ne (IntOp.cmpi .slt (rRem (ix2 a b)) 0#32) (IntOp.cmpi .slt (rDiv ix0) 0#32))
        (IntOp.cmpi .ne (rRem (ix2 a b)) 0#32))
      (IntOp.addi (rRem (ix2 a b)) (rDiv ix0)) (rRem (ix2 a b)) := rfl
  rw [h, rDiv_apply, rRem_apply, slt_zero_small _ (by omega)]
  have h1 : IntOp.cmpi .slt 8192#32 0#32 = 0#1 := by decide
  have h2 : IntOp.cmpi .ne 0#1 0#1 = 0#1 := by decide
  have h3 : ∀ y : BitVec 1, IntOp.andi 0#1 y = 0#1 := fun y => BitVec.zero_and
  rw [h1, h2, h3, select_zero]

/-- The wrap leaves the column number alone. -/
theorem rColWrapped_apply (a b : Fin 8192) : rColWrapped (ix2 a b) = BitVec.ofNat 32 ((b.val + a.val) % 8192) := by
  have h : rColWrapped (ix2 a b) = Scalar.select (IntOp.cmpi .slt (rMod (ix2 a b)) 0#32)
      (IntOp.addi (rMod (ix2 a b)) 8192#32) (rMod (ix2 a b)) := rfl
  rw [h, rMod_apply, slt_zero_small _ (by omega), select_zero]

/-- The wrap leaves the row number alone: at (0, b) it is the word holding b. -/
theorem rRowWrapped_apply (u : Fin 1) (b : Fin 8192) : rRowWrapped (ix2 u b) = BitVec.ofNat 32 b.val := by
  have h : rRowWrapped (ix2 u b) = Scalar.select (IntOp.cmpi .slt (BitVec.ofNat 32 b.val) 0#32)
      (IntOp.addi (BitVec.ofNat 32 b.val) 8192#32) (BitVec.ofNat 32 b.val) := rfl
  rw [h, slt_zero_small _ (by omega), select_zero]

/-- The start index at (a, b): its row component is b … -/
theorem rStart_apply_row (a b : Fin 8192) : rStart (ix3 a b (0 : Fin 2)) = BitVec.ofNat 32 b.val := by
  unfold rStart
  rw [concatenate_pair_apply_left (t := S8192x8192x2) (s₁ := S8192x8192x1) (s₂ := S8192x8192x1) (2 : Fin 3) _ _ _
    (ix3 a b (0 : Fin 2)) rfl (ix3 a b (0 : Fin 1))
    (fun c => match c with | ⟨0, _⟩ => rfl | ⟨1, _⟩ => rfl | ⟨2, _⟩ => rfl)]
  rw [broadcastInDim_apply _ _ _ (ix3 a b (0 : Fin 1)) (ix2 a b)
    (fun c => match c with | ⟨0, _⟩ => rfl | ⟨1, _⟩ => rfl)]
  rw [broadcastInDim_apply _ _ _ (ix2 a b) (ix2 (0 : Fin 1) b)
    (fun c => match c with | ⟨0, _⟩ => rfl | ⟨1, _⟩ => rfl)]
  exact rRowWrapped_apply 0 b

/-- … and its column component is (b + a) mod 8192. -/
theorem rStart_apply_col (a b : Fin 8192) : rStart (ix3 a b (1 : Fin 2)) = BitVec.ofNat 32 ((b.val + a.val) % 8192) := by
  unfold rStart
  rw [concatenate_pair_apply_right (t := S8192x8192x2) (s₁ := S8192x8192x1) (s₂ := S8192x8192x1) (2 : Fin 3) _ _ _
    (ix3 a b (1 : Fin 2)) rfl rfl (ix3 a b (0 : Fin 1))
    (fun c hc => match c, hc with | ⟨0, _⟩, _ => rfl | ⟨1, _⟩, _ => rfl | ⟨2, _⟩, hc => absurd rfl hc) rfl]
  rw [broadcastInDim_apply _ _ _ (ix3 a b (0 : Fin 1)) (ix2 a b)
    (fun c => match c with | ⟨0, _⟩ => rfl | ⟨1, _⟩ => rfl)]
  exact rColWrapped_apply a b

/-- THE REFERENCE'S GATHER AT (i, j): the Gram matrix at row j and column (i + j) mod 8192. -/
theorem simsR_apply (s : (⟨S8192x8192, .f32⟩ : BufTy).Contents (Elt F)) (i j : Fin 8192) :
    simsR s (ix2 i j) = s (ix2 j ⟨(i.val + j.val) % 8192, Nat.mod_lt _ (by norm_num)⟩) := by
  unfold simsR
  have hg : gather_S8192x8192_S8192x8192x2_S8192x8192_n_01_n_n_01_2_11
      = pairDims 8192 8192 8192 8192 gather_S8192x8192_S8192x8192x2_S8192x8192_n_01_n_n_01_2_11_wf := rfl
  rw [hg]
  refine (gather_pair_apply (by norm_num) (by norm_num) _ s rStart i j).trans ?_
  refine congrArg s ?_
  have h0 : min (rStart (ix3 i j (0 : Fin 2))).toInt.toNat (8192 - 1) = j.val := by
    rw [rStart_apply_row, clamp_small _ j.isLt]
  have h1 : min (rStart (ix3 i j (1 : Fin 2))).toInt.toNat (8192 - 1) = (i.val + j.val) % 8192 := by
    rw [rStart_apply_col, clamp_small _ (Nat.mod_lt _ (by norm_num)), Nat.add_comm]
  funext c
  match c with
  | ⟨0, _⟩ => exact Fin.ext h0
  | ⟨1, _⟩ => exact Fin.ext h1

/-- Every entry of the reference's gather is an entry of the Gram matrix. -/
theorem simsR_mem (s : (⟨S8192x8192, .f32⟩ : BufTy).Contents (Elt F)) (k : S8192x8192.Idx) : ∃ k', simsR s k = s k' := by
  rw [eq_ix2 k]; exact ⟨_, simsR_apply s (k 0) (k 1)⟩

end Cert.Sims
-- ==== Proof.Sims.lean ====
/-
  The kernel's and the reference's gathers of the similarity matrix are one function of the Gram matrix: read at
  (i, j), each is S[j, (i + j) mod 8192].
-/
import proofs.«118001_j3702261809487_2_alg».proof.Proof.SimsK
import proofs.«118001_j3702261809487_2_alg».proof.Proof.SimsR

noncomputable section

namespace Cert.Sims

open Idealize.ShloMosaic Idealize.ShloMosaic.ValueIdx

variable [Cert.KernelIdeal.Facts] [Cert.ReferenceIdeal.Facts] {F : FTy → Type} [FloatOps F]

/-- The two gathers agree on every Gram matrix. -/
theorem sims_eq (s : (⟨Cert.KernelIdeal.S8192x8192, .f32⟩ : BufTy).Contents (Elt F)) : simsK s = simsR s := by
  funext k
  obtain ⟨i, j, rfl⟩ : ∃ (i j : Fin 8192), k = ix2 i j := ⟨k 0, k 1, eq_ix2 k⟩
  rw [simsK_apply, simsR_apply]

end Cert.Sims
-- ==== Proof.Bridge.lean ====
/-
  The two programs' values joined. After the Gram matrix S of the normalised rows, both programs gather
  sims[i, j] = S[j, (i + j) mod 8192], take the positives (row 4096) and the negatives (the other rows but row 0),
  form the per-row losses and average them. The stages of the two runs, written down separately from the two
  texts, are the same functions; the two gathers agree on every S; and on real positives and negatives the two
  per-row losses agree. Hence the kernel's tail applied to the Gram matrix is the reference's result.
-/
import proofs.«118001_j3702261809487_2_alg».proof.Proof.Gen.KernelIdeal
import proofs.«118001_j3702261809487_2_alg».proof.Proof.Gen.ReferenceIdeal
import proofs.«118001_j3702261809487_2_alg».proof.Proof.RefRunStages
import proofs.«118001_j3702261809487_2_alg».proof.Proof.KIStages
import proofs.«118001_j3702261809487_2_alg».proof.Proof.LossRowsDefs
import proofs.«118001_j3702261809487_2_alg».proof.Proof.Gram
import proofs.«118001_j3702261809487_2_alg».proof.Proof.Norm
import proofs.«118001_j3702261809487_2_alg».proof.Proof.GramReal
import proofs.«118001_j3702261809487_2_alg».proof.Proof.Sims

noncomputable section

namespace Cert.Bridge

open Idealize.ShloMosaic Idealize.ShloMosaic.ValueIdx

/-! ## The stages of the two runs are the same functions -/

set_option maxHeartbeats 400000 in
/-- The reference run's gather is the gather read above. -/
theorem sims_rfl (s : FVec Ideal Cert.ReferenceIdeal.S8192x8192 .f32) :
    Cert.ReferenceIdeal.RefRun.sims (F := Ideal) s = Cert.Sims.simsR s := rfl

set_option maxHeartbeats 400000 in
/-- The reference run's Gram matrix. -/
theorem gram_rfl (x : FVec Ideal Cert.ReferenceIdeal.S8192x512 .f32) :
    Cert.ReferenceIdeal.RefRun.gram (F := Ideal) x = Cert.Gram.gramR x := rfl

set_option maxHeartbeats 400000 in
/-- The reference run's normalised rows. -/
theorem xnorm_rfl (a0 a1 : FVec Ideal Cert.KernelIdeal.S4096x512 .f32) :
    Cert.ReferenceIdeal.RefRun.xnorm (F := Ideal) a0 a1 = Cert.Gram.xnorm a0 a1 := rfl

set_option maxHeartbeats 400000 in
/-- The positives. -/
theorem pos_rfl (s : FVec Ideal Cert.ReferenceIdeal.S8192x8192 .f32) :
    Cert.ReferenceIdeal.RefRun.pos (F := Ideal) s = Cert.KernelIdeal.Hand.posK s := rfl

set_option maxHeartbeats 400000 in
/-- The negatives. -/
theorem neg_rfl (s : FVec Ideal Cert.ReferenceIdeal.S8192x8192 .f32) :
    Cert.ReferenceIdeal.RefRun.neg (F := Ideal) s = Cert.KernelIdeal.Hand.negK s := rfl

set_option maxHeartbeats 400000 in
/-- The mean of the row losses. -/
theorem final_rfl (l : FVec Ideal Cert.ReferenceIdeal.S8192 .f32) :
    Cert.ReferenceIdeal.RefRun.final (F := Ideal) l = Cert.KernelIdeal.Hand.finalK l := rfl

set_option maxHeartbeats 400000 in
/-- The reference's per-row loss. -/
theorem lossR_rfl (p : FVec Ideal Cert.ReferenceIdeal.S8192 .f32) (n : FVec Ideal Cert.ReferenceIdeal.S8192x8190 .f32) :
    Cert.ReferenceIdeal.RefRun.lossR (F := Ideal) p n = Cert.LossRows.lossR p n := rfl

/-! ## The gather of a real matrix is real -/

/-- Every entry of the gather is an entry of the matrix, so real when the matrix is. -/
theorem sims_real (s : FVec Ideal Cert.ReferenceIdeal.S8192x8192 .f32) (hs : ∀ i, ∃ r : ℝ, s i = (r : EReal)) :
    ∀ i, ∃ r : ℝ, Cert.Sims.simsR (F := Ideal) s i = (r : EReal) := fun i => by
  obtain ⟨k, hk⟩ := Cert.Sims.simsR_mem (F := Ideal) s i
  rw [hk]; exact hs k

/-! ## The value -/

/-- The kernel's tail on the Gram matrix of the normalised rows is the reference's result, given that the two
    per-row losses agree on real positives and negatives and that the positives and negatives of a real matrix are
    real. -/
theorem value_eq
    (hloss : ∀ (p : FVec Ideal Cert.KernelIdeal.S8192 .f32) (n : FVec Ideal Cert.KernelIdeal.S8192x8190 .f32),
      (∀ i, ∃ r : ℝ, p i = (r : EReal)) → (∀ i, ∃ r : ℝ, n i = (r : EReal)) →
      Cert.LossRows.lossK p n = Cert.LossRows.lossR p n)
    (hpos : ∀ s : FVec Ideal Cert.ReferenceIdeal.S8192x8192 .f32, (∀ i, ∃ r : ℝ, s i = (r : EReal)) →
      ∀ i, ∃ r : ℝ, Cert.ReferenceIdeal.RefRun.pos (F := Ideal) s i = (r : EReal))
    (hneg : ∀ s : FVec Ideal Cert.ReferenceIdeal.S8192x8192 .f32, (∀ i, ∃ r : ℝ, s i = (r : EReal)) →
      ∀ i, ∃ r : ℝ, Cert.ReferenceIdeal.RefRun.neg (F := Ideal) s i = (r : EReal))
    (a0 a1 : FVec Ideal Cert.KernelIdeal.S4096x512 .f32)
    (h0 : ∀ i, ∃ r : ℝ, a0 i = (r : EReal)) (h1 : ∀ i, ∃ r : ℝ, a1 i = (r : EReal)) :
    Cert.KernelIdeal.Hand.tailK (Cert.Gram.gramR (Cert.Gram.xnorm a0 a1))
      = Cert.ReferenceIdeal.RefRun.result (F := Ideal) a0 a1 := by
  have hS : ∀ i, ∃ r : ℝ, Cert.Gram.gramR (Cert.Gram.xnorm a0 a1) i = (r : EReal) :=
    Cert.Gram.gram_real (Cert.Gram.xnorm a0 a1) (Cert.Gram.xnorm_real a0 a1 h0 h1)
  have hR : Cert.ReferenceIdeal.RefRun.result (F := Ideal) a0 a1
      = Cert.KernelIdeal.Hand.finalK (Cert.LossRows.lossR
          (Cert.KernelIdeal.Hand.posK (Cert.Sims.simsR (Cert.Gram.gramR (Cert.Gram.xnorm a0 a1))))
          (Cert.KernelIdeal.Hand.negK (Cert.Sims.simsR (Cert.Gram.gramR (Cert.Gram.xnorm a0 a1))))) := by
    unfold Cert.ReferenceIdeal.RefRun.result
    rw [xnorm_rfl, gram_rfl, sims_rfl, pos_rfl, neg_rfl, lossR_rfl, final_rfl]
  rw [hR]
  generalize Cert.Gram.gramR (Cert.Gram.xnorm a0 a1) = S at hS ⊢
  unfold Cert.KernelIdeal.Hand.tailK
  rw [Cert.Sims.sims_eq (F := Ideal) S]
  have hsr := sims_real S hS
  have hp : ∀ i, ∃ r : ℝ, Cert.KernelIdeal.Hand.posK (Cert.Sims.simsR (F := Ideal) S) i = (r : EReal) :=
    hpos (Cert.Sims.simsR (F := Ideal) S) hsr
  have hn : ∀ i, ∃ r : ℝ, Cert.KernelIdeal.Hand.negK (Cert.Sims.simsR (F := Ideal) S) i = (r : EReal) :=
    hneg (Cert.Sims.simsR (F := Ideal) S) hsr
  exact congrArg Cert.KernelIdeal.Hand.finalK (hloss _ _ hp hn)

end Cert.Bridge
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.LibRowRead.lean ====
import proofs.«118001_j3702261809487_2_alg».proof.Proof.LibSoftmaxRow
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

/-!
# Host operations on a matrix, read at a row

For an `[a, n]` array and a row `r`, each lemma reads one host operation at an index of row `r`:

* a vector `[a]` broadcast to a column `[a, 1]` (`dims = [0]`) and a column broadcast over the rows' entries
  (`[a, 1] → [a, b]`, `dims = [0, 1]`);
* the reduction over the last axis with a maximum body, as the fold of `max` over the row from the initial value,
  and with an add body, as the initial value plus the sum over the row;
* a column `[a, 1]` put in front of an `[a, n]` array along the last axis: column `0` reads the column,
  column `k + 1` reads entry `k`;
* the slice of column `0` and the cast of a column `[a, 1]` back to a vector `[a]`;
* the f32 word of one half;
* the host's pointwise exponential, logarithms, negation and absolute value at an index, and a float compared
  unequal with itself (never, at the extended reals).
-/

noncomputable section

namespace Cert.LibRowRead

open Idealize.ShloMosaic Idealize.ShloMosaic.ValueIdx

/-- A vector `[a]` broadcast to the column `[a, 1]` reads, at `(r, u)`, the vector at `r`. -/
theorem bcastCol_apply {α : Type} {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A column `[a, 1]` broadcast to `[a, b]` reads, at `(r, c)`, the column's entry of row `r`. -/
theorem bcastRow_apply {α : Type} {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ => exact (if_pos rfl).symm

/-- The host's reduce with a maximum body over the last axis of an `[a, n]` array, at row `r`: the fold of `max`
    over the row from the initial value. -/
theorem hostReduce_max_row2 {a n : ℕ} {u : Shape} (x : (⟨2, ![a, n]⟩ : Shape).Idx → Ideal .f32) (init : u.Idx → Ideal .f32)
    (h' : (⟨2, ![a, n]⟩ : Shape).ReducesTo [1] (⟨1, ![a]⟩ : Shape)) (hu : 0 < u.numel) (r : Fin a) :
    Host.reduce FloatOps.maximumf x init h' hu (ix1 r)
      = (Finset.univ : Finset (Fin n)).fold max (init (Shape.Idx.first hu)) fun k : Fin n => x (ix2 r k) := by
  have h : (⟨2, ![a, n]⟩ : Shape).Reduces [1] (⟨1, ![a]⟩ : Shape) := ⟨h'.1, Nat.one_pos, h'.2⟩
  rw [Host.reduce_eq_fold_single FloatOps.maximumf x init h' h hu]
  have hf : (x ∘ h.lift (ix1 r)) = fun k : Fin n => x (ix2 r k) :=
    funext fun k => congrArg x (Cert.LibSoftmaxRow.lift_row2 h r k)
  exact congrArg (fun f => Finset.fold max (init (Shape.Idx.first hu)) f (Finset.univ : Finset (Fin n))) hf

/-- The host's reduce with an add body over the last axis of an `[a, n]` array, at row `r`: the initial value plus
    the sum over the row. -/
theorem hostReduceAdd_row2 {a n : ℕ} {u : Shape} (x : FVec Ideal ⟨2, ![a, n]⟩ .f32) (init : u.Idx → Ideal .f32)
    (h' : (⟨2, ![a, n]⟩ : Shape).ReducesTo [1] (⟨1, ![a]⟩ : Shape)) (hu : 0 < u.numel) (r : Fin a) :
    Host.reduceAdd x init h' hu (ix1 r) = init (Shape.Idx.first hu) + ∑ k : Fin n, x (ix2 r k) := by
  have h : (⟨2, ![a, n]⟩ : Shape).Reduces [1] (⟨1, ![a]⟩ : Shape) := ⟨h'.1, Nat.one_pos, h'.2⟩
  rw [hostReduceAdd_apply, Ideal.hostReduceAdd_single h' h]
  congr 1
  exact Finset.sum_congr rfl fun k _ => congrArg x (Cert.LibSoftmaxRow.lift_row2 h r k)

/-- A column in front of an `[a, n]` array: column `0` of the concatenation reads the column. -/
theorem concat_col_zero {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (c : Fin m) (hc : c.val = 0) :
    concatenate ⟨2, ![a, m]⟩ 1 [⟨⟨2, ![a, 1]⟩, x₁⟩, ⟨⟨2, ![a, n]⟩, x₂⟩] h (ix2 r c) = x₁ (ix2 r (0 : Fin 1)) := by
  refine concatenate_pair_apply_left 1 x₁ x₂ h (ix2 r c) rfl (ix2 r (0 : Fin 1)) fun b => ?_
  match b with
  | ⟨0, _⟩ => rfl
  | ⟨1, _⟩ => exact hc.symm

/-- A column in front of an `[a, n]` array: column `k + 1` of the concatenation reads the array's column `k`. -/
theorem concat_col_succ {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (k : Fin n) (c : Fin m)
    (hc : c.val = k.val + 1) :
    concatenate ⟨2, ![a, m]⟩ 1 [⟨⟨2, ![a, 1]⟩, x₁⟩, ⟨⟨2, ![a, n]⟩, x₂⟩] h (ix2 r c) = x₂ (ix2 r k) := by
  refine concatenate_pair_apply_right 1 x₁ x₂ h (ix2 r c) rfl rfl (ix2 r k) (fun b hb => ?_) hc.symm
  match b, hb with
  | ⟨0, _⟩, _ => rfl
  | ⟨1, _⟩, hb => exact absurd rfl hb

/-- Column `0` of an `[a, m]` array, sliced out as a column `[a, 1]`. -/
theorem slice_col0_apply {α : Type} {a m : ℕ} (x : (⟨2, ![a, m]⟩ : Shape).Idx → α)
    (h : (⟨2, ![a, m]⟩ : Shape).Slices ![0, 0] ⟨2, ![a, 1]⟩) (r : Fin a) (u : Fin 1) (c : Fin m) (hc : c.val = 0) :
    extractStridedSlice ⟨2, ![a, 1]⟩ ![0, 0] x h (ix2 r u) = x (ix2 r c) := by
  refine extractStridedSlice_apply _ x h (ix2 r u) (ix2 r c) fun ax => ?_
  match ax with
  | ⟨0, _⟩ => show r.val = 0 + r.val; omega
  | ⟨1, _⟩ => show c.val = 0 + u.val; omega

/-- A column `[a, 1]` cast to the vector `[a]` reads, at `r`, the column's entry of row `r`. -/
theorem castCol_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) := by
  refine shapeCast_apply x h (ix1 r) (ix2 r (0 : Fin 1)) ?_
  rw [Shape.rowMajor_val_two, Shape.rowMajor_val_one]
  show r.val * 1 + 0 = r.val
  omega

/-- The f32 word `0x3F000000`: exponent field 126, significand field 0, so 2²³ · 2^(126 − 150) = 1/2. -/
theorem ofBits_half : Ideal.ofBits .f32 0x3F000000#32 = (((1 : ℝ) / 2 : ℝ) : EReal) := by
  simp [Ideal.ofBits, Ideal.ieee, -EReal.coe_mul]; norm_num

/-- A sum over `Fin (n + 1)` split into its first term and the sum of the rest, the index type given by an equation. -/
theorem sum_head_tail {M : Type} [AddCommMonoid M] {n m : ℕ} (hm : m = n + 1) (f : Fin m → M) :
    ∑ c : Fin m, f c = f ⟨0, by omega⟩ + ∑ k : Fin n, f ⟨k.val + 1, by omega⟩ := by
  subst hm
  exact Fin.sum_univ_succ f

/-! ### Pointwise host operations at an index -/

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

theorem hostLog1p_apply {s : Shape} {φ : FTy} (x : FVec Ideal s φ) (i : s.Idx) : Host.log1p x i = Ideal.log1p (x i) := rfl

theorem hostNegf_apply {s : Shape} {φ : FTy} (x : FVec Ideal s φ) (i : s.Idx) : Host.negf x i = -(x i) := rfl

theorem hostAbsf_apply {s : Shape} {φ : FTy} (x : FVec Ideal s φ) (i : s.Idx) : Host.absf x i = max (x i) (-(x i)) := rfl

/-- No extended real differs from itself: the comparison `d ≠ d` is the zero bit. -/
theorem cmpf_une_self_apply {s : Shape} {φ : FTy} (d : FVec Ideal s φ) (i : s.Idx) : cmpf .une d d i = 0#1 := by
  show Ideal.cmp .une (d i) (d i) = 0#1
  simp [Ideal.cmp]

end Cert.LibRowRead

end
-- ==== Proof.LossRows.lean ====
import proofs.«118001_j3702261809487_2_alg».proof.Proof.LossRowsDefs
import proofs.«118001_j3702261809487_2_alg».proof.Proof.LibLogSumExp
import proofs.«118001_j3702261809487_2_alg».proof.Proof.LibSoftmaxRow
import proofs.«118001_j3702261809487_2_alg».proof.Proof.LibRowRead
import Idealize.ShloMosaic.PureOps.Ideal.Laws
import Idealize.ShloMosaic.Lib.ValueIdx
import Idealize.ShloMosaic.Lib.IdealHost
import Idealize.ShloMosaic.Lib.Pipeline.Value

/-!
# The two per-row losses are one function on real logits

For real positive logits `pos r = p` and real negative logits `neg (r, k) = n k`, both per-row losses at row `r`
are the real number `log (exp (p / ½) + Σ_k exp (n k / ½)) - p / ½`.

Each side is read at row `r` operation by operation (the layout operations through their read-at-an-index
lemmas, the reductions as a fold of `max` from `⊥` and as `0 + Σ`); the row maxima are reals because the row is
nonempty and real; then the log-sum-exp identities for real inputs close each side, for whatever the maxima are.
-/

noncomputable section

namespace Cert.LossRows

open Idealize.ShloMosaic Idealize.ShloMosaic.ValueIdx Cert.LibRowRead

/-- The scaled value of a real logit: the quotient by one half. -/
abbrev sc (x : ℝ) : ℝ := x / (1 / 2)

theorem half_ne_zero : ((1 : ℝ) / 2) ≠ 0 := by norm_num

section Kernel
open Cert.KernelIdeal Cert.KernelIdeal.Facts₀
variable [Cert.KernelIdeal.Facts]

theorem kP_row (pos : FVec Ideal S8192 .f32) (r : Fin 8192) (p : ℝ) (hp : pos (ix1 r) = (p : EReal)) :
    kP pos (ix1 r) = ((sc p : ℝ) : EReal) := by
  unfold kP
  rw [hostDivf_apply, broadcastInDim_scalar_apply, constant_apply, ofBits_half, hp, LogSumExp.div_coe p half_ne_zero]

theorem kN_row (neg : FVec Ideal S8192x8190 .f32) (r : Fin 8192) (n : Fin 8190 → ℝ)
    (hn : ∀ k, neg (ix2 r k) = (n k : EReal)) (k : Fin 8190) :
    kN neg (ix2 r k) = ((sc (n k) : ℝ) : EReal) := by
  unfold kN
  rw [hostDivf_apply, broadcastInDim_scalar_apply, constant_apply, ofBits_half, hn, LogSumExp.div_coe (n k) half_ne_zero]

theorem kM_row (neg : FVec Ideal S8192x8190 .f32) (r : Fin 8192) (n : Fin 8190 → ℝ)
    (hn : ∀ k, neg (ix2 r k) = (n k : EReal)) :
    ∃ m : ℝ, kM neg (ix1 r) = (m : EReal) := by
  obtain ⟨m, hm⟩ := LogSumExp.fold_max_real (ι := Fin 8190) fun k => sc (n k)
  refine ⟨m, ?_⟩
  unfold kM
  rw [hostReduce_max_row2, constant_apply, Cert.LibSoftmaxRow.ofBits_negInf, ← hm]
  exact congrArg (fun f => Finset.fold max (⊥ : EReal) f (Finset.univ : Finset (Fin 8190))) (funext fun k => kN_row neg r n hn k)

theorem kE_row (neg : FVec Ideal S8192x8190 .f32) (r : Fin 8192) (n : Fin 8190 → ℝ)
    (hn : ∀ k, neg (ix2 r k) = (n k : EReal)) (k : Fin 8190) :
    kE neg (ix2 r k) = Ideal.exp (((sc (n k) : ℝ) : EReal) - kM neg (ix1 r)) := by
  unfold kE
  rw [hostExp_apply, subf_apply, bcastRow_apply, bcastCol_apply, kN_row neg r n hn k]

theorem kL_row (neg : FVec Ideal S8192x8190 .f32) (r : Fin 8192) (n : Fin 8190 → ℝ)
    (hn : ∀ k, neg (ix2 r k) = (n k : EReal)) :
    kL neg (ix1 r)
      = kM neg (ix1 r) + Ideal.log (0 + ∑ k : Fin 8190, Ideal.exp (((sc (n k) : ℝ) : EReal) - kM neg (ix1 r))) := by
  have hs : ∑ k : Fin 8190, kE neg (ix2 r k)
      = ∑ k : Fin 8190, Ideal.exp (((sc (n k) : ℝ) : EReal) - kM neg (ix1 r)) :=
    Finset.sum_congr rfl fun k _ => kE_row neg r n hn k
  unfold kL
  rw [addf_apply, hostLog_apply, hostReduceAdd_row2, constant_apply, Ideal.ofBits_zero_f32, hs]

theorem lossK_apply (pos : FVec Ideal S8192 .f32) (neg : FVec Ideal S8192x8190 .f32) (i : S8192.Idx) :
    lossK pos neg i
      = (max (kP pos i) (kL neg i)
            + Ideal.log1p (Ideal.exp (-(max (kP pos i - kL neg i) (-(kP pos i - kL neg i)))))) - kP pos i := by
  unfold lossK kD
  simp only [subf_apply, select_apply, cmpf_une_self_apply, select_zero, addf_apply, maximumf_apply, hostLog1p_apply,
    hostExp_apply, hostNegf_apply, hostAbsf_apply]

/-- The kernel's program's loss at a row of real logits. -/
theorem lossK_row (pos : FVec Ideal S8192 .f32) (neg : FVec Ideal S8192x8190 .f32) (r : Fin 8192) (p : ℝ) (n : Fin 8190 → ℝ)
    (hp : pos (ix1 r) = (p : EReal)) (hn : ∀ k, neg (ix2 r k) = (n k : EReal)) :
    lossK pos neg (ix1 r)
      = ((Real.log (Real.exp (sc p) + ∑ k : Fin 8190, Real.exp (sc (n k))) - sc p : ℝ) : EReal) := by
  obtain ⟨m, hm⟩ := kM_row neg r n hn
  rw [lossK_apply, kL_row neg r n hn, kP_row pos r p hp, hm,
    LogSumExp.logaddexp_row (ι := Fin 8190) (sc p) m fun k => sc (n k)]

end Kernel

section Reference
open Cert.ReferenceIdeal Cert.ReferenceIdeal.Facts₀
variable [Cert.ReferenceIdeal.Facts]

/-- The scaled row with the positive logit in front. -/
def zrow (p : ℝ) (n : Fin 8190 → ℝ) (c : Fin 8191) : ℝ :=
  if h : c.val = 0 then sc p else sc (n ⟨c.val - 1, by have := c.isLt; omega⟩)

theorem rZ_head (pos : FVec Ideal S8192 .f32) (neg : FVec Ideal S8192x8190 .f32) (r : Fin 8192) (p : ℝ)
    (hp : pos (ix1 r) = (p : EReal)) (c : Fin 8191) (hc : c.val = 0) :
    rZ pos neg (ix2 r c) = ((sc p : ℝ) : EReal) := by
  unfold rZ
  rw [hostDivf_apply, broadcastInDim_scalar_apply, constant_apply, ofBits_half, concat_col_zero _ _ _ r c hc,
    bcastCol_apply, hp, LogSumExp.div_coe p half_ne_zero]

theorem rZ_tail (pos : FVec Ideal S8192 .f32) (neg : FVec Ideal S8192x8190 .f32) (r : Fin 8192) (n : Fin 8190 → ℝ)
    (hn : ∀ k, neg (ix2 r k) = (n k : EReal)) (k : Fin 8190) (c : Fin 8191) (hc : c.val = k.val + 1) :
    rZ pos neg (ix2 r c) = ((sc (n k) : ℝ) : EReal) := by
  unfold rZ
  rw [hostDivf_apply, broadcastInDim_scalar_apply, constant_apply, ofBits_half, concat_col_succ _ _ _ r k c hc,
    hn, LogSumExp.div_coe (n k) half_ne_zero]

theorem rZ_row (pos : FVec Ideal S8192 .f32) (neg : FVec Ideal S8192x8190 .f32) (r : Fin 8192) (p : ℝ) (n : Fin 8190 → ℝ)
    (hp : pos (ix1 r) = (p : EReal)) (hn : ∀ k, neg (ix2 r k) = (n k : EReal)) (c : Fin 8191) :
    rZ pos neg (ix2 r c) = ((zrow p n c : ℝ) : EReal) := by
  unfold zrow
  split
  · next h => exact rZ_head pos neg r p hp c h
  · next h => exact rZ_tail pos neg r n hn _ c (by show c.val = c.val - 1 + 1; omega)

theorem rM_row (z : FVec Ideal S8192x8191 .f32) (r : Fin 8192) (zr : Fin 8191 → ℝ)
    (hz : ∀ c, z (ix2 r c) = (zr c : EReal)) : ∃ mx : ℝ, rM z (ix1 r) = (mx : EReal) := by
  obtain ⟨m, hm⟩ := LogSumExp.fold_max_real (ι := Fin 8191) zr
  refine ⟨m, ?_⟩
  unfold rM
  rw [maximumf_apply, broadcastInDim_scalar_apply, constant_apply, hostReduce_max_row2, constant_apply,
    Cert.LibSoftmaxRow.ofBits_negInf, max_bot_left, ← hm]
  exact congrArg (fun f => Finset.fold max (⊥ : EReal) f (Finset.univ : Finset (Fin 8191))) (funext hz)

theorem rShift_row (z : FVec Ideal S8192x8191 .f32) (r : Fin 8192) (c : Fin 8191) :
    rShift z (ix2 r c) = z (ix2 r c) - rM z (ix1 r) := by
  unfold rShift
  rw [subf_apply, bcastRow_apply, bcastCol_apply]

theorem rLogSoftmax_row (z : FVec Ideal S8192x8191 .f32) (r : Fin 8192) (c : Fin 8191) :
    rLogSoftmax z (ix2 r c)
      = (z (ix2 r c) - rM z (ix1 r)) - Ideal.log (0 + ∑ c' : Fin 8191, Ideal.exp (z (ix2 r c') - rM z (ix1 r))) := by
  have hs : ∑ c' : Fin 8191, Host.exp (rShift z) (ix2 r c')
      = ∑ c' : Fin 8191, Ideal.exp (z (ix2 r c') - rM z (ix1 r)) :=
    Finset.sum_congr rfl fun c' _ => by rw [hostExp_apply, rShift_row]
  unfold rLogSoftmax
  rw [subf_apply, rShift_row, bcastRow_apply, hostLog_apply, bcastCol_apply, hostReduceAdd_row2, constant_apply,
    Ideal.ofBits_zero_f32, hs]

theorem lossR_apply (pos : FVec Ideal S8192 .f32) (neg : FVec Ideal S8192x8190 .f32) (r : Fin 8192) :
    lossR pos neg (ix1 r) = -(rLogSoftmax (rZ pos neg) (ix2 r (⟨0, by omega⟩ : Fin 8191))) := by
  unfold lossR
  rw [hostNegf_apply, castCol_apply, slice_col0_apply _ _ r (0 : Fin 1) (⟨0, by omega⟩ : Fin 8191) rfl]

/-- The reference's program's loss at a row of real logits. -/
theorem lossR_row (pos : FVec Ideal S8192 .f32) (neg : FVec Ideal S8192x8190 .f32) (r : Fin 8192) (p : ℝ) (n : Fin 8190 → ℝ)
    (hp : pos (ix1 r) = (p : EReal)) (hn : ∀ k, neg (ix2 r k) = (n k : EReal)) :
    lossR pos neg (ix1 r)
      = ((Real.log (Real.exp (sc p) + ∑ k : Fin 8190, Real.exp (sc (n k))) - sc p : ℝ) : EReal) := by
  obtain ⟨mx, hmx⟩ := rM_row (rZ pos neg) r (zrow p n) (rZ_row pos neg r p n hp hn)
  have htail : ∑ k : Fin 8190, Ideal.exp (rZ pos neg (ix2 r (⟨k.val + 1, by omega⟩ : Fin 8191)) - (mx : EReal))
      = ∑ k : Fin 8190, Ideal.exp (((sc (n k) : ℝ) : EReal) - (mx : EReal)) :=
    Finset.sum_congr rfl fun k _ => by rw [rZ_tail pos neg r n hn k _ rfl]
  rw [lossR_apply, rLogSoftmax_row, hmx, sum_head_tail (n := 8190) rfl, htail, rZ_head pos neg r p hp _ rfl,
    LogSumExp.logsoftmax_row (ι := Fin 8190) (sc p) mx fun k => sc (n k)]

end Reference

section Both
variable [Cert.KernelIdeal.Facts] [Cert.ReferenceIdeal.Facts]

/-- On real logits the two programs' per-row losses are the same vector. -/
theorem loss_eq (pos : FVec Ideal Cert.KernelIdeal.S8192 .f32) (neg : FVec Ideal Cert.KernelIdeal.S8192x8190 .f32)
    (hpos : ∀ i, ∃ r : ℝ, pos i = (r : EReal)) (hneg : ∀ i, ∃ r : ℝ, neg i = (r : EReal)) :
    lossK pos neg = lossR pos neg := by
  funext i
  obtain ⟨r, rfl⟩ : ∃ r : Fin 8192, i = ix1 r := ⟨i 0, eq_ix1 i⟩
  obtain ⟨p, hp⟩ := hpos (ix1 r)
  choose n hn using fun k : Fin 8190 => hneg (ix2 r k)
  rw [lossK_row pos neg r p n hp hn, lossR_row pos neg r p n hp hn]

end Both

end Cert.LossRows

end
-- ==== Proof.PosNegReal.lean ====
/-
  Slices, stackings and reshapes only move entries: every entry of the result is an entry of the source.

  A slice reads the source at the shifted index, a reshape at the index with the same row-major position, and a
  stacking of several pieces reads one of the pieces. So the row of positive similarities and the table of negative
  similarities, both cut out of the re-indexed similarity table, consist of entries of that table, and inherit any
  property every entry of the table has, being a real number in particular.
-/
import proofs.«118001_j3702261809487_2_alg».proof.Proof.RefRunStages
import Idealize.ShloMosaic.PureOps.Ideal
import Idealize.ShloMosaic.Lib.ValueIdx
import Idealize.ShloMosaic.Lib.Pipeline.Value

noncomputable section

namespace Cert.PosNeg

open Idealize.ShloMosaic Idealize.ShloMosaic.ValueIdx

/-- A stacking read at an index is one of its pieces read at some index. -/
theorem concatenate_mem {α : Type} {t : Shape} (a : Fin t.rank) (xs : List ((s : Shape) × (s.Idx → α)))
    (h : Shape.Concatenates (xs.map (·.1)) t a) (j : t.Idx) :
    ∃ (k : Nat) (hk : k < xs.length) (i : (xs[k]).1.Idx), concatenate t a xs h j = (xs[k]).2 i := by
  unfold concatenate
  exact ⟨_, _, _, rfl⟩

/-- A function that is entrywise a selection keeps every entry real when the source's entries are. -/
theorem real_of_mem {S T : Shape} (f : (S.Idx → EReal) → (T.Idx → EReal)) (hf : ∀ s i, ∃ j, f s i = s j)
    (s : S.Idx → EReal) (hs : ∀ i, ∃ r : ℝ, s i = (r : EReal)) : ∀ i, ∃ r : ℝ, f s i = (r : EReal) := by
  intro i
  obtain ⟨j, hj⟩ := hf s i
  rw [hj]
  exact hs j

/-- Every positive similarity is an entry of the table. -/
theorem pos_mem (s : FVec Ideal Cert.ReferenceIdeal.S8192x8192 .f32) (i : Cert.ReferenceIdeal.S8192.Idx) :
    ∃ j, Cert.ReferenceIdeal.RefRun.pos (F := Ideal) s i = s j := ⟨_, rfl⟩

/-- Every negative similarity is an entry of the table. -/
theorem neg_mem (s : FVec Ideal Cert.ReferenceIdeal.S8192x8192 .f32) (i : Cert.ReferenceIdeal.S8192x8190.Idx) :
    ∃ j, Cert.ReferenceIdeal.RefRun.neg (F := Ideal) s i = s j := by
  unfold Cert.ReferenceIdeal.RefRun.neg Cert.ReferenceIdeal.RefRun.negOf Cert.ReferenceIdeal.RefRun.negTop Cert.ReferenceIdeal.RefRun.negBot
  obtain ⟨i1, h1⟩ : ∃ i1, shapeCast Cert.ReferenceIdeal.S8192x8190
      (concatenate Cert.ReferenceIdeal.S8190x8192 0
        [⟨Cert.ReferenceIdeal.S4095x8192, extractStridedSlice Cert.ReferenceIdeal.S4095x8192 ![1, 0] s
            Cert.ReferenceIdeal.Facts₀.slices_S8192x8192_S4095x8192_1_0⟩,
         ⟨Cert.ReferenceIdeal.S4095x8192, extractStridedSlice Cert.ReferenceIdeal.S4095x8192 ![4097, 0] s
            Cert.ReferenceIdeal.Facts₀.slices_S8192x8192_S4095x8192_4097_0⟩]
        Cert.ReferenceIdeal.Facts₀.concatenates_S4095x8192_S4095x8192_S8190x8192_d0)
      Cert.ReferenceIdeal.Facts₀.shapeCasts_S8190x8192_S8192x8190 i
      = concatenate Cert.ReferenceIdeal.S8190x8192 0
        [⟨Cert.ReferenceIdeal.S4095x8192, extractStridedSlice Cert.ReferenceIdeal.S4095x8192 ![1, 0] s
            Cert.ReferenceIdeal.Facts₀.slices_S8192x8192_S4095x8192_1_0⟩,
         ⟨Cert.ReferenceIdeal.S4095x8192, extractStridedSlice Cert.ReferenceIdeal.S4095x8192 ![4097, 0] s
            Cert.ReferenceIdeal.Facts₀.slices_S8192x8192_S4095x8192_4097_0⟩]
        Cert.ReferenceIdeal.Facts₀.concatenates_S4095x8192_S4095x8192_S8190x8192_d0 i1 := ⟨_, rfl⟩
  rw [h1]
  obtain ⟨k, hk, i2, h2⟩ := concatenate_mem (α := EReal) (0 : Fin Cert.ReferenceIdeal.S8190x8192.rank)
    [⟨Cert.ReferenceIdeal.S4095x8192, extractStridedSlice Cert.ReferenceIdeal.S4095x8192 ![1, 0] s
        Cert.ReferenceIdeal.Facts₀.slices_S8192x8192_S4095x8192_1_0⟩,
     ⟨Cert.ReferenceIdeal.S4095x8192, extractStridedSlice Cert.ReferenceIdeal.S4095x8192 ![4097, 0] s
        Cert.ReferenceIdeal.Facts₀.slices_S8192x8192_S4095x8192_4097_0⟩]
    Cert.ReferenceIdeal.Facts₀.concatenates_S4095x8192_S4095x8192_S8190x8192_d0 i1
  rw [h2]
  match k, hk, i2 with
  | 0, _, i2 => exact ⟨_, rfl⟩
  | 1, _, i2 => exact ⟨_, rfl⟩
  | k + 2, hk, _ => exact absurd hk (by simp)

/-- The positive similarities of a table of reals are reals. -/
theorem pos_real (s : FVec Ideal Cert.ReferenceIdeal.S8192x8192 .f32) (hs : ∀ i, ∃ r : ℝ, s i = (r : EReal)) :
    ∀ i, ∃ r : ℝ, Cert.ReferenceIdeal.RefRun.pos (F := Ideal) s i = (r : EReal) := by
  intro i
  obtain ⟨j, hj⟩ := pos_mem s i
  rw [hj]
  exact hs j

/-- The negative similarities of a table of reals are reals. -/
theorem neg_real (s : FVec Ideal Cert.ReferenceIdeal.S8192x8192 .f32) (hs : ∀ i, ∃ r : ℝ, s i = (r : EReal)) :
    ∀ i, ∃ r : ℝ, Cert.ReferenceIdeal.RefRun.neg (F := Ideal) s i = (r : EReal) := by
  intro i
  obtain ⟨j, hj⟩ := neg_mem s i
  rw [hj]
  exact hs j

end Cert.PosNeg

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.Finite.lean ====
/-
  Finite inputs: the precondition read back as "every entry of both arguments is a real number".

  The precondition is the conjunction of two tests, one per argument: every entry's absolute value lies strictly
  below the word of +∞. On the extended reals |x| = max x (−x), and max x (−x) < ⊤ excludes x = ⊤ and x = ⊥, so x is
  (the coercion of) a real. A test "all entries" is a reduction by "and" from 1, which is 1 only if every entry is.
-/
import proofs.«118001_j3702261809487_2_alg».proof.Defs
import proofs.«118001_j3702261809487_2_alg».proof.Proof.LibWords
import Idealize.ShloMosaic.PureOps.Ideal
import Idealize.ShloMosaic.PureOps.Ideal.Laws
import Idealize.ShloMosaic.Lib.ValueIdx
import Idealize.ShloMosaic.Lib.ReduceAll

noncomputable section

namespace Cert.Gram

open Idealize.ShloMosaic Idealize.ShloMosaic.ValueIdx Idealize.SL.Sem

/-- A rank-zero shape has one index. -/
instance subsingleton_scalar_idx : Subsingleton Cert.Pre_finite_inputs.S_.Idx := ⟨fun a b => funext fun d => d.elim0⟩

/-- An extended real whose absolute value is strictly below the word of +∞ is a real number. -/
theorem real_of_abs_lt_inf (x : EReal)
    (h : Ideal.cmp .olt (max x (-x)) (Ideal.ofBits .f32 0x7F800000#32) = 1#1) : ∃ r : ℝ, x = (r : EReal) := by
  rw [Cert.Chamfer.Words.ofBits_top] at h
  induction x using EReal.rec with
  | bot => exact absurd h (by simp [Ideal.cmp])
  | top => exact absurd h (by simp [Ideal.cmp])
  | coe r => exact ⟨r, rfl⟩

section
variable [Cert.Pre_finite_inputs.Facts]

/-- One argument's test: if "all |a| < +∞" came out 1 then every entry of a is a real number. -/
theorem all_real (a : FVec Ideal Cert.Pre_finite_inputs.S4096x512 .f32)
    (e : Host.reduce IntOp.andi
          (cmpf .olt (Host.absf a)
            (broadcastInDim Cert.Pre_finite_inputs.S4096x512 ![] Cert.Pre_finite_inputs.Facts.bcast_S_S4096x512
              (constant (F := Ideal) Cert.Pre_finite_inputs.S_ .f32 0x7F800000#32)))
          (constantI Cert.Pre_finite_inputs.S_ 1 1#1)
          Cert.Pre_finite_inputs.Facts.reducesTo_S4096x512_S_d0_1 Cert.Pre_finite_inputs.Facts.h_S_ ix0 = 1#1) :
    ∀ i, ∃ r : ℝ, a i = (r : EReal) := fun i =>
  real_of_abs_lt_inf (a i) (Host.reduce_andi_all _ _ _ _ ix0 e i)

variable [Cert.KernelIdeal.Facts]

/-- Under the kernel's precondition every entry of both arguments is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h1 := congrFun (h c) ix0
  dsimp only [Cert.Pre_finite_inputs.fn] at h1
  obtain ⟨e0, e1⟩ := IntOp.andi_eq_one.1 h1
  exact ⟨all_real _ e0, all_real _ e1⟩

end

end Cert.Gram

end
-- ==== Proof.RefRunOps.lean ====
import proofs.«118001_j3702261809487_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The straight line of the program: its ninety-four tensor operations in order, each outlined function's
    body written out at its call over that call's buffers (the row norm, the integer remainder with its
    scalar select, the row-wise log-softmax). -/
abbrev ops : List (HloOp τ sig (Elt F)) :=
  (StableHlo.binary main_arg0 main_arg1 main_v0 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F))) ::
  (StableHlo.TRef.binary (.of main_v0 : TRef sig ⟨S8192x512, .f32⟩) (.of main_v0 : TRef sig ⟨S8192x512, .f32⟩) main_call0.v0 mulf) ::
  (StableHlo.TRef.nullary main_call0.cst (constant S_ .f32 0x00000000#32)) ::
  (StableHlo.TRef.binary main_call0.v0 main_call0.cst main_call0.v1 (fun x v => Host.reduceAdd x v reducesTo_S8192x512_S8192_d1 h_S_)) ::
  (StableHlo.TRef.unary main_call0.v1 main_call0.v2 (broadcastInDim S8192x1 ![0] bcast_S8192_S8192x1_0)) ::
  (StableHlo.TRef.unary main_call0.v2 main_call0.v3 Host.sqrt) ::
  (StableHlo.nullary main_cst (constant S_ .f32 0x322BCC77#32)) ::
  (StableHlo.unary main_cst main_v2 (broadcastInDim S8192x1 ![] bcast_S_S8192x1 : (⟨S_, .f32⟩ : BufTy).Contents (Elt F) → (⟨S8192x1, .f32⟩ : BufTy).Contents (Elt F))) ::
  (StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F))) ::
  (StableHlo.unary main_v3 main_v4 (broadcastInDim S8192x512 ![0, 1] bcast_S8192x1_S8192x512_0_1 : (⟨S8192x1, .f32⟩ : BufTy).Contents (Elt F) → (⟨S8192x512, .f32⟩ : BufTy).Contents (Elt F))) ::
  (StableHlo.binary main_v0 main_v4 main_v5 (Host.divf : (⟨S8192x512, .f32⟩ : BufTy).Contents (Elt F) → (⟨S8192x512, .f32⟩ : BufTy).Contents (Elt F) → (⟨S8192x512, .f32⟩ : BufTy).Contents (Elt F))) ::
  (StableHlo.unary main_v5 main_v6 ((transpose S512x8192 [1, 0] · transposes_S8192x512_S512x8192_1_0) : (⟨S8192x512, .f32⟩ : BufTy).Contents (Elt F) → (⟨S512x8192, .f32⟩ : BufTy).Contents (Elt F))) ::
  (StableHlo.binary main_v5 main_v6 main_v7 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F))) ::
  (StableHlo.nullary main_v8 (iotaInDim S8192 32 0)) ::
  (StableHlo.unary main_v8 main_v9 (broadcastInDim S1x8192 ![1] bcast_S8192_S1x8192_1 : (⟨S8192, .i32⟩ : BufTy).Contents (Elt F) → (⟨S1x8192, .i32⟩ : BufTy).Contents (Elt F))) ::
  (StableHlo.unary main_v8 main_v10 (broadcastInDim S1x8192 ![1] bcast_S8192_S1x8192_1 : (⟨S8192, .i32⟩ : BufTy).Contents (Elt F) → (⟨S1x8192, .i32⟩ : BufTy).Contents (Elt F))) ::
  (StableHlo.unary main_v8 main_v11 (broadcastInDim S8192x1 ![0] bcast_S8192_S8192x1_0 : (⟨S8192, .i32⟩ : BufTy).Contents (Elt F) → (⟨S8192x1, .i32⟩ : BufTy).Contents (Elt F))) ::
  (StableHlo.unary main_v10 main_v12 (broadcastInDim S8192x8192 ![0, 1] bcast_S1x8192_S8192x8192_0_1 : (⟨S1x8192, .i32⟩ : BufTy).Contents (Elt F) → (⟨S8192x8192, .i32⟩ : BufTy).Contents (Elt F))) ::
  (StableHlo.unary main_v11 main_v13 (broadcastInDim S8192x8192 ![0, 1] bcast_S8192x1_S8192x8192_0_1 : (⟨S8192x1, .i32⟩ : BufTy).Contents (Elt F) → (⟨S8192x8192, .i32⟩ : BufTy).Contents (Elt F))) ::
  (StableHlo.binary main_v12 main_v13 main_v14 (addi : (⟨S8192x8192, .i32⟩ : BufTy).Contents (Elt F) → (⟨S8192x8192, .i32⟩ : BufTy).Contents (Elt F) → (⟨S8192x8192, .i32⟩ : BufTy).Contents (Elt F))) ::
  (StableHlo.nullary main_c (constantI S_ 32 8192#32)) ::
  (StableHlo.TRef.unary (.of main_c : TRef sig ⟨S_, .i32⟩) main_call1.v0 id) ::
  (StableHlo.TRef.nullary main_call1.c (constantI S_ 32 0#32)) ::
  (StableHlo.TRef.binary main_call1.v0 main_call1.c main_call1.v1 (cmpi .eq)) ::
  (StableHlo.TRef.nullary main_call1.c_0 (constantI S_ 32 1#32)) ::
  (StableHlo.TRef.ternary main_call1.v1 main_call1.c_0 main_call1.v0 main_call1.call0.v0 select) ::
  (StableHlo.TRef.unary main_call1.call0.v0 main_call1.v3 (broadcastInDim S8192x8192 ![] bcast_S_S8192x8192)) ::
  (StableHlo.TRef.binary (.of main_v14 : TRef sig ⟨S8192x8192, .i32⟩) main_call1.v3 main_call1.v4 Host.remsi) ::
  (StableHlo.TRef.nullary main_call1.c_1 (constantI S_ 32 0#32)) ::
  (StableHlo.TRef.unary main_call1.c_1 main_call1.v5 (broadcastInDim S8192x8192 ![] bcast_S_S8192x8192)) ::
  (StableHlo.TRef.binary main_call1.v4 main_call1.v5 main_call1.v6 (cmpi .ne)) ::
  (StableHlo.TRef.nullary main_call1.c_2 (constantI S_ 32 0#32)) ::
  (StableHlo.TRef.unary main_call1.c_2 main_call1.v7 (broadcastInDim S8192x8192 ![] bcast_S_S8192x8192)) ::
  (StableHlo.TRef.binary main_call1.v4 main_call1.v7 main_call1.v8 (cmpi .slt)) ::
  (StableHlo.TRef.nullary main_call1.c_3 (constantI S_ 32 0#32)) ::
  (StableHlo.TRef.binary main_call1.call0.v0 main_call1.c_3 main_call1.v9 (cmpi .slt)) ::
  (StableHlo.TRef.unary main_call1.v9 main_call1.v10 (broadcastInDim S8192x8192 ![] bcast_S_S8192x8192)) ::
  (StableHlo.TRef.binary main_call1.v8 main_call1.v10 main_call1.v11 (cmpi .ne)) ::
  (StableHlo.TRef.binary main_call1.v11 main_call1.v6 main_call1.v12 andi) ::
  (StableHlo.TRef.unary main_call1.call0.v0 main_call1.v13 (broadcastInDim S8192x8192 ![] bcast_S_S8192x8192)) ::
  (StableHlo.TRef.binary main_call1.v4 main_call1.v13 main_call1.v14 addi) ::
  (StableHlo.TRef.ternary main_call1.v12 main_call1.v14 main_call1.v4 main_call1.v15 select) ::
  (StableHlo.nullary main_c_0 (constantI S_ 32 0#32)) ::
  (StableHlo.unary main_c_0 main_v16 (broadcastInDim S1x8192 ![] bcast_S_S1x8192 : (⟨S_, .i32⟩ : BufTy).Contents (Elt F) → (⟨S1x8192, .i32⟩ : BufTy).Contents (Elt F))) ::
  (StableHlo.binary main_v9 main_v16 main_v17 (cmpi .slt : (⟨S1x8192, .i32⟩ : BufTy).Contents (Elt F) → (⟨S1x8192, .i32⟩ : BufTy).Contents (Elt F) → (⟨S1x8192, .i1⟩ : BufTy).Contents (Elt F))) ::
  (StableHlo.nullary main_c_1 (constantI S_ 32 8192#32)) ::
  (StableHlo.unary main_c_1 main_v18 (broadcastInDim S1x8192 ![] bcast_S_S1x8192 : (⟨S_, .i32⟩ : BufTy).Contents (Elt F) → (⟨S1x8192, .i32⟩ : BufTy).Contents (Elt F))) ::
  (StableHlo.binary main_v9 main_v18 main_v19 (addi : (⟨S1x8192, .i32⟩ : BufTy).Contents (Elt F) → (⟨S1x8192, .i32⟩ : BufTy).Contents (Elt F) → (⟨S1x8192, .i32⟩ : BufTy).Contents (Elt F))) ::
  (StableHlo.ternary main_v17 main_v19 main_v9 main_v20 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F))) ::
  (StableHlo.nullary main_c_2 (constantI S_ 32 0#32)) ::
  (StableHlo.unary main_c_2 main_v21 (broadcastInDim S8192x8192 ![] bcast_S_S8192x8192 : (⟨S_, .i32⟩ : BufTy).Contents (Elt F) → (⟨S8192x8192, .i32⟩ : BufTy).Contents (Elt F))) ::
  (StableHlo.binary main_v15 main_v21 main_v22 (cmpi .slt : (⟨S8192x8192, .i32⟩ : BufTy).Contents (Elt F) → (⟨S8192x8192, .i32⟩ : BufTy).Contents (Elt F) → (⟨S8192x8192, .i1⟩ : BufTy).Contents (Elt F))) ::
  (StableHlo.nullary main_c_3 (constantI S_ 32 8192#32)) ::
  (StableHlo.unary main_c_3 main_v23 (broadcastInDim S8192x8192 ![] bcast_S_S8192x8192 : (⟨S_, .i32⟩ : BufTy).Contents (Elt F) → (⟨S8192x8192, .i32⟩ : BufTy).Contents (Elt F))) ::
  (StableHlo.binary main_v15 main_v23 main_v24 (addi : (⟨S8192x8192, .i32⟩ : BufTy).Contents (Elt F) → (⟨S8192x8192, .i32⟩ : BufTy).Contents (Elt F) → (⟨S8192x8192, .i32⟩ : BufTy).Contents (Elt F))) ::
  (StableHlo.ternary main_v22 main_v24 main_v15 main_v25 (select : (⟨S8192x8192, .i1⟩ : BufTy).Contents (Elt F) → (⟨S8192x8192, .i32⟩ : BufTy).Contents (Elt F) → (⟨S8192x8192, .i32⟩ : BufTy).Contents (Elt F) → (⟨S8192x8192, .i32⟩ : BufTy).Contents (Elt F))) ::
  (StableHlo.unary main_v20 main_v26 (broadcastInDim S8192x8192 ![0, 1] bcast_S1x8192_S8192x8192_0_1 : (⟨S1x8192, .i32⟩ : BufTy).Contents (Elt F) → (⟨S8192x8192, .i32⟩ : BufTy).Contents (Elt F))) ::
  (StableHlo.unary main_v26 main_v27 (broadcastInDim S8192x8192x1 ![0, 1] bcast_S8192x8192_S8192x8192x1_0_1 : (⟨S8192x8192, .i32⟩ : BufTy).Contents (Elt F) → (⟨S8192x8192x1, .i32⟩ : BufTy).Contents (Elt F))) ::
  (StableHlo.unary main_v25 main_v28 (broadcastInDim S8192x8192x1 ![0, 1] bcast_S8192x8192_S8192x8192x1_0_1 : (⟨S8192x8192, .i32⟩ : BufTy).Contents (Elt F) → (⟨S8192x8192x1, .i32⟩ : BufTy).Contents (Elt F))) ::
  (StableHlo.binary main_v27 main_v28 main_v29 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F))) ::
  (StableHlo.binary main_v7 main_v29 main_v30 ((fun x i => Host.gather gather_S8192x8192_S8192x8192x2_S8192x8192_n_01_n_n_01_2_11 x i) : (⟨S8192x8192, .f32⟩ : BufTy).Contents (Elt F) → (⟨S8192x8192x2, .i32⟩ : BufTy).Contents (Elt F) → (⟨S8192x8192, .f32⟩ : BufTy).Contents (Elt F))) ::
  (StableHlo.unary main_v30 main_v31 ((extractStridedSlice S1x8192 ![4096, 0] · slices_S8192x8192_S1x8192_4096_0) : (⟨S8192x8192, .f32⟩ : BufTy).Contents (Elt F) → (⟨S1x8192, .f32⟩ : BufTy).Contents (Elt F))) ::
  (StableHlo.reshape main_v31 main_v32 rfl shapeCasts_S1x8192_S8192) ::
  (StableHlo.unary main_v30 main_v33 ((extractStridedSlice S4095x8192 ![1, 0] · slices_S8192x8192_S4095x8192_1_0) : (⟨S8192x8192, .f32⟩ : BufTy).Contents (Elt F) → (⟨S4095x8192, .f32⟩ : BufTy).Contents (Elt F))) ::
  (StableHlo.unary main_v30 main_v34 ((extractStridedSlice S4095x8192 ![4097, 0] · slices_S8192x8192_S4095x8192_4097_0) : (⟨S8192x8192, .f32⟩ : BufTy).Contents (Elt F) → (⟨S4095x8192, .f32⟩ : BufTy).Contents (Elt F))) ::
  (StableHlo.binary main_v33 main_v34 main_v35 ((fun a b => concatenate S8190x8192 0 [⟨S4095x8192, a⟩, ⟨S4095x8192, b⟩] concatenates_S4095x8192_S4095x8192_S8190x8192_d0) : (⟨S4095x8192, .f32⟩ : BufTy).Contents (Elt F) → (⟨S4095x8192, .f32⟩ : BufTy).Contents (Elt F) → (⟨S8190x8192, .f32⟩ : BufTy).Contents (Elt F))) ::
  (StableHlo.reshape main_v35 main_v36 rfl shapeCasts_S8190x8192_S8192x8190) ::
  (StableHlo.unary main_v32 main_v37 (broadcastInDim S8192x1 ![0] bcast_S8192_S8192x1_0 : (⟨S8192, .f32⟩ : BufTy).Contents (Elt F) → (⟨S8192x1, .f32⟩ : BufTy).Contents (Elt F))) ::
  (StableHlo.binary main_v37 main_v36 main_v38 ((fun a b => concatenate S8192x8191 1 [⟨S8192x1, a⟩, ⟨S8192x8190, b⟩] concatenates_S8192x1_S8192x8190_S8192x8191_d1) : (⟨S8192x1, .f32⟩ : BufTy).Contents (Elt F) → (⟨S8192x8190, .f32⟩ : BufTy).Contents (Elt F) → (⟨S8192x8191, .f32⟩ : BufTy).Contents (Elt F))) ::
  (StableHlo.nullary main_cst_4 (constant S_ .f32 0x3F000000#32)) ::
  (StableHlo.unary main_cst_4 main_v39 (broadcastInDim S8192x8191 ![] bcast_S_S8192x8191 : (⟨S_, .f32⟩ : BufTy).Contents (Elt F) → (⟨S8192x8191, .f32⟩ : BufTy).Contents (Elt F))) ::
  (StableHlo.binary main_v38 main_v39 main_v40 (Host.divf : (⟨S8192x8191, .f32⟩ : BufTy).Contents (Elt F) → (⟨S8192x8191, .f32⟩ : BufTy).Contents (Elt F) → (⟨S8192x8191, .f32⟩ : BufTy).Contents (Elt F))) ::
  (StableHlo.TRef.nullary main_call2.cst (constant S_ .f32 0xFF800000#32)) ::
  (StableHlo.TRef.binary (.of main_v40 : TRef sig ⟨S8192x8191, .f32⟩) main_call2.cst main_call2.v0 (fun x v => Host.reduce FloatOps.maximumf x v reducesTo_S8192x8191_S8192_d1 h_S_)) ::
  (StableHlo.TRef.nullary main_call2.cst_0 (constant S_ .f32 0xFF800000#32)) ::
  (StableHlo.TRef.unary main_call2.cst_0 main_call2.v1 (broadcastInDim S8192 ![] bcast_S_S8192)) ::
  (StableHlo.TRef.binary main_call2.v1 main_call2.v0 main_call2.v2 maximumf) ::
  (StableHlo.TRef.unary main_call2.v2 main_call2.v3 (broadcastInDim S8192x1 ![0] bcast_S8192_S8192x1_0)) ::
  (StableHlo.TRef.unary main_call2.v3 main_call2.v4 (broadcastInDim S8192x8191 ![0, 1] bcast_S8192x1_S8192x8191_0_1)) ::
  (StableHlo.TRef.binary (.of main_v40 : TRef sig ⟨S8192x8191, .f32⟩) main_call2.v4 main_call2.v5 subf) ::
  (StableHlo.TRef.unary main_call2.v5 main_call2.v6 Host.exp) ::
  (StableHlo.TRef.nullary main_call2.cst_1 (constant S_ .f32 0x00000000#32)) ::
  (StableHlo.TRef.binary main_call2.v6 main_call2.cst_1 main_call2.v7 (fun x v => Host.reduceAdd x v reducesTo_S8192x8191_S8192_d1 h_S_)) ::
  (StableHlo.TRef.unary main_call2.v7 main_call2.v8 (broadcastInDim S8192x1 ![0] bcast_S8192_S8192x1_0)) ::
  (StableHlo.TRef.unary main_call2.v8 main_call2.v9 Host.log) ::
  (StableHlo.TRef.unary main_call2.v9 main_call2.v10 (broadcastInDim S8192x8191 ![0, 1] bcast_S8192x1_S8192x8191_0_1)) ::
  (StableHlo.TRef.binary main_call2.v5 main_call2.v10 main_call2.v11 subf) ::
  (StableHlo.unary main_v41 main_v42 ((extractStridedSlice S8192x1 ![0, 0] · slices_S8192x8191_S8192x1_0_0) : (⟨S8192x8191, .f32⟩ : BufTy).Contents (Elt F) → (⟨S8192x1, .f32⟩ : BufTy).Contents (Elt F))) ::
  (StableHlo.reshape main_v42 main_v43 rfl shapeCasts_S8192x1_S8192) ::
  (StableHlo.unary main_v43 main_v44 (Host.negf : (⟨S8192, .f32⟩ : BufTy).Contents (Elt F) → (⟨S8192, .f32⟩ : BufTy).Contents (Elt F))) ::
  (StableHlo.nullary main_cst_5 (constant S_ .f32 0x00000000#32)) ::
  (StableHlo.binary main_v44 main_cst_5 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) ::
  (StableHlo.nullary main_cst_6 (constant S_ .f32 0x46000000#32)) ::
  (StableHlo.binary main_v45 main_cst_6 main_v46 (Host.divf : (⟨S_, .f32⟩ : BufTy).Contents (Elt F) → (⟨S_, .f32⟩ : BufTy).Contents (Elt F) → (⟨S_, .f32⟩ : BufTy).Contents (Elt F))) :: []

set_option maxRecDepth 65536 in
/-- The program is that straight line: unfolding the outlined functions at their calls and running the
    sequencing of the two sides gives the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core only. -/
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub .., reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

end Cert.ReferenceIdeal.RefRun

end
-- ==== Proof.RefRunSegDefs.lean ====
import proofs.«118001_j3702261809487_2_alg».proof.Proof.RefRunOps
import proofs.«118001_j3702261809487_2_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The line in sixteen stretches -/

/-- Stacking, the row norms, the normalized rows. -/
abbrev opsS1 : List (HloOp τ sig (Elt F)) :=
  (StableHlo.binary main_arg0 main_arg1 main_v0 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F))) ::
  (StableHlo.TRef.binary (.of main_v0 : TRef sig ⟨S8192x512, .f32⟩) (.of main_v0 : TRef sig ⟨S8192x512, .f32⟩) main_call0.v0 mulf) ::
  (StableHlo.TRef.nullary main_call0.cst (constant S_ .f32 0x00000000#32)) ::
  (StableHlo.TRef.binary main_call0.v0 main_call0.cst main_call0.v1 (fun x v => Host.reduceAdd x v reducesTo_S8192x512_S8192_d1 h_S_)) ::
  (StableHlo.TRef.unary main_call0.v1 main_call0.v2 (broadcastInDim S8192x1 ![0] bcast_S8192_S8192x1_0)) ::
  (StableHlo.TRef.unary main_call0.v2 main_call0.v3 Host.sqrt) ::
  (StableHlo.nullary main_cst (constant S_ .f32 0x322BCC77#32)) ::
  (StableHlo.unary main_cst main_v2 (broadcastInDim S8192x1 ![] bcast_S_S8192x1 : (⟨S_, .f32⟩ : BufTy).Contents (Elt F) → (⟨S8192x1, .f32⟩ : BufTy).Contents (Elt F))) ::
  (StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F))) ::
  (StableHlo.unary main_v3 main_v4 (broadcastInDim S8192x512 ![0, 1] bcast_S8192x1_S8192x512_0_1 : (⟨S8192x1, .f32⟩ : BufTy).Contents (Elt F) → (⟨S8192x512, .f32⟩ : BufTy).Contents (Elt F))) ::
  (StableHlo.binary main_v0 main_v4 main_v5 (Host.divf : (⟨S8192x512, .f32⟩ : BufTy).Contents (Elt F) → (⟨S8192x512, .f32⟩ : BufTy).Contents (Elt F) → (⟨S8192x512, .f32⟩ : BufTy).Contents (Elt F))) :: []

/-- The transpose and the matrix of inner products. -/
abbrev opsS2 : List (HloOp τ sig (Elt F)) :=
  (StableHlo.unary main_v5 main_v6 ((transpose S512x8192 [1, 0] · transposes_S8192x512_S512x8192_1_0) : (⟨S8192x512, .f32⟩ : BufTy).Contents (Elt F) → (⟨S512x8192, .f32⟩ : BufTy).Contents (Elt F))) ::
  (StableHlo.binary main_v5 main_v6 main_v7 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F))) :: []

/-- The column numbers and the sums `j + i`. -/
abbrev opsS3 : List (HloOp τ sig (Elt F)) :=
  (StableHlo.nullary main_v8 (iotaInDim S8192 32 0)) ::
  (StableHlo.unary main_v8 main_v9 (broadcastInDim S1x8192 ![1] bcast_S8192_S1x8192_1 : (⟨S8192, .i32⟩ : BufTy).Contents (Elt F) → (⟨S1x8192, .i32⟩ : BufTy).Contents (Elt F))) ::
  (StableHlo.unary main_v8 main_v10 (broadcastInDim S1x8192 ![1] bcast_S8192_S1x8192_1 : (⟨S8192, .i32⟩ : BufTy).Contents (Elt F) → (⟨S1x8192, .i32⟩ : BufTy).Contents (Elt F))) ::
  (StableHlo.unary main_v8 main_v11 (broadcastInDim S8192x1 ![0] bcast_S8192_S8192x1_0 : (⟨S8192, .i32⟩ : BufTy).Contents (Elt F) → (⟨S8192x1, .i32⟩ : BufTy).Contents (Elt F))) ::
  (StableHlo.unary main_v10 main_v12 (broadcastInDim S8192x8192 ![0, 1] bcast_S1x8192_S8192x8192_0_1 : (⟨S1x8192, .i32⟩ : BufTy).Contents (Elt F) → (⟨S8192x8192, .i32⟩ : BufTy).Contents (Elt F))) ::
  (StableHlo.unary main_v11 main_v13 (broadcastInDim S8192x8192 ![0, 1] bcast_S8192x1_S8192x8192_0_1 : (⟨S8192x1, .i32⟩ : BufTy).Contents (Elt F) → (⟨S8192x8192, .i32⟩ : BufTy).Contents (Elt F))) ::
  (StableHlo.binary main_v12 main_v13 main_v14 (addi : (⟨S8192x8192, .i32⟩ : BufTy).Contents (Elt F) → (⟨S8192x8192, .i32⟩ : BufTy).Contents (Elt F) → (⟨S8192x8192, .i32⟩ : BufTy).Contents (Elt F))) :: []

/-- The modulus and the truncated remainder. -/
abbrev opsS4a : List (HloOp τ sig (Elt F)) :=
  (StableHlo.nullary main_c (constantI S_ 32 8192#32)) ::
  (StableHlo.TRef.unary (.of main_c : TRef sig ⟨S_, .i32⟩) main_call1.v0 id) ::
  (StableHlo.TRef.nullary main_call1.c (constantI S_ 32 0#32)) ::
  (StableHlo.TRef.binary main_call1.v0 main_call1.c main_call1.v1 (cmpi .eq)) ::
  (StableHlo.TRef.nullary main_call1.c_0 (constantI S_ 32 1#32)) ::
  (StableHlo.TRef.ternary main_call1.v1 main_call1.c_0 main_call1.v0 main_call1.call0.v0 select) ::
  (StableHlo.TRef.unary main_call1.call0.v0 main_call1.v3 (broadcastInDim S8192x8192 ![] bcast_S_S8192x8192)) ::
  (StableHlo.TRef.binary (.of main_v14 : TRef sig ⟨S8192x8192, .i32⟩) main_call1.v3 main_call1.v4 Host.remsi) :: []

/-- The sign correction of the remainder. -/
abbrev opsS4b : List (HloOp τ sig (Elt F)) :=
  (StableHlo.TRef.nullary main_call1.c_1 (constantI S_ 32 0#32)) ::
  (StableHlo.TRef.unary main_call1.c_1 main_call1.v5 (broadcastInDim S8192x8192 ![] bcast_S_S8192x8192)) ::
  (StableHlo.TRef.binary main_call1.v4 main_call1.v5 main_call1.v6 (cmpi .ne)) ::
  (StableHlo.TRef.nullary main_call1.c_2 (constantI S_ 32 0#32)) ::
  (StableHlo.TRef.unary main_call1.c_2 main_call1.v7 (broadcastInDim S8192x8192 ![] bcast_S_S8192x8192)) ::
  (StableHlo.TRef.binary main_call1.v4 main_call1.v7 main_call1.v8 (cmpi .slt)) ::
  (StableHlo.TRef.nullary main_call1.c_3 (constantI S_ 32 0#32)) ::
  (StableHlo.TRef.binary main_call1.call0.v0 main_call1.c_3 main_call1.v9 (cmpi .slt)) ::
  (StableHlo.TRef.unary main_call1.v9 main_call1.v10 (broadcastInDim S8192x8192 ![] bcast_S_S8192x8192)) ::
  (StableHlo.TRef.binary main_call1.v8 main_call1.v10 main_call1.v11 (cmpi .ne)) ::
  (StableHlo.TRef.binary main_call1.v11 main_call1.v6 main_call1.v12 andi) ::
  (StableHlo.TRef.unary main_call1.call0.v0 main_call1.v13 (broadcastInDim S8192x8192 ![] bcast_S_S8192x8192)) ::
  (StableHlo.TRef.binary main_call1.v4 main_call1.v13 main_call1.v14 addi) ::
  (StableHlo.TRef.ternary main_call1.v12 main_call1.v14 main_call1.v4 main_call1.v15 select) :: []

/-- The column numbers wrapped. -/
abbrev opsS5 : List (HloOp τ sig (Elt F)) :=
  (StableHlo.nullary main_c_0 (constantI S_ 32 0#32)) ::
  (StableHlo.unary main_c_0 main_v16 (broadcastInDim S1x8192 ![] bcast_S_S1x8192 : (⟨S_, .i32⟩ : BufTy).Contents (Elt F) → (⟨S1x8192, .i32⟩ : BufTy).Contents (Elt F))) ::
  (StableHlo.binary main_v9 main_v16 main_v17 (cmpi .slt : (⟨S1x8192, .i32⟩ : BufTy).Contents (Elt F) → (⟨S1x8192, .i32⟩ : BufTy).Contents (Elt F) → (⟨S1x8192, .i1⟩ : BufTy).Contents (Elt F))) ::
  (StableHlo.nullary main_c_1 (constantI S_ 32 8192#32)) ::
  (StableHlo.unary main_c_1 main_v18 (broadcastInDim S1x8192 ![] bcast_S_S1x8192 : (⟨S_, .i32⟩ : BufTy).Contents (Elt F) → (⟨S1x8192, .i32⟩ : BufTy).Contents (Elt F))) ::
  (StableHlo.binary main_v9 main_v18 main_v19 (addi : (⟨S1x8192, .i32⟩ : BufTy).Contents (Elt F) → (⟨S1x8192, .i32⟩ : BufTy).Contents (Elt F) → (⟨S1x8192, .i32⟩ : BufTy).Contents (Elt F))) ::
  (StableHlo.ternary main_v17 main_v19 main_v9 main_v20 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F))) :: []

/-- The remainders wrapped, and the two index components. -/
abbrev opsS6 : List (HloOp τ sig (Elt F)) :=
  (StableHlo.nullary main_c_2 (constantI S_ 32 0#32)) ::
  (StableHlo.unary main_c_2 main_v21 (broadcastInDim S8192x8192 ![] bcast_S_S8192x8192 : (⟨S_, .i32⟩ : BufTy).Contents (Elt F) → (⟨S8192x8192, .i32⟩ : BufTy).Contents (Elt F))) ::
  (StableHlo.binary main_v15 main_v21 main_v22 (cmpi .slt : (⟨S8192x8192, .i32⟩ : BufTy).Contents (Elt F) → (⟨S8192x8192, .i32⟩ : BufTy).Contents (Elt F) → (⟨S8192x8192, .i1⟩ : BufTy).Contents (Elt F))) ::
  (StableHlo.nullary main_c_3 (constantI S_ 32 8192#32)) ::
  (StableHlo.unary main_c_3 main_v23 (broadcastInDim S8192x8192 ![] bcast_S_S8192x8192 : (⟨S_, .i32⟩ : BufTy).Contents (Elt F) → (⟨S8192x8192, .i32⟩ : BufTy).Contents (Elt F))) ::
  (StableHlo.binary main_v15 main_v23 main_v24 (addi : (⟨S8192x8192, .i32⟩ : BufTy).Contents (Elt F) → (⟨S8192x8192, .i32⟩ : BufTy).Contents (Elt F) → (⟨S8192x8192, .i32⟩ : BufTy).Contents (Elt F))) ::
  (StableHlo.ternary main_v22 main_v24 main_v15 main_v25 (select : (⟨S8192x8192, .i1⟩ : BufTy).Contents (Elt F) → (⟨S8192x8192, .i32⟩ : BufTy).Contents (Elt F) → (⟨S8192x8192, .i32⟩ : BufTy).Contents (Elt F) → (⟨S8192x8192, .i32⟩ : BufTy).Contents (Elt F))) ::
  (StableHlo.unary main_v20 main_v26 (broadcastInDim S8192x8192 ![0, 1] bcast_S1x8192_S8192x8192_0_1 : (⟨S1x8192, .i32⟩ : BufTy).Contents (Elt F) → (⟨S8192x8192, .i32⟩ : BufTy).Contents (Elt F))) ::
  (StableHlo.unary main_v26 main_v27 (broadcastInDim S8192x8192x1 ![0, 1] bcast_S8192x8192_S8192x8192x1_0_1 : (⟨S8192x8192, .i32⟩ : BufTy).Contents (Elt F) → (⟨S8192x8192x1, .i32⟩ : BufTy).Contents (Elt F))) ::
  (StableHlo.unary main_v25 main_v28 (broadcastInDim S8192x8192x1 ![0, 1] bcast_S8192x8192_S8192x8192x1_0_1 : (⟨S8192x8192, .i32⟩ : BufTy).Contents (Elt F) → (⟨S8192x8192x1, .i32⟩ : BufTy).Contents (Elt F))) :: []

/-- The index pairs and the gather through them. -/
abbrev opsS7 : List (HloOp τ sig (Elt F)) :=
  (StableHlo.binary main_v27 main_v28 main_v29 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F))) ::
  (StableHlo.binary main_v7 main_v29 main_v30 ((fun x i => Host.gather gather_S8192x8192_S8192x8192x2_S8192x8192_n_01_n_n_01_2_11 x i) : (⟨S8192x8192, .f32⟩ : BufTy).Contents (Elt F) → (⟨S8192x8192x2, .i32⟩ : BufTy).Contents (Elt F) → (⟨S8192x8192, .f32⟩ : BufTy).Contents (Elt F))) :: []

/-- The positive row and the two blocks of negative rows. -/
abbrev opsS8 : List (HloOp τ sig (Elt F)) :=
  (StableHlo.unary main_v30 main_v31 ((extractStridedSlice S1x8192 ![4096, 0] · slices_S8192x8192_S1x8192_4096_0) : (⟨S8192x8192, .f32⟩ : BufTy).Contents (Elt F) → (⟨S1x8192, .f32⟩ : BufTy).Contents (Elt F))) ::
  (StableHlo.reshape main_v31 main_v32 rfl shapeCasts_S1x8192_S8192) ::
  (StableHlo.unary main_v30 main_v33 ((extractStridedSlice S4095x8192 ![1, 0] · slices_S8192x8192_S4095x8192_1_0) : (⟨S8192x8192, .f32⟩ : BufTy).Contents (Elt F) → (⟨S4095x8192, .f32⟩ : BufTy).Contents (Elt F))) ::
  (StableHlo.unary main_v30 main_v34 ((extractStridedSlice S4095x8192 ![4097, 0] · slices_S8192x8192_S4095x8192_4097_0) : (⟨S8192x8192, .f32⟩ : BufTy).Contents (Elt F) → (⟨S4095x8192, .f32⟩ : BufTy).Contents (Elt F))) :: []

/-- The negative rows stacked and reshaped. -/
abbrev opsS9 : List (HloOp τ sig (Elt F)) :=
  (StableHlo.binary main_v33 main_v34 main_v35 ((fun a b => concatenate S8190x8192 0 [⟨S4095x8192, a⟩, ⟨S4095x8192, b⟩] concatenates_S4095x8192_S4095x8192_S8190x8192_d0) : (⟨S4095x8192, .f32⟩ : BufTy).Contents (Elt F) → (⟨S4095x8192, .f32⟩ : BufTy).Contents (Elt F) → (⟨S8190x8192, .f32⟩ : BufTy).Contents (Elt F))) ::
  (StableHlo.reshape main_v35 main_v36 rfl shapeCasts_S8190x8192_S8192x8190) :: []

/-- The positives as a column. -/
abbrev opsS10 : List (HloOp τ sig (Elt F)) :=
  (StableHlo.unary main_v32 main_v37 (broadcastInDim S8192x1 ![0] bcast_S8192_S8192x1_0 : (⟨S8192, .f32⟩ : BufTy).Contents (Elt F) → (⟨S8192x1, .f32⟩ : BufTy).Contents (Elt F))) :: []

/-- The logits. -/
abbrev opsS11 : List (HloOp τ sig (Elt F)) :=
  (StableHlo.binary main_v37 main_v36 main_v38 ((fun a b => concatenate S8192x8191 1 [⟨S8192x1, a⟩, ⟨S8192x8190, b⟩] concatenates_S8192x1_S8192x8190_S8192x8191_d1) : (⟨S8192x1, .f32⟩ : BufTy).Contents (Elt F) → (⟨S8192x8190, .f32⟩ : BufTy).Contents (Elt F) → (⟨S8192x8191, .f32⟩ : BufTy).Contents (Elt F))) ::
  (StableHlo.nullary main_cst_4 (constant S_ .f32 0x3F000000#32)) ::
  (StableHlo.unary main_cst_4 main_v39 (broadcastInDim S8192x8191 ![] bcast_S_S8192x8191 : (⟨S_, .f32⟩ : BufTy).Contents (Elt F) → (⟨S8192x8191, .f32⟩ : BufTy).Contents (Elt F))) ::
  (StableHlo.binary main_v38 main_v39 main_v40 (Host.divf : (⟨S8192x8191, .f32⟩ : BufTy).Contents (Elt F) → (⟨S8192x8191, .f32⟩ : BufTy).Contents (Elt F) → (⟨S8192x8191, .f32⟩ : BufTy).Contents (Elt F))) :: []

/-- Minus infinity. -/
abbrev opsS12a1 : List (HloOp τ sig (Elt F)) :=
  (StableHlo.TRef.nullary main_call2.cst (constant S_ .f32 0xFF800000#32)) :: []

/-- The row maxima. -/
abbrev opsS12a2 : List (HloOp τ sig (Elt F)) :=
  (StableHlo.TRef.binary (.of main_v40 : TRef sig ⟨S8192x8191, .f32⟩) main_call2.cst main_call2.v0 (fun x v => Host.reduce FloatOps.maximumf x v reducesTo_S8192x8191_S8192_d1 h_S_)) :: []

/-- The shifted rows. -/
abbrev opsS12a3 : List (HloOp τ sig (Elt F)) :=
  (StableHlo.TRef.nullary main_call2.cst_0 (constant S_ .f32 0xFF800000#32)) ::
  (StableHlo.TRef.unary main_call2.cst_0 main_call2.v1 (broadcastInDim S8192 ![] bcast_S_S8192)) ::
  (StableHlo.TRef.binary main_call2.v1 main_call2.v0 main_call2.v2 maximumf) ::
  (StableHlo.TRef.unary main_call2.v2 main_call2.v3 (broadcastInDim S8192x1 ![0] bcast_S8192_S8192x1_0)) ::
  (StableHlo.TRef.unary main_call2.v3 main_call2.v4 (broadcastInDim S8192x8191 ![0, 1] bcast_S8192x1_S8192x8191_0_1)) ::
  (StableHlo.TRef.binary (.of main_v40 : TRef sig ⟨S8192x8191, .f32⟩) main_call2.v4 main_call2.v5 subf) :: []

/-- The log-softmax from the shifted rows. -/
abbrev opsS12b : List (HloOp τ sig (Elt F)) :=
  (StableHlo.TRef.unary main_call2.v5 main_call2.v6 Host.exp) ::
  (StableHlo.TRef.nullary main_call2.cst_1 (constant S_ .f32 0x00000000#32)) ::
  (StableHlo.TRef.binary main_call2.v6 main_call2.cst_1 main_call2.v7 (fun x v => Host.reduceAdd x v reducesTo_S8192x8191_S8192_d1 h_S_)) ::
  (StableHlo.TRef.unary main_call2.v7 main_call2.v8 (broadcastInDim S8192x1 ![0] bcast_S8192_S8192x1_0)) ::
  (StableHlo.TRef.unary main_call2.v8 main_call2.v9 Host.log) ::
  (StableHlo.TRef.unary main_call2.v9 main_call2.v10 (broadcastInDim S8192x8191 ![0, 1] bcast_S8192x1_S8192x8191_0_1)) ::
  (StableHlo.TRef.binary main_call2.v5 main_call2.v10 main_call2.v11 subf) :: []

/-- The row losses. -/
abbrev opsS13 : List (HloOp τ sig (Elt F)) :=
  (StableHlo.unary main_v41 main_v42 ((extractStridedSlice S8192x1 ![0, 0] · slices_S8192x8191_S8192x1_0_0) : (⟨S8192x8191, .f32⟩ : BufTy).Contents (Elt F) → (⟨S8192x1, .f32⟩ : BufTy).Contents (Elt F))) ::
  (StableHlo.reshape main_v42 main_v43 rfl shapeCasts_S8192x1_S8192) ::
  (StableHlo.unary main_v43 main_v44 (Host.negf : (⟨S8192, .f32⟩ : BufTy).Contents (Elt F) → (⟨S8192, .f32⟩ : BufTy).Contents (Elt F))) :: []

/-- The mean. -/
abbrev opsS14 : List (HloOp τ sig (Elt F)) :=
  (StableHlo.nullary main_cst_5 (constant S_ .f32 0x00000000#32)) ::
  (StableHlo.binary main_v44 main_cst_5 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) ::
  (StableHlo.nullary main_cst_6 (constant S_ .f32 0x46000000#32)) ::
  (StableHlo.binary main_v45 main_cst_6 main_v46 (Host.divf : (⟨S_, .f32⟩ : BufTy).Contents (Elt F) → (⟨S_, .f32⟩ : BufTy).Contents (Elt F) → (⟨S_, .f32⟩ : BufTy).Contents (Elt F))) :: []

/-- The line is its stretches in order. -/
theorem ops_split : (ops : List (HloOp τ sig (Elt F))) = opsS1 ++ (opsS2 ++ (opsS3 ++ (opsS4a ++ (opsS4b ++ (opsS5 ++ (opsS6 ++ (opsS7 ++ (opsS8 ++ (opsS9 ++ (opsS10 ++ (opsS11 ++ (opsS12a1 ++ (opsS12a2 ++ (opsS12a3 ++ (opsS12b ++ (opsS13 ++ (opsS14))))))))))))))))) := rfl

end Cert.ReferenceIdeal.RefRun

end
-- ==== Proof.RefRunSegs.lean ====
import proofs.«118001_j3702261809487_2_alg».proof.Proof.RefRunSegDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch leaves, from any contents

The shape operations and the reductions are kept folded: the equations below never look inside them. -/

attribute [local irreducible] Host.reduce Host.reduceAdd Host.gather concatenate broadcastInDim shapeCast extractStridedSlice transpose

theorem st1 (V : Valuation τ sig (Elt F)) :
    after opsS1 V (main_v5 : DevRef τ sig) = xnorm (V (main_arg0 : DevRef τ sig)) (V (main_arg1 : DevRef τ sig)) := by
  after_results_simp
  rfl

theorem st2 (V : Valuation τ sig (Elt F)) :
    after opsS2 V (main_v7 : DevRef τ sig) = gram (V (main_v5 : DevRef τ sig)) := by
  after_results_simp
  rfl

theorem st3_v9 (V : Valuation τ sig (Elt F)) :
    after opsS3 V (main_v9 : DevRef τ sig) = colRow := by
  after_results_simp
  rfl

theorem st3_v14 (V : Valuation τ sig (Elt F)) :
    after opsS3 V (main_v14 : DevRef τ sig) = sumIdx := by
  after_results_simp
  rfl

theorem fr3_v7 (V : Valuation τ sig (Elt F)) :
    after opsS3 V (main_v7 : DevRef τ sig) = (V (main_v7 : DevRef τ sig)) := by
  after_results_simp

theorem st4a_r (V : Valuation τ sig (Elt F)) :
    after opsS4a V (main_call1_v4 : DevRef τ sig) = rem0Of (V (main_v14 : DevRef τ sig)) := by
  after_results_simp
  rfl

theorem st4a_m (V : Valuation τ sig (Elt F)) :
    after opsS4a V (main_call1_v2 : DevRef τ sig) = modulus := by
  after_results_simp
  rfl

theorem fr4a_v7 (V : Valuation τ sig (Elt F)) :
    after opsS4a V (main_v7 : DevRef τ sig) = (V (main_v7 : DevRef τ sig)) := by
  after_results_simp

theorem fr4a_v9 (V : Valuation τ sig (Elt F)) :
    after opsS4a V (main_v9 : DevRef τ sig) = (V (main_v9 : DevRef τ sig)) := by
  after_results_simp

theorem st4b (V : Valuation τ sig (Elt F)) :
    after opsS4b V (main_v15 : DevRef τ sig) = remFixOf (V (main_call1_v4 : DevRef τ sig)) (V (main_call1_v2 : DevRef τ sig)) := by
  after_results_simp
  rfl

theorem fr4b_v7 (V : Valuation τ sig (Elt F)) :
    after opsS4b V (main_v7 : DevRef τ sig) = (V (main_v7 : DevRef τ sig)) := by
  after_results_simp

theorem fr4b_v9 (V : Valuation τ sig (Elt F)) :
    after opsS4b V (main_v9 : DevRef τ sig) = (V (main_v9 : DevRef τ sig)) := by
  after_results_simp

theorem st5 (V : Valuation τ sig (Elt F)) :
    after opsS5 V (main_v20 : DevRef τ sig) = colWrapOf (V (main_v9 : DevRef τ sig)) := by
  after_results_simp
  rfl

theorem fr5_v7 (V : Valuation τ sig (Elt F)) :
    after opsS5 V (main_v7 : DevRef τ sig) = (V (main_v7 : DevRef τ sig)) := by
  after_results_simp

theorem fr5_v15 (V : Valuation τ sig (Elt F)) :
    after opsS5 V (main_v15 : DevRef τ sig) = (V (main_v15 : DevRef τ sig)) := by
  after_results_simp

theorem st6_v27 (V : Valuation τ sig (Elt F)) :
    after opsS6 V (main_v27 : DevRef τ sig) = idx0Of (V (main_v20 : DevRef τ sig)) := by
  after_results_simp
  rfl

theorem st6_v28 (V : Valuation τ sig (Elt F)) :
    after opsS6 V (main_v28 : DevRef τ sig) = idx1Of (V (main_v15 : DevRef τ sig)) := by
  after_results_simp
  rfl

theorem fr6_v7 (V : Valuation τ sig (Elt F)) :
    after opsS6 V (main_v7 : DevRef τ sig) = (V (main_v7 : DevRef τ sig)) := by
  after_results_simp

theorem st7 (V : Valuation τ sig (Elt F)) :
    after opsS7 V (main_v30 : DevRef τ sig) = simsOf (V (main_v7 : DevRef τ sig)) (V (main_v27 : DevRef τ sig)) (V (main_v28 : DevRef τ sig)) := by
  after_results_simp
  rfl

theorem st8_v32 (V : Valuation τ sig (Elt F)) :
    after opsS8 V (main_v32 : DevRef τ sig) = pos (V (main_v30 : DevRef τ sig)) := by
  after_results_simp
  rfl

theorem st8_v33 (V : Valuation τ sig (Elt F)) :
    after opsS8 V (main_v33 : DevRef τ sig) = negTop (V (main_v30 : DevRef τ sig)) := by
  after_results_simp
  rfl

theorem st8_v34 (V : Valuation τ sig (Elt F)) :
    after opsS8 V (main_v34 : DevRef τ sig) = negBot (V (main_v30 : DevRef τ sig)) := by
  after_results_simp
  rfl

theorem st9 (V : Valuation τ sig (Elt F)) :
    after opsS9 V (main_v36 : DevRef τ sig) = negOf (V (main_v33 : DevRef τ sig)) (V (main_v34 : DevRef τ sig)) := by
  after_results_simp
  rfl

theorem fr9_v32 (V : Valuation τ sig (Elt F)) :
    after opsS9 V (main_v32 : DevRef τ sig) = (V (main_v32 : DevRef τ sig)) := by
  after_results_simp

theorem st10 (V : Valuation τ sig (Elt F)) :
    after opsS10 V (main_v37 : DevRef τ sig) = posCol (V (main_v32 : DevRef τ sig)) := by
  after_results_simp
  rfl

theorem fr10_v36 (V : Valuation τ sig (Elt F)) :
    after opsS10 V (main_v36 : DevRef τ sig) = (V (main_v36 : DevRef τ sig)) := by
  after_results_simp

theorem st11 (V : Valuation τ sig (Elt F)) :
    after opsS11 V (main_v40 : DevRef τ sig) = logitsOf (V (main_v37 : DevRef τ sig)) (V (main_v36 : DevRef τ sig)) := by
  after_results_simp
  rfl

theorem st12a1 (V : Valuation τ sig (Elt F)) :
    after opsS12a1 V (main_call2_cst : DevRef τ sig) = negInf := by
  after_results_simp
  rfl

theorem fr12a1_v40 (V : Valuation τ sig (Elt F)) :
    after opsS12a1 V (main_v40 : DevRef τ sig) = (V (main_v40 : DevRef τ sig)) := by
  after_results_simp

theorem fr12a2_v40 (V : Valuation τ sig (Elt F)) :
    after opsS12a2 V (main_v40 : DevRef τ sig) = (V (main_v40 : DevRef τ sig)) := by
  after_results_simp

/-- The row-maximum operation of the log-softmax, written over typed references, is the plain binary operation on
    the same three buffers, whatever its function. -/
theorem op_rowMax_eq (f : (⟨S8192x8191, .f32⟩ : BufTy).Contents (Elt F) → (⟨S_, .f32⟩ : BufTy).Contents (Elt F) → (⟨S8192, .f32⟩ : BufTy).Contents (Elt F)) :
    (StableHlo.TRef.binary (.of main_v40 : TRef sig ⟨S8192x8191, .f32⟩) main_call2.cst main_call2.v0 f : HloOp τ sig (Elt F))
      = StableHlo.binary main_v40 main_call2_cst main_call2_v0 f := rfl

theorem opsS12a2_eq : (opsS12a2 : List (HloOp τ sig (Elt F))) = StableHlo.binary main_v40 main_call2_cst main_call2_v0 rowMaxRaw :: [] :=
  congrArg₂ List.cons (op_rowMax_eq _) rfl

theorem st12a2 (V : Valuation τ sig (Elt F)) :
    after opsS12a2 V (main_call2_v0 : DevRef τ sig) = rowMaxRaw (V (main_v40 : DevRef τ sig)) (V (main_call2_cst : DevRef τ sig)) := by
  rw [opsS12a2_eq]
  after_results_simp

theorem st12a3 (V : Valuation τ sig (Elt F)) :
    after opsS12a3 V (main_call2_v5 : DevRef τ sig) = shiftedOf (V (main_v40 : DevRef τ sig)) (V (main_call2_v0 : DevRef τ sig)) := by
  after_results_simp
  rfl

theorem st12b (V : Valuation τ sig (Elt F)) :
    after opsS12b V (main_v41 : DevRef τ sig) = lsmOf (V (main_call2_v5 : DevRef τ sig)) := by
  after_results_simp
  rfl

theorem st13 (V : Valuation τ sig (Elt F)) :
    after opsS13 V (main_v44 : DevRef τ sig) = lossOf (V (main_v41 : DevRef τ sig)) := by
  after_results_simp
  rfl

theorem st14 (V : Valuation τ sig (Elt F)) :
    after opsS14 V (main_v46 : DevRef τ sig) = final (V (main_v44 : DevRef τ sig)) := by
  after_results_simp
  rfl

end Cert.ReferenceIdeal.RefRun

end
-- ==== Proof.RefRun.lean ====
import proofs.«118001_j3702261809487_2_alg».proof.Proof.RefRunSegs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What the whole line leaves in the result buffer: the stretches' equations composed, last stretch first. -/
theorem value_eq (V : Valuation τ sig (Elt F)) :
    after ops V (main_v46 : DevRef τ sig) = result (V (main_arg0 : DevRef τ sig)) (V (main_arg1 : DevRef τ sig)) := by
  rw [ops_split]
  simp only [after_app]
  rw [st14, st13, st12b, st12a3, fr12a2_v40, st12a2, fr12a1_v40, st12a1, st11, st10, fr10_v36, st9, fr9_v32, st8_v32, st8_v33, st8_v34, st7, st6_v27, st6_v28, fr6_v7, st5, fr5_v7, fr5_v15, st4b, fr4b_v7, fr4b_v9, st4a_r, st4a_m, fr4a_v7, fr4a_v9, st3_v9, st3_v14, fr3_v7, st2, st1]
  rfl

set_option maxRecDepth 8192 in
/-- No operation writes the first argument. -/
theorem arg0_eq (V : Valuation τ sig (Elt F)) : after ops V (main_arg0 : DevRef τ sig) = V (main_arg0 : DevRef τ sig) := by
  after_results_simp

set_option maxRecDepth 8192 in
/-- No operation writes the second argument. -/
theorem arg1_eq (V : Valuation τ sig (Elt F)) : after ops V (main_arg1 : DevRef τ sig) = V (main_arg1 : DevRef τ sig) := by
  after_results_simp

/-- On the device, for any float values, from any memory with zero counters: every weakly fair execution of the
    program terminates with the result buffer at `result` of the two arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (value_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Claims.lean ====
/-
  The five claims. The kernel program and the reference both normalise the rows of the stacked arguments to x, form the
  Gram matrix S = x·xᵀ, re-index it along its shifted diagonals, split off the positives and the negatives, and take
  the mean over the rows of log(exp p + Σ exp n) − p (temperature 1/2): the kernel as logaddexp(p, logsumexp n) − p, the
  reference as minus the log-softmax of [p, n…] at p. Under the precondition every entry of the arguments is a real,
  so every entry of x, of S and of the re-indexed table is a real, and the two row losses are then one real number
  (the log-sum-exp law, which needs the values finite). The kernel's Gram matrix is written block by block by the
  region; the reference's by one matrix product: entry (a, b) is Σₖ x(a,k)·x(b,k) on both sides.
-/
import proofs.«118001_j3702261809487_2_alg».proof.Defs
import proofs.«118001_j3702261809487_2_alg».proof.Proof.KBFrame
import proofs.«118001_j3702261809487_2_alg».proof.Proof.KIFrame
import proofs.«118001_j3702261809487_2_alg».proof.Proof.KIValue
import proofs.«118001_j3702261809487_2_alg».proof.Proof.KITail
import proofs.«118001_j3702261809487_2_alg».proof.Proof.Bridge
import proofs.«118001_j3702261809487_2_alg».proof.Proof.LossRows
import proofs.«118001_j3702261809487_2_alg».proof.Proof.PosNegReal
import proofs.«118001_j3702261809487_2_alg».proof.Proof.Finite
import proofs.«118001_j3702261809487_2_alg».proof.Proof.RefRun
import proofs.«118001_j3702261809487_2_alg».proof.Proof.Gen.Pre_finite_inputs

set_option maxRecDepth 16384

noncomputable section

namespace Cert.Proof.Claims

open Idealize.ShloMosaic Idealize.ShloMosaic.TcCoe Idealize.ShloMosaic.ValueIdx Idealize.SL.Sem

/-- Rounding to the matrix unit's input format is the identity on exact values, so the Gram matrix of the rounded
    rows is the reference's matrix product of x with its transpose. -/
theorem gramOf_xbf (x : (⟨Cert.KernelIdeal.S8192x512, .f32⟩ : BufTy).Contents (Elt Ideal)) :
    Cert.KernelIdeal.Hand.gramOf (Cert.KernelIdeal.Hand.xbf x) = Cert.Gram.gramR x := by
  funext i
  obtain ⟨a, b, rfl⟩ : ∃ a b : Fin 8192, i = ix2 a b := ⟨i 0, i 1, eq_ix2 i⟩
  rw [Cert.Gram.gramR_apply]
  unfold Cert.KernelIdeal.Hand.gramOf
  exact Finset.sum_congr rfl fun k _ => rfl

open Cert.KernelIdeal Cert.KernelIdeal.Gen in
/-- The kernel program's result buffer at the return, as a function of the launch contents of the two arguments. -/
theorem kernel_value (m : (ℓ : Loc nD τ sig) → Buf (Elt Ideal) ℓ) (ρ : Dev nD → PrngReg) (c : Dev nD) :
    Cert.KernelIdeal.Hand.W5 m ρ c (Proc.devRef .tc main_v48)
      = Cert.KernelIdeal.Hand.tailK (Cert.Gram.gramR (Cert.Gram.xnorm (m ((c : Thread nD τ).loc main_arg0)) (m ((c : Thread nD τ).loc main_arg1)))) := by
  show StableHlo.after hostOps1_2 (StableHlo.after hostOps1_1 (StableHlo.after hostOps1 (Cert.KernelIdeal.Hand.W2 m ρ c))) (Proc.devRef .tc main_v48) = _
  rw [Cert.KernelIdeal.Hand.tail_of, Cert.KernelIdeal.Hand.W2_gram]
  show Cert.KernelIdeal.Hand.tailK ((Cert.KernelIdeal.Hand.dat0 (Cert.KernelIdeal.Hand.V1 m ρ) c).arrAt 2 cfg0.N) = _
  rw [Cert.KernelIdeal.Hand.gram_final]
  show Cert.KernelIdeal.Hand.tailK (Cert.KernelIdeal.Hand.gramOf (Cert.KernelIdeal.Hand.W1 m ρ c (Proc.devRef .tc main_v6))) = _
  rw [Cert.KernelIdeal.Hand.entry_x, gramOf_xbf]

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both idealized programs run, and end with one value: the tail function of the Gram matrix of the normalised
    rows of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.tailK (Cert.Gram.gramR (Cert.Gram.xnorm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))), ?_, ?_⟩
  · refine (θ_run Cert.KernelIdeal.defs _ _).mono (fun r h c => ⟨?_, ?_, ?_⟩) (Cert.KernelIdeal.Hand.run_main m ρ)
    · exact (h c _ (Cert.KernelIdeal.Hand.mem_uc Cert.KernelIdeal.main_v48 (by decide))).trans (kernel_value m ρ c)
    · exact (h c _ (Cert.KernelIdeal.Hand.mem_uc Cert.KernelIdeal.main_arg0 (by decide))).trans (Cert.KernelIdeal.Hand.W5_arg m ρ c Cert.KernelIdeal.main_arg0 (Or.inl rfl))
    · exact (h c _ (Cert.KernelIdeal.Hand.mem_uc Cert.KernelIdeal.main_arg1 (by decide))).trans (Cert.KernelIdeal.Hand.W5_arg m ρ c Cert.KernelIdeal.main_arg1 (Or.inr rfl))
  · refine (θ_run Cert.ReferenceIdeal.defs _ _).mono (fun r h c => ⟨(h c).1.trans ?_, (h c).2.1, (h c).2.2⟩)
      (Cert.ReferenceIdeal.RefRun.run (F := Ideal) m' ρ')
    rw [(hagree c).1, (hagree c).2]
    obtain ⟨h0, h1⟩ := Cert.Gram.args_real m hpre c
    exact (Cert.Bridge.value_eq (fun p n hp hn => Cert.LossRows.loss_eq p n hp hn) Cert.PosNeg.pos_real Cert.PosNeg.neg_real _ _ h0 h1).symm

end Cert.Proof.Claims

end
-- ==== Proof.lean ====
/-
  The proof of this certificate's claim: a cosine-similarity contrastive loss computed by a Pallas matrix-product
  kernel with host code around it, against its jnp reference, equal on the extended reals whenever the inputs are
  finite. The witnesses of the programs' stated facts come first; the five claims are proved in Proof/Claims.lean:
  the three frames (each program runs to the end, faults nowhere and leaves its arguments unchanged), the
  idealization's ledger (empty), and the equality of the two idealized programs' results.
-/
import proofs.«118001_j3702261809487_2_alg».proof.Defs
import proofs.«118001_j3702261809487_2_alg».proof.Proof.Gen.Kernel
import proofs.«118001_j3702261809487_2_alg».proof.Proof.Gen.KernelIdeal
import proofs.«118001_j3702261809487_2_alg».proof.Proof.Gen.ReferenceIdeal
import proofs.«118001_j3702261809487_2_alg».proof.Proof.Gen.Pre_finite_inputs
import proofs.«118001_j3702261809487_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
